-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x150 : Shape := ⟨2, ![100000, 150]⟩
abbrev S1600000 : Shape := ⟨1, ![1600000]⟩
abbrev S100000 : Shape := ⟨1, ![100000]⟩
abbrev S450x150 : Shape := ⟨2, ![450, 150]⟩
abbrev S450 : Shape := ⟨1, ![450]⟩
abbrev S80x150 : Shape := ⟨2, ![80, 150]⟩
abbrev S80 : Shape := ⟨1, ![80]⟩
abbrev S80x80 : Shape := ⟨2, ![80, 80]⟩
abbrev S10x80 : Shape := ⟨2, ![10, 80]⟩
abbrev S10 : Shape := ⟨1, ![10]⟩
abbrev S_ : Shape := ⟨0, ![]⟩

class Facts : Prop where
  bcast_S_S100000x150 : S_.BroadcastsInDim S100000x150 (![] : Fin 0 → Fin S100000x150.rank)
  reducesTo_S100000x150_S_d0_1 : S100000x150.ReducesTo [0, 1] S_
  h_S_ : 0 < S_.numel
  bcast_S_S450x150 : S_.BroadcastsInDim S450x150 (![] : Fin 0 → Fin S450x150.rank)
  reducesTo_S450x150_S_d0_1 : S450x150.ReducesTo [0, 1] S_
  bcast_S_S450 : S_.BroadcastsInDim S450 (![] : Fin 0 → Fin S450.rank)
  reducesTo_S450_S_d0 : S450.ReducesTo [0] S_
  bcast_S_S80x150 : S_.BroadcastsInDim S80x150 (![] : Fin 0 → Fin S80x150.rank)
  reducesTo_S80x150_S_d0_1 : S80x150.ReducesTo [0, 1] S_
  bcast_S_S80 : S_.BroadcastsInDim S80 (![] : Fin 0 → Fin S80.rank)
  reducesTo_S80_S_d0 : S80.ReducesTo [0] S_
  bcast_S_S80x80 : S_.BroadcastsInDim S80x80 (![] : Fin 0 → Fin S80x80.rank)
  reducesTo_S80x80_S_d0_1 : S80x80.ReducesTo [0, 1] S_
  bcast_S_S10x80 : S_.BroadcastsInDim S10x80 (![] : Fin 0 → Fin S10x80.rank)
  reducesTo_S10x80_S_d0_1 : S10x80.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg10 : FVec F S80x80 .f32) (main_arg11 : FVec F S80 .f32) (main_arg12 : FVec F S10x80 .f32) (main_arg13 : FVec F S10 .f32) (main_v33 : IVec S_ 1) : IVec S_ 1 :=
  let main_v34 : FVec F S80x80 .f32 := Host.absf main_arg10
  let main_cst_12 : FVec F S_ .f32 := constant S_ .f32 0x7F800000#32
  let main_v35 : FVec F S80x80 .f32 := broadcastInDim S80x80 ![] bcast_S_S80x80 main_cst_12
  let main_v36 : IVec S80x80 1 := cmpf .olt main_v34 main_v35
  let main_c_13 : IVec S_ 1 := constantI S_ 1 1#1
  let main_v37 : IVec S_ 1 := (fun x v => Host.reduce IntOp.andi x v reducesTo_S80x80_S_d0_1 h_S_) main_v36 main_c_13
  let main_v38 : IVec S_ 1 := andi main_v33 main_v37
  let main_v39 : FVec F S80 .f32 := Host.absf main_arg11
  let main_cst_14 : FVec F S_ .f32 := constant S_ .f32 0x7F800000#32
  let main_v40 : FVec F S80 .f32 := broadcastInDim S80 ![] bcast_S_S80 main_cst_14
  let main_v41 : IVec S80 1 := cmpf .olt main_v39 main_v40
  let main_c_15 : IVec S_ 1 := constantI S_ 1 1#1
  let main_v42 : IVec S_ 1 := (fun x v => Host.reduce IntOp.andi x v reducesTo_S80_S_d0 h_S_) main_v41 main_c_15
  let main_v43 : IVec S_ 1 := andi main_v38 main_v42
  let main_v44 : FVec F S10x80 .f32 := Host.absf main_arg12
  let main_cst_16 : FVec F S_ .f32 := constant S_ .f32 0x7F800000#32
  let main_v45 : FVec F S10x80 .f32 := broadcastInDim S10x80 ![] bcast_S_S10x80 main_cst_16
  let main_v46 : IVec S10x80 1 := cmpf .olt main_v44 main_v45
  let main_c_17 : IVec S_ 1 := constantI S_ 1 1#1
  let main_v47 : IVec S_ 1 := (fun x v => Host.reduce IntOp.andi x v reducesTo_S10x80_S_d0_1 h_S_) main_v46 main_c_17
  let main_v48 : IVec S_ 1 := andi main_v43 main_v47
  let main_v49 : FVec F S10 .f32 := Host.absf main_arg13
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg7 : FVec F S450 .f32) (main_arg8 : FVec F S80x150 .f32) (main_arg9 : FVec F S80 .f32) (main_arg10 : FVec F S80x80 .f32) (main_arg11 : FVec F S80 .f32) (main_arg12 : FVec F S10x80 .f32) (main_arg13 : FVec F S10 .f32) (main_v13 : IVec S_ 1) (main_v16 : IVec S450 1) : IVec S_ 1 :=
  let main_c_5 : IVec S_ 1 := constantI S_ 1 1#1
  let main_v17 : IVec S_ 1 := (fun x v => Host.reduce IntOp.andi x v reducesTo_S450_S_d0 h_S_) main_v16 main_c_5
  let main_v18 : IVec S_ 1 := andi main_v13 main_v17
  let main_v19 : FVec F S450 .f32 := Host.absf main_arg7
  let main_cst_6 : FVec F S_ .f32 := constant S_ .f32 0x7F800000#32
  let main_v20 : FVec F S450 .f32 := broadcastInDim S450 ![] bcast_S_S450 main_cst_6
  let main_v21 : IVec S450 1 := cmpf .olt main_v19 main_v20
  let main_c_7 : IVec S_ 1 := constantI S_ 1 1#1
  let main_v22 : IVec S_ 1 := (fun x v => Host.reduce IntOp.andi x v reducesTo_S450_S_d0 h_S_) main_v21 main_c_7
  let main_v23 : IVec S_ 1 := andi main_v18 main_v22
  let main_v24 : FVec F S80x150 .f32 := Host.absf main_arg8
  let main_cst_8 : FVec F S_ .f32 := constant S_ .f32 0x7F800000#32
  let main_v25 : FVec F S80x150 .f32 := broadcastInDim S80x150 ![] bcast_S_S80x150 main_cst_8
  let main_v26 : IVec S80x150 1 := cmpf .olt main_v24 main_v25
  let main_c_9 : IVec S_ 1 := constantI S_ 1 1#1
  let main_v27 : IVec S_ 1 := (fun x v => Host.reduce IntOp.andi x v reducesTo_S80x150_S_d0_1 h_S_) main_v26 main_c_9
  let main_v28 : IVec S_ 1 := andi main_v23 main_v27
  let main_v29 : FVec F S80 .f32 := Host.absf main_arg9
  let main_cst_10 : FVec F S_ .f32 := constant S_ .f32 0x7F800000#32
  let main_v30 : FVec F S80 .f32 := broadcastInDim S80 ![] bcast_S_S80 main_cst_10
  let main_v31 : IVec S80 1 := cmpf .olt main_v29 main_v30
  let main_c_11 : IVec S_ 1 := constantI S_ 1 1#1
  let main_v32 : IVec S_ 1 := (fun x v => Host.reduce IntOp.andi x v reducesTo_S80_S_d0 h_S_) main_v31 main_c_11
  let main_v33 : IVec S_ 1 := andi main_v28 main_v32
  fn_part2 (F := F) main_arg10 main_arg11 main_arg12 main_arg13 main_v33

def fn {F : FTy → Type} [FloatOps F] (main_arg0 : FVec F S100000x150 .f32) (main_arg1 : IVec S1600000 32) (main_arg2 : IVec S1600000 32) (main_arg3 : IVec S100000 32) (main_arg4 : FVec F S450x150 .f32) (main_arg5 : FVec F S450x150 .f32) (main_arg6 : FVec F S450 .f32) (main_arg7 : FVec F S450 .f32) (main_arg8 : FVec F S80x150 .f32) (main_arg9 : FVec F S80 .f32) (main_arg10 : FVec F S80x80 .f32) (main_arg11 : FVec F S80 .f32) (main_arg12 : FVec F S10x80 .f32) (main_arg13 : FVec F S10 .f32) : IVec S_ 1 :=
  let main_v0 : FVec F S100000x150 .f32 := Host.absf main_arg0
  let main_cst : FVec F S_ .f32 := constant S_ .f32 0x7F800000#32
  let main_v1 : FVec F S100000x150 .f32 := broadcastInDim S100000x150 ![] bcast_S_S100000x150 main_cst
  let main_v2 : IVec S100000x150 1 := cmpf .olt main_v0 main_v1
  let main_c : IVec S_ 1 := constantI S_ 1 1#1
  let main_v3 : IVec S_ 1 := (fun x v => Host.reduce IntOp.andi x v reducesTo_S100000x150_S_d0_1 h_S_) main_v2 main_c
  let main_v4 : FVec F S450x150 .f32 := Host.absf main_arg4
  let main_cst_0 : FVec F S_ .f32 := constant S_ .f32 0x7F800000#32
  let main_v5 : FVec F S450x150 .f32 := broadcastInDim S450x150 ![] bcast_S_S450x150 main_cst_0
  let main_v6 : IVec S450x150 1 := cmpf .olt main_v4 main_v5
  let main_c_1 : IVec S_ 1 := constantI S_ 1 1#1
  let main_v7 : IVec S_ 1 := (fun x v => Host.reduce IntOp.andi x v reducesTo_S450x150_S_d0_1 h_S_) main_v6 main_c_1
  let main_v8 : IVec S_ 1 := andi main_v3 main_v7
  let main_v9 : FVec F S450x150 .f32 := Host.absf main_arg5
  let main_cst_2 : FVec F S_ .f32 := constant S_ .f32 0x7F800000#32
  let main_v10 : FVec F S450x150 .f32 := broadcastInDim S450x150 ![] bcast_S_S450x150 main_cst_2
  let main_v11 : IVec S450x150 1 := cmpf .olt main_v9 main_v10
  let main_c_3 : IVec S_ 1 := constantI S_ 1 1#1
  let main_v12 : IVec S_ 1 := (fun x v => Host.reduce IntOp.andi x v reducesTo_S450x150_S_d0_1 h_S_) main_v11 main_c_3
  let main_v13 : IVec S_ 1 := andi main_v8 main_v12
  let main_v14 : FVec F S450 .f32 := Host.absf main_arg6
  let main_cst_4 : FVec F S_ .f32 := constant S_ .f32 0x7F800000#32
  let main_v15 : FVec F S450 .f32 := broadcastInDim S450 ![] bcast_S_S450 main_cst_4
  let main_v16 : IVec S450 1 := cmpf .olt main_v14 main_v15
  fn_part1 (F := F) main_arg7 main_arg8 main_arg9 main_arg10 main_arg11 main_arg12 main_arg13 main_v13 main_v16
-- ==== Kernel.lean ====
abbrev S100000x150 : Shape := ⟨2, ![100000, 150]⟩
abbrev S1600000 : Shape := ⟨1, ![1600000]⟩
abbrev S100000 : Shape := ⟨1, ![100000]⟩
abbrev S450x150 : Shape := ⟨2, ![450, 150]⟩
abbrev S450 : Shape := ⟨1, ![450]⟩
abbrev S80x150 : Shape := ⟨2, ![80, 150]⟩
abbrev S80 : Shape := ⟨1, ![80]⟩
abbrev S80x80 : Shape := ⟨2, ![80, 80]⟩
abbrev S10x80 : Shape := ⟨2, ![10, 80]⟩
abbrev S10 : Shape := ⟨1, ![10]⟩
abbrev S150x450 : Shape := ⟨2, ![150, 450]⟩
abbrev S1x450 : Shape := ⟨2, ![1, 450]⟩
abbrev S150x80 : Shape := ⟨2, ![150, 80]⟩
abbrev S80x10 : Shape := ⟨2, ![80, 10]⟩
abbrev S1x80 : Shape := ⟨2, ![1, 80]⟩
abbrev S1x10 : Shape := ⟨2, ![1, 10]⟩
abbrev S_ : Shape := ⟨0, ![]⟩
abbrev S1600000x1 : Shape := ⟨2, ![1600000, 1]⟩
abbrev S1600000x150 : Shape := ⟨2, ![1600000, 150]⟩
abbrev S1000x150 : Shape := ⟨2, ![1000, 150]⟩
abbrev S1000x450 : Shape := ⟨2, ![1000, 450]⟩
abbrev S64x150 : Shape := ⟨2, ![64, 150]⟩
abbrev S100000x1 : Shape := ⟨2, ![100000, 1]⟩
abbrev S64x10 : Shape := ⟨2, ![64, 10]⟩
abbrev S64x80 : Shape := ⟨2, ![64, 80]⟩

abbrev nBuf : Space → Nat
  | .hbm => 85
  | .vmem => 48
  | .smem => 0
  | _ => 0

abbrev bufTy : (tb : Table) → Fin (tcTables nBuf tb) → BufTy
  | .hbm, ⟨0, _⟩ => ⟨S100000x150, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S450x150, .f32⟩
  | .hbm, ⟨5, _⟩ => ⟨S450x150, .f32⟩
  | .hbm, ⟨6, _⟩ => ⟨S450, .f32⟩
  | .hbm, ⟨7, _⟩ => ⟨S450, .f32⟩
  | .hbm, ⟨8, _⟩ => ⟨S80x150, .f32⟩
  | .hbm, ⟨9, _⟩ => ⟨S80, .f32⟩
  | .hbm, ⟨10, _⟩ => ⟨S80x80, .f32⟩
  | .hbm, ⟨11, _⟩ => ⟨S80, .f32⟩
  | .hbm, ⟨12, _⟩ => ⟨S10x80, .f32⟩
  | .hbm, ⟨13, _⟩ => ⟨S10, .f32⟩
  | .hbm, ⟨14, _⟩ => ⟨S150x450, .f32⟩
  | .hbm, ⟨15, _⟩ => ⟨S150x450, .f32⟩
  | .hbm, ⟨16, _⟩ => ⟨S1x450, .f32⟩
  | .hbm, ⟨17, _⟩ => ⟨S1x450, .f32⟩
  | .hbm, ⟨18, _⟩ => ⟨S150x80, .f32⟩
  | .hbm, ⟨19, _⟩ => ⟨S80x80, .f32⟩
  | .hbm, ⟨20, _⟩ => ⟨S80x10, .f32⟩
  | .hbm, ⟨21, _⟩ => ⟨S1x80, .f32⟩
  | .hbm, ⟨22, _⟩ => ⟨S1x80, .f32⟩
  | .hbm, ⟨23, _⟩ => ⟨S1x10, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x150, .f32⟩
  | .hbm, ⟨33, _⟩ => ⟨S_, .f32⟩
  | .hbm, ⟨34, _⟩ => ⟨S100000x150, .f32⟩
  | .hbm, ⟨35, _⟩ => ⟨S1600000x1, .i32⟩
  | .hbm, ⟨36, _⟩ => ⟨S100000x150, .f32⟩
  | .hbm, ⟨37, _⟩ => ⟨S100000x150, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x150, .f32⟩
  | .hbm, ⟨47, _⟩ => ⟨S_, .f32⟩
  | .hbm, ⟨48, _⟩ => ⟨S100000x150, .f32⟩
  | .hbm, ⟨49, _⟩ => ⟨S1600000x1, .i32⟩
  | .hbm, ⟨50, _⟩ => ⟨S100000x150, .f32⟩
  | .hbm, ⟨51, _⟩ => ⟨S100000x150, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x150, .f32⟩
  | .hbm, ⟨61, _⟩ => ⟨S_, .f32⟩
  | .hbm, ⟨62, _⟩ => ⟨S100000x150, .f32⟩
  | .hbm, ⟨63, _⟩ => ⟨S1600000x1, .i32⟩
  | .hbm, ⟨64, _⟩ => ⟨S100000x150, .f32⟩
  | .hbm, ⟨65, _⟩ => ⟨S100000x150, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x150, .f32⟩
  | .hbm, ⟨75, _⟩ => ⟨S_, .f32⟩
  | .hbm, ⟨76, _⟩ => ⟨S100000x150, .f32⟩
  | .hbm, ⟨77, _⟩ => ⟨S1600000x1, .i32⟩
  | .hbm, ⟨78, _⟩ => ⟨S100000x150, .f32⟩
  | .hbm, ⟨79, _⟩ => ⟨S100000x150, .f32⟩
  | .hbm, ⟨80, _⟩ => ⟨S_, .f32⟩
  | .hbm, ⟨81, _⟩ => ⟨S64x150, .f32⟩
  | .hbm, ⟨82, _⟩ => ⟨S100000x1, .i32⟩
  | .hbm, ⟨83, _⟩ => ⟨S64x150, .f32⟩
  | .hbm, ⟨84, _⟩ => ⟨S64x10, .f32⟩
  | .local _ .vmem, ⟨0, _⟩ => ⟨S1000x150, .f32⟩
  | .local _ .vmem, ⟨1, _⟩ => ⟨S1000x150, .f32⟩
  | .local _ .vmem, ⟨2, _⟩ => ⟨S1000x150, .f32⟩
  | .local _ .vmem, ⟨3, _⟩ => ⟨S1000x150, .f32⟩
  | .local _ .vmem, ⟨4, _⟩ => ⟨S150x450, .f32⟩
  | .local _ .vmem, ⟨5, _⟩ => ⟨S150x450, .f32⟩
  | .local _ .vmem, ⟨6, _⟩ => ⟨S1x450, .f32⟩
  | .local _ .vmem, ⟨7, _⟩ => ⟨S1x450, .f32⟩
  | .local _ .vmem, ⟨8, _⟩ => ⟨S1000x150, .f32⟩
  | .local _ .vmem, ⟨9, _⟩ => ⟨S1000x150, .f32⟩
  | .local _ .vmem, ⟨10, _⟩ => ⟨S1000x150, .f32⟩
  | .local _ .vmem, ⟨11, _⟩ => ⟨S1000x150, .f32⟩
  | .local _ .vmem, ⟨12, _⟩ => ⟨S1000x150, .f32⟩
  | .local _ .vmem, ⟨13, _⟩ => ⟨S1000x150, .f32⟩
  | .local _ .vmem, ⟨14, _⟩ => ⟨S150x450, .f32⟩
  | .local _ .vmem, ⟨15, _⟩ => ⟨S150x450, .f32⟩
  | .local _ .vmem, ⟨16, _⟩ => ⟨S1x450, .f32⟩
  | .local _ .vmem, ⟨17, _⟩ => ⟨S1x450, .f32⟩
  | .local _ .vmem, ⟨18, _⟩ => ⟨S1000x150, .f32⟩
  | .local _ .vmem, ⟨19, _⟩ => ⟨S1000x150, .f32⟩
  | .local _ .vmem, ⟨20, _⟩ => ⟨S1000x150, .f32⟩
  | .local _ .vmem, ⟨21, _⟩ => ⟨S1000x150, .f32⟩
  | .local _ .vmem, ⟨22, _⟩ => ⟨S1000x150, .f32⟩
  | .local _ .vmem, ⟨23, _⟩ => ⟨S1000x150, .f32⟩
  | .local _ .vmem, ⟨24, _⟩ => ⟨S150x450, .f32⟩
  | .local _ .vmem, ⟨25, _⟩ => ⟨S150x450, .f32⟩
  | .local _ .vmem, ⟨26, _⟩ => ⟨S1x450, .f32⟩
  | .local _ .vmem, ⟨27, _⟩ => ⟨S1x450, .f32⟩
  | .local _ .vmem, ⟨28, _⟩ => ⟨S1000x150, .f32⟩
  | .local _ .vmem, ⟨29, _⟩ => ⟨S1000x150, .f32⟩
  | .local _ .vmem, ⟨30, _⟩ => ⟨S1000x150, .f32⟩
  | .local _ .vmem, ⟨31, _⟩ => ⟨S1000x150, .f32⟩
  | .local _ .vmem, ⟨32, _⟩ => ⟨S1000x150, .f32⟩
  | .local _ .vmem, ⟨33, _⟩ => ⟨S1000x150, .f32⟩
  | .local _ .vmem, ⟨34, _⟩ => ⟨S150x450, .f32⟩
  | .local _ .vmem, ⟨35, _⟩ => ⟨S150x450, .f32⟩
  | .local _ .vmem, ⟨36, _⟩ => ⟨S1x450, .f32⟩
  | .local _ .vmem, ⟨37, _⟩ => ⟨S1x450, .f32⟩
  | .local _ .vmem, ⟨38, _⟩ => ⟨S1000x150, .f32⟩
  | .local _ .vmem, ⟨39, _⟩ => ⟨S1000x150, .f32⟩
  | .local _ .vmem, ⟨40, _⟩ => ⟨S64x150, .f32⟩
  | .local _ .vmem, ⟨41, _⟩ => ⟨S150x80, .f32⟩
  | .local _ .vmem, ⟨42, _⟩ => ⟨S1x80, .f32⟩
  | .local _ .vmem, ⟨43, _⟩ => ⟨S80x80, .f32⟩
  | .local _ .vmem, ⟨44, _⟩ => ⟨S1x80, .f32⟩
  | .local _ .vmem, ⟨45, _⟩ => ⟨S80x10, .f32⟩
  | .local _ .vmem, ⟨46, _⟩ => ⟨S1x10, .f32⟩
  | .local _ .vmem, ⟨47, _⟩ => ⟨S64x10, .f32⟩
  | _, _ => ⟨S100000x150, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x150 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x150 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S150x450 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S150x450 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x450 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x450 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x150 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x150 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x150 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S150x450 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S150x450 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x450 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x450 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x150 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x150 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x150 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S150x450 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S150x450 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x450 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x450 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1000x150 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x150 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x150 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S150x450 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S150x450 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x450 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x450 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x150 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x150 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S150x80 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x80 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S80x80 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x80 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S80x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x10 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  transposes_S450x150_S150x450_1_0 : S450x150.Transposes [1, 0] S150x450
  shapeCasts_S450_S1x450 : S450.ShapeCasts S1x450
  transposes_S80x150_S150x80_1_0 : S80x150.Transposes [1, 0] S150x80
  transposes_S80x80_S80x80_1_0 : S80x80.Transposes [1, 0] S80x80
  transposes_S10x80_S80x10_1_0 : S10x80.Transposes [1, 0] S80x10
  shapeCasts_S80_S1x80 : S80.ShapeCasts S1x80
  shapeCasts_S10_S1x10 : S10.ShapeCasts S1x10
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x150 : S_.BroadcastsInDim S100000x150 (![] : Fin 0 → Fin S100000x150.rank)
  inb_S1000x150_S1000x150_0_0 : ∀ a, (![0, 0] : Fin 2 → Nat) a + S1000x150.size a ≤ S1000x150.size a
  h_S1000x150 : 0 < S1000x150.numel
  shapeCasts_S1000x150_S1000x150 : S1000x150.ShapeCasts S1000x150
  bitsLt_bf16_f32 : FTy.bits .bf16 < FTy.bits .f32
  inb_S150x450_S150x450_0_0 : ∀ a, (![0, 0] : Fin 2 → Nat) a + S150x450.size a ≤ S150x450.size a
  h_S150x450 : 0 < S150x450.numel
  shapeCasts_S150x450_S150x450 : S150x450.ShapeCasts S150x450
  inb_S1x450_S1x450_0_0 : ∀ a, (![0, 0] : Fin 2 → Nat) a + S1x450.size a ≤ S1x450.size a
  h_S1x450 : 0 < S1x450.numel
  shapeCasts_S1x450_S1x450 : S1x450.ShapeCasts S1x450
  broadcasts_S1x450_S1000x450 : S1x450.Broadcasts S1000x450
  slices_S1000x450_o0_0_S1000x150 : S1000x450.Slices ![0, 0] S1000x150
  slices_S1000x450_o0_150_S1000x150 : S1000x450.Slices ![0, 150] S1000x150
  slices_S1000x450_o0_300_S1000x150 : S1000x450.Slices ![0, 300] S1000x150
  bcast_S_S64x150 : S_.BroadcastsInDim S64x150 (![] : Fin 0 → Fin S64x150.rank)
  bcast_S100000_S100000x1_0 : S100000.BroadcastsInDim S100000x1 (![0] : Fin 1 → Fin S100000x1.rank)
  inb_S64x150_S64x150_0_0 : ∀ a, (![0, 0] : Fin 2 → Nat) a + S64x150.size a ≤ S64x150.size a
  h_S64x150 : 0 < S64x150.numel
  shapeCasts_S64x150_S64x150 : S64x150.ShapeCasts S64x150
  inb_S150x80_S150x80_0_0 : ∀ a, (![0, 0] : Fin 2 → Nat) a + S150x80.size a ≤ S150x80.size a
  h_S150x80 : 0 < S150x80.numel
  shapeCasts_S150x80_S150x80 : S150x80.ShapeCasts S150x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S64x80 : S1x80.Broadcasts S64x80
  inb_S80x80_S80x80_0_0 : ∀ a, (![0, 0] : Fin 2 → Nat) a + S80x80.size a ≤ S80x80.size a
  h_S80x80 : 0 < S80x80.numel
  shapeCasts_S80x80_S80x80 : S80x80.ShapeCasts S80x80
  inb_S80x10_S80x10_0_0 : ∀ a, (![0, 0] : Fin 2 → Nat) a + S80x10.size a ≤ S80x10.size a
  h_S80x10 : 0 < S80x10.numel
  shapeCasts_S80x10_S80x10 : S80x10.ShapeCasts S80x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S1000x150_S150x450_S1000x450_1_0_0_1_n_n_wf : DotDims.WF S1000x150 S150x450 S1000x450 [1] [0] [0] [1] [] []
  scatter_S64x150_S100000x1_S100000x150_1_0_0_1_wf : ScatterDims.WF S64x150 S100000x1 S100000x150 [1] [0] [0] 1
  dot_S64x150_S150x80_S64x80_1_0_0_1_n_n_wf : DotDims.WF S64x150 S150x80 S64x80 [1] [0] [0] [1] [] []
  dot_S64x80_S80x80_S64x80_1_0_0_1_n_n_wf : DotDims.WF S64x80 S80x80 S64x80 [1] [0] [0] [1] [] []
  dot_S64x80_S80x10_S64x10_1_0_0_1_n_n_wf : DotDims.WF S64x80 S80x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x150.size a ≤ S100000x150.size a
  hwx0_0 : ∀ i : grid0.Coords, EltTy.bits .f32 = 32 ∨ (Rect.block (s := S100000x150) S1000x150.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x150.size a ≤ S100000x150.size a
  hwx0_1 : ∀ i : grid0.Coords, EltTy.bits .f32 = 32 ∨ (Rect.block (s := S100000x150) S1000x150.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S150x450.size a ≤ S150x450.size a
  hwx0_2 : ∀ i : grid0.Coords, EltTy.bits .f32 = 32 ∨ (Rect.block (s := S150x450) S150x450.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S150x450.size a ≤ S150x450.size a
  hwx0_3 : ∀ i : grid0.Coords, EltTy.bits .f32 = 32 ∨ (Rect.block (s := S150x450) S150x450.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x450.size a ≤ S1x450.size a
  hwx0_4 : ∀ i : grid0.Coords, EltTy.bits .f32 = 32 ∨ (Rect.block (s := S1x450) S1x450.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x450.size a ≤ S1x450.size a
  hwx0_5 : ∀ i : grid0.Coords, EltTy.bits .f32 = 32 ∨ (Rect.block (s := S1x450) S1x450.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x150.size a ≤ S100000x150.size a
  hwx0_6 : ∀ i : grid0.Coords, EltTy.bits .f32 = 32 ∨ (Rect.block (s := S100000x150) S1000x150.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x150.size a ≤ S100000x150.size a
  hwx1_0 : ∀ i : grid1.Coords, EltTy.bits .f32 = 32 ∨ (Rect.block (s := S100000x150) S1000x150.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x150.size a ≤ S100000x150.size a
  hwx1_1 : ∀ i : grid1.Coords, EltTy.bits .f32 = 32 ∨ (Rect.block (s := S100000x150) S1000x150.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S150x450.size a ≤ S150x450.size a
  hwx1_2 : ∀ i : grid1.Coords, EltTy.bits .f32 = 32 ∨ (Rect.block (s := S150x450) S150x450.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S150x450.size a ≤ S150x450.size a
  hwx1_3 : ∀ i : grid1.Coords, EltTy.bits .f32 = 32 ∨ (Rect.block (s := S150x450) S150x450.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x450.size a ≤ S1x450.size a
  hwx1_4 : ∀ i : grid1.Coords, EltTy.bits .f32 = 32 ∨ (Rect.block (s := S1x450) S1x450.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x450.size a ≤ S1x450.size a
  hwx1_5 : ∀ i : grid1.Coords, EltTy.bits .f32 = 32 ∨ (Rect.block (s := S1x450) S1x450.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x150.size a ≤ S100000x150.size a
  hwx1_6 : ∀ i : grid1.Coords, EltTy.bits .f32 = 32 ∨ (Rect.block (s := S100000x150) S1000x150.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x150.size a ≤ S100000x150.size a
  hwx2_0 : ∀ i : grid2.Coords, EltTy.bits .f32 = 32 ∨ (Rect.block (s := S100000x150) S1000x150.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x150.size a ≤ S100000x150.size a
  hwx2_1 : ∀ i : grid2.Coords, EltTy.bits .f32 = 32 ∨ (Rect.block (s := S100000x150) S1000x150.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S150x450.size a ≤ S150x450.size a
  hwx2_2 : ∀ i : grid2.Coords, EltTy.bits .f32 = 32 ∨ (Rect.block (s := S150x450) S150x450.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S150x450.size a ≤ S150x450.size a
  hwx2_3 : ∀ i : grid2.Coords, EltTy.bits .f32 = 32 ∨ (Rect.block (s := S150x450) S150x450.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x450.size a ≤ S1x450.size a
  hwx2_4 : ∀ i : grid2.Coords, EltTy.bits .f32 = 32 ∨ (Rect.block (s := S1x450) S1x450.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x450.size a ≤ S1x450.size a
  hwx2_5 : ∀ i : grid2.Coords, EltTy.bits .f32 = 32 ∨ (Rect.block (s := S1x450) S1x450.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1000x150.size a ≤ S100000x150.size a
  hwx2_6 : ∀ i : grid2.Coords, EltTy.bits .f32 = 32 ∨ (Rect.block (s := S100000x150) S1000x150.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x150.size a ≤ S100000x150.size a
  hwx3_0 : ∀ i : grid3.Coords, EltTy.bits .f32 = 32 ∨ (Rect.block (s := S100000x150) S1000x150.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x150.size a ≤ S100000x150.size a
  hwx3_1 : ∀ i : grid3.Coords, EltTy.bits .f32 = 32 ∨ (Rect.block (s := S100000x150) S1000x150.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S150x450.size a ≤ S150x450.size a
  hwx3_2 : ∀ i : grid3.Coords, EltTy.bits .f32 = 32 ∨ (Rect.block (s := S150x450) S150x450.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S150x450.size a ≤ S150x450.size a
  hwx3_3 : ∀ i : grid3.Coords, EltTy.bits .f32 = 32 ∨ (Rect.block (s := S150x450) S150x450.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x450.size a ≤ S1x450.size a
  hwx3_4 : ∀ i : grid3.Coords, EltTy.bits .f32 = 32 ∨ (Rect.block (s := S1x450) S1x450.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x450.size a ≤ S1x450.size a
  hwx3_5 : ∀ i : grid3.Coords, EltTy.bits .f32 = 32 ∨ (Rect.block (s := S1x450) S1x450.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x150.size a ≤ S100000x150.size a
  hwx3_6 : ∀ i : grid3.Coords, EltTy.bits .f32 = 32 ∨ (Rect.block (s := S100000x150) S1000x150.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x150.size a ≤ S64x150.size a
  hwx4_0 : ∀ i : grid4.Coords, EltTy.bits .f32 = 32 ∨ (Rect.block (s := S64x150) S64x150.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S150x80.size a ≤ S150x80.size a
  hwx4_1 : ∀ i : grid4.Coords, EltTy.bits .f32 = 32 ∨ (Rect.block (s := S150x80) S150x80.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x80.size a ≤ S1x80.size a
  hwx4_2 : ∀ i : grid4.Coords, EltTy.bits .f32 = 32 ∨ (Rect.block (s := S1x80) S1x80.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S80x80.size a ≤ S80x80.size a
  hwx4_3 : ∀ i : grid4.Coords, EltTy.bits .f32 = 32 ∨ (Rect.block (s := S80x80) S80x80.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x80.size a ≤ S1x80.size a
  hwx4_4 : ∀ i : grid4.Coords, EltTy.bits .f32 = 32 ∨ (Rect.block (s := S1x80) S1x80.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S80x10.size a ≤ S80x10.size a
  hwx4_5 : ∀ i : grid4.Coords, EltTy.bits .f32 = 32 ∨ (Rect.block (s := S80x10) S80x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x10.size a ≤ S1x10.size a
  hwx4_6 : ∀ i : grid4.Coords, EltTy.bits .f32 = 32 ∨ (Rect.block (s := S1x10) S1x10.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x10.size a ≤ S64x10.size a
  hwx4_7 : ∀ i : grid4.Coords, EltTy.bits .f32 = 32 ∨ (Rect.block (s := S64x10) S64x10.size (cc4_transform_7 i) (hinb4_7 i)).WholeWords (EltTy.packing .f32)

variable [Facts₀]

def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S1000x150_S150x450_S1000x450_1_0_0_1_n_n : DotDims S1000x150 S150x450 S1000x450 where
  lhsContracting := [1]
  rhsContracting := [0]
  lhsNonContracting := [0]
  rhsNonContracting := [1]
  lhsBatch := []
  rhsBatch := []
  wf := dot_S1000x150_S150x450_S1000x450_1_0_0_1_n_n_wf
def scatter_S64x150_S100000x1_S100000x150_1_0_0_1 : ScatterDims S64x150 S100000x1 S100000x150 where
  updateWindowDims := [1]
  insertedWindowDims := [0]
  scatterDimsToOperandDims := [0]
  indexVectorDim := 1
  wf := scatter_S64x150_S100000x1_S100000x150_1_0_0_1_wf
def dot_S64x150_S150x80_S64x80_1_0_0_1_n_n : DotDims S64x150 S150x80 S64x80 where
  lhsContracting := [1]
  rhsContracting := [0]
  lhsNonContracting := [0]
  rhsNonContracting := [1]
  lhsBatch := []
  rhsBatch := []
  wf := dot_S64x150_S150x80_S64x80_1_0_0_1_n_n_wf
def dot_S64x80_S80x80_S64x80_1_0_0_1_n_n : DotDims S64x80 S80x80 S64x80 where
  lhsContracting := [1]
  rhsContracting := [0]
  lhsNonContracting := [0]
  rhsNonContracting := [1]
  lhsBatch := []
  rhsBatch := []
  wf := dot_S64x80_S80x80_S64x80_1_0_0_1_n_n_wf
def dot_S64x80_S80x10_S64x10_1_0_0_1_n_n : DotDims S64x80 S80x10 S64x10 where
  lhsContracting := [1]
  rhsContracting := [0]
  lhsNonContracting := [0]
  rhsNonContracting := [1]
  lhsBatch := []
  rhsBatch := []
  wf := dot_S64x80_S80x10_S64x10_1_0_0_1_n_n_wf

abbrev win0_0 : Pipeline.Window sig grid0 :=
  Pipeline.Window.ofSpec (Memref.whole main_v19) S1000x150.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x150.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S150x450.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S150x450.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x450.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x450.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1000x150.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S1000x150.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1000x150.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S150x450.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S150x450.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x450.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x450.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1000x150.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v41) S1000x150.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1000x150.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0) S150x450.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S150x450.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v2) S1x450.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x450.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1000x150.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S1000x150.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1000x150.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S150x450.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S150x450.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v2) S1x450.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v3) S1x450.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S1000x150.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v56) S64x150.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v4) S150x80.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S1x80.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v5) S80x80.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v8) S1x80.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v6) S80x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v9) S1x10.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v57) S64x10.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x150 : Shape := ⟨2, ![100000, 150]⟩
abbrev S1600000 : Shape := ⟨1, ![1600000]⟩
abbrev S100000 : Shape := ⟨1, ![100000]⟩
abbrev S450x150 : Shape := ⟨2, ![450, 150]⟩
abbrev S450 : Shape := ⟨1, ![450]⟩
abbrev S80x150 : Shape := ⟨2, ![80, 150]⟩
abbrev S80 : Shape := ⟨1, ![80]⟩
abbrev S80x80 : Shape := ⟨2, ![80, 80]⟩
abbrev S10x80 : Shape := ⟨2, ![10, 80]⟩
abbrev S10 : Shape := ⟨1, ![10]⟩
abbrev S_ : Shape := ⟨0, ![]⟩
abbrev S1600000x1 : Shape := ⟨2, ![1600000, 1]⟩
abbrev S1600000x150 : Shape := ⟨2, ![1600000, 150]⟩
abbrev S150x450 : Shape := ⟨2, ![150, 450]⟩
abbrev S100000x450 : Shape := ⟨2, ![100000, 450]⟩
abbrev S1x450 : Shape := ⟨2, ![1, 450]⟩
abbrev S64x150 : Shape := ⟨2, ![64, 150]⟩
abbrev S100000x1 : Shape := ⟨2, ![100000, 1]⟩
abbrev S150x80 : Shape := ⟨2, ![150, 80]⟩
abbrev S64x80 : Shape := ⟨2, ![64, 80]⟩
abbrev S1x80 : Shape := ⟨2, ![1, 80]⟩
abbrev S80x10 : Shape := ⟨2, ![80, 10]⟩
abbrev S64x10 : Shape := ⟨2, ![64, 10]⟩
abbrev S1x10 : Shape := ⟨2, ![1, 10]⟩

abbrev nBuf : Space → Nat
  | .hbm => 280
  | .vmem => 0
  | .smem => 0
  | _ => 0

abbrev hbmTy0_0 (i : Nat) : BufTy := match i % 128 with
  | 0 => ⟨S100000x150, .f32⟩
  | 1 => ⟨S1600000, .i32⟩
  | 2 => ⟨S1600000, .i32⟩
  | 3 => ⟨S100000, .i32⟩
  | 4 => ⟨S450x150, .f32⟩
  | 5 => ⟨S450x150, .f32⟩
  | 6 => ⟨S450, .f32⟩
  | 7 => ⟨S450, .f32⟩
  | 8 => ⟨S80x150, .f32⟩
  | 9 => ⟨S80, .f32⟩
  | 10 => ⟨S80x80, .f32⟩
  | 11 => ⟨S80, .f32⟩
  | 12 => ⟨S10x80, .f32⟩
  | 13 => ⟨S10, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x150, .f32⟩
  | 23 => ⟨S_, .f32⟩
  | 24 => ⟨S100000x150, .f32⟩
  | 25 => ⟨S1600000x1, .i32⟩
  | 26 => ⟨S100000x150, .f32⟩
  | 27 => ⟨S150x450, .f32⟩
  | 28 => ⟨S100000x450, .f32⟩
  | 29 => ⟨S1x450, .f32⟩
  | 30 => ⟨S100000x450, .f32⟩
  | 31 => ⟨S100000x450, .f32⟩
  | 32 => ⟨S150x450, .f32⟩
  | 33 => ⟨S100000x450, .f32⟩
  | 34 => ⟨S1x450, .f32⟩
  | 35 => ⟨S100000x450, .f32⟩
  | 36 => ⟨S100000x450, .f32⟩
  | 37 => ⟨S100000x150, .f32⟩
  | 38 => ⟨S100000x150, .f32⟩
  | 39 => ⟨S100000x150, .f32⟩
  | 40 => ⟨S100000x150, .f32⟩
  | 41 => ⟨S100000x150, .f32⟩
  | 42 => ⟨S100000x150, .f32⟩
  | 43 => ⟨S100000x150, .f32⟩
  | 44 => ⟨S100000x150, .f32⟩
  | 45 => ⟨S100000x150, .f32⟩
  | 46 => ⟨S_, .f32⟩
  | 47 => ⟨S100000x150, .f32⟩
  | 48 => ⟨S100000x150, .f32⟩
  | 49 => ⟨S_, .f32⟩
  | 50 => ⟨S100000x150, .f32⟩
  | 51 => ⟨S100000x150, .f32⟩
  | 52 => ⟨S100000x150, .f32⟩
  | 53 => ⟨S100000x150, .f32⟩
  | 54 => ⟨S100000x150, .f32⟩
  | 55 => ⟨S_, .f32⟩
  | 56 => ⟨S100000x150, .f32⟩
  | 57 => ⟨S100000x150, .f32⟩
  | 58 => ⟨S_, .f32⟩
  | 59 => ⟨S100000x150, .f32⟩
  | 60 => ⟨S100000x150, .f32⟩
  | 61 => ⟨S100000x150, .f32⟩
  | 62 => ⟨S100000x150, .f32⟩
  | 63 => ⟨S100000x150, .f32⟩
  | 64 => ⟨S_, .f32⟩
  | 65 => ⟨S100000x150, .f32⟩
  | 66 => ⟨S100000x150, .f32⟩
  | 67 => ⟨S100000x150, .f32⟩
  | 68 => ⟨S100000x150, .f32⟩
  | 69 => ⟨S100000x150, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x150, .f32⟩
  | 79 => ⟨S_, .f32⟩
  | 80 => ⟨S100000x150, .f32⟩
  | 81 => ⟨S1600000x1, .i32⟩
  | 82 => ⟨S100000x150, .f32⟩
  | 83 => ⟨S150x450, .f32⟩
  | 84 => ⟨S100000x450, .f32⟩
  | 85 => ⟨S1x450, .f32⟩
  | 86 => ⟨S100000x450, .f32⟩
  | 87 => ⟨S100000x450, .f32⟩
  | 88 => ⟨S150x450, .f32⟩
  | 89 => ⟨S100000x450, .f32⟩
  | 90 => ⟨S1x450, .f32⟩
  | 91 => ⟨S100000x450, .f32⟩
  | 92 => ⟨S100000x450, .f32⟩
  | 93 => ⟨S100000x150, .f32⟩
  | 94 => ⟨S100000x150, .f32⟩
  | 95 => ⟨S100000x150, .f32⟩
  | 96 => ⟨S100000x150, .f32⟩
  | 97 => ⟨S100000x150, .f32⟩
  | 98 => ⟨S100000x150, .f32⟩
  | 99 => ⟨S100000x150, .f32⟩
  | 100 => ⟨S100000x150, .f32⟩
  | 101 => ⟨S100000x150, .f32⟩
  | 102 => ⟨S_, .f32⟩
  | 103 => ⟨S100000x150, .f32⟩
  | 104 => ⟨S100000x150, .f32⟩
  | 105 => ⟨S_, .f32⟩
  | 106 => ⟨S100000x150, .f32⟩
  | 107 => ⟨S100000x150, .f32⟩
  | 108 => ⟨S100000x150, .f32⟩
  | 109 => ⟨S100000x150, .f32⟩
  | 110 => ⟨S100000x150, .f32⟩
  | 111 => ⟨S_, .f32⟩
  | 112 => ⟨S100000x150, .f32⟩
  | 113 => ⟨S100000x150, .f32⟩
  | 114 => ⟨S_, .f32⟩
  | 115 => ⟨S100000x150, .f32⟩
  | 116 => ⟨S100000x150, .f32⟩
  | 117 => ⟨S100000x150, .f32⟩
  | 118 => ⟨S100000x150, .f32⟩
  | 119 => ⟨S100000x150, .f32⟩
  | 120 => ⟨S_, .f32⟩
  | 121 => ⟨S100000x150, .f32⟩
  | 122 => ⟨S100000x150, .f32⟩
  | 123 => ⟨S100000x150, .f32⟩
  | 124 => ⟨S100000x150, .f32⟩
  | 125 => ⟨S100000x150, .f32⟩
  | 126 => ⟨S_, .i32⟩
  | 127 => ⟨S1600000, .i32⟩
  | _ => ⟨S100000x150, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x150, .f32⟩
  | 7 => ⟨S_, .f32⟩
  | 8 => ⟨S100000x150, .f32⟩
  | 9 => ⟨S1600000x1, .i32⟩
  | 10 => ⟨S100000x150, .f32⟩
  | 11 => ⟨S150x450, .f32⟩
  | 12 => ⟨S100000x450, .f32⟩
  | 13 => ⟨S1x450, .f32⟩
  | 14 => ⟨S100000x450, .f32⟩
  | 15 => ⟨S100000x450, .f32⟩
  | 16 => ⟨S150x450, .f32⟩
  | 17 => ⟨S100000x450, .f32⟩
  | 18 => ⟨S1x450, .f32⟩
  | 19 => ⟨S100000x450, .f32⟩
  | 20 => ⟨S100000x450, .f32⟩
  | 21 => ⟨S100000x150, .f32⟩
  | 22 => ⟨S100000x150, .f32⟩
  | 23 => ⟨S100000x150, .f32⟩
  | 24 => ⟨S100000x150, .f32⟩
  | 25 => ⟨S100000x150, .f32⟩
  | 26 => ⟨S100000x150, .f32⟩
  | 27 => ⟨S100000x150, .f32⟩
  | 28 => ⟨S100000x150, .f32⟩
  | 29 => ⟨S100000x150, .f32⟩
  | 30 => ⟨S_, .f32⟩
  | 31 => ⟨S100000x150, .f32⟩
  | 32 => ⟨S100000x150, .f32⟩
  | 33 => ⟨S_, .f32⟩
  | 34 => ⟨S100000x150, .f32⟩
  | 35 => ⟨S100000x150, .f32⟩
  | 36 => ⟨S100000x150, .f32⟩
  | 37 => ⟨S100000x150, .f32⟩
  | 38 => ⟨S100000x150, .f32⟩
  | 39 => ⟨S_, .f32⟩
  | 40 => ⟨S100000x150, .f32⟩
  | 41 => ⟨S100000x150, .f32⟩
  | 42 => ⟨S_, .f32⟩
  | 43 => ⟨S100000x150, .f32⟩
  | 44 => ⟨S100000x150, .f32⟩
  | 45 => ⟨S100000x150, .f32⟩
  | 46 => ⟨S100000x150, .f32⟩
  | 47 => ⟨S100000x150, .f32⟩
  | 48 => ⟨S_, .f32⟩
  | 49 => ⟨S100000x150, .f32⟩
  | 50 => ⟨S100000x150, .f32⟩
  | 51 => ⟨S100000x150, .f32⟩
  | 52 => ⟨S100000x150, .f32⟩
  | 53 => ⟨S100000x150, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x150, .f32⟩
  | 63 => ⟨S_, .f32⟩
  | 64 => ⟨S100000x150, .f32⟩
  | 65 => ⟨S1600000x1, .i32⟩
  | 66 => ⟨S100000x150, .f32⟩
  | 67 => ⟨S150x450, .f32⟩
  | 68 => ⟨S100000x450, .f32⟩
  | 69 => ⟨S1x450, .f32⟩
  | 70 => ⟨S100000x450, .f32⟩
  | 71 => ⟨S100000x450, .f32⟩
  | 72 => ⟨S150x450, .f32⟩
  | 73 => ⟨S100000x450, .f32⟩
  | 74 => ⟨S1x450, .f32⟩
  | 75 => ⟨S100000x450, .f32⟩
  | 76 => ⟨S100000x450, .f32⟩
  | 77 => ⟨S100000x150, .f32⟩
  | 78 => ⟨S100000x150, .f32⟩
  | 79 => ⟨S100000x150, .f32⟩
  | 80 => ⟨S100000x150, .f32⟩
  | 81 => ⟨S100000x150, .f32⟩
  | 82 => ⟨S100000x150, .f32⟩
  | 83 => ⟨S100000x150, .f32⟩
  | 84 => ⟨S100000x150, .f32⟩
  | 85 => ⟨S100000x150, .f32⟩
  | 86 => ⟨S_, .f32⟩
  | 87 => ⟨S100000x150, .f32⟩
  | 88 => ⟨S100000x150, .f32⟩
  | 89 => ⟨S_, .f32⟩
  | 90 => ⟨S100000x150, .f32⟩
  | 91 => ⟨S100000x150, .f32⟩
  | 92 => ⟨S100000x150, .f32⟩
  | 93 => ⟨S100000x150, .f32⟩
  | 94 => ⟨S100000x150, .f32⟩
  | 95 => ⟨S_, .f32⟩
  | 96 => ⟨S100000x150, .f32⟩
  | 97 => ⟨S100000x150, .f32⟩
  | 98 => ⟨S_, .f32⟩
  | 99 => ⟨S100000x150, .f32⟩
  | 100 => ⟨S100000x150, .f32⟩
  | 101 => ⟨S100000x150, .f32⟩
  | 102 => ⟨S100000x150, .f32⟩
  | 103 => ⟨S100000x150, .f32⟩
  | 104 => ⟨S_, .f32⟩
  | 105 => ⟨S100000x150, .f32⟩
  | 106 => ⟨S100000x150, .f32⟩
  | 107 => ⟨S100000x150, .f32⟩
  | 108 => ⟨S100000x150, .f32⟩
  | 109 => ⟨S100000x150, .f32⟩
  | 110 => ⟨S_, .f32⟩
  | 111 => ⟨S64x150, .f32⟩
  | 112 => ⟨S100000x1, .i32⟩
  | 113 => ⟨S64x150, .f32⟩
  | 114 => ⟨S64x150, .f32⟩
  | 115 => ⟨S64x150, .i1⟩
  | 116 => ⟨S_, .f32⟩
  | 117 => ⟨S_, .f32⟩
  | 118 => ⟨S64x150, .f32⟩
  | 119 => ⟨S64x150, .f32⟩
  | 120 => ⟨S_, .f32⟩
  | 121 => ⟨S64x150, .f32⟩
  | 122 => ⟨S64x150, .f32⟩
  | 123 => ⟨S150x80, .f32⟩
  | 124 => ⟨S64x80, .f32⟩
  | 125 => ⟨S1x80, .f32⟩
  | 126 => ⟨S64x80, .f32⟩
  | 127 => ⟨S64x80, .f32⟩
  | _ => ⟨S100000x150, .f32⟩

abbrev hbmTy0_2 (i : Nat) : BufTy := match i % 128 with
  | 0 => ⟨S_, .f32⟩
  | 1 => ⟨S64x80, .f32⟩
  | 2 => ⟨S64x80, .i1⟩
  | 3 => ⟨S_, .f32⟩
  | 4 => ⟨S64x80, .f32⟩
  | 5 => ⟨S64x80, .f32⟩
  | 6 => ⟨S64x80, .f32⟩
  | 7 => ⟨S80x80, .f32⟩
  | 8 => ⟨S64x80, .f32⟩
  | 9 => ⟨S1x80, .f32⟩
  | 10 => ⟨S64x80, .f32⟩
  | 11 => ⟨S64x80, .f32⟩
  | 12 => ⟨S_, .f32⟩
  | 13 => ⟨S64x80, .f32⟩
  | 14 => ⟨S64x80, .i1⟩
  | 15 => ⟨S_, .f32⟩
  | 16 => ⟨S64x80, .f32⟩
  | 17 => ⟨S64x80, .f32⟩
  | 18 => ⟨S64x80, .f32⟩
  | 19 => ⟨S80x10, .f32⟩
  | 20 => ⟨S64x10, .f32⟩
  | 21 => ⟨S1x10, .f32⟩
  | 22 => ⟨S64x10, .f32⟩
  | 23 => ⟨S64x10, .f32⟩
  | _ => ⟨S100000x150, .f32⟩

abbrev hbmTy (i : Nat) : BufTy := match i / 128 with
  | 0 => hbmTy0_0 i
  | 1 => hbmTy0_1 i
  | 2 => hbmTy0_2 i
  | _ => ⟨S100000x150, .f32⟩

abbrev bufTy : (tb : Table) → Fin (tcTables nBuf tb) → BufTy
  | .hbm, ⟨i, _⟩ => hbmTy i
  | _, _ => ⟨S100000x150, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_9 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_v85 : Ref sig .tc := ⟨.hbm, 113, rfl⟩
abbrev main_cst_12 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_13 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_14 : Ref sig .tc := ⟨.hbm, 126, rfl⟩
abbrev main_v96 : Ref sig .tc := ⟨.hbm, 127, rfl⟩
abbrev main_v97 : Ref sig .tc := ⟨.hbm, 128, rfl⟩
abbrev main_c_15 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_16 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_17 : Ref sig .tc := ⟨.hbm, 158, rfl⟩
abbrev main_v125 : Ref sig .tc := ⟨.hbm, 159, rfl⟩
abbrev main_v126 : Ref sig .tc := ⟨.hbm, 160, rfl⟩
abbrev main_cst_18 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_19 : Ref sig .tc := ⟨.hbm, 167, rfl⟩
abbrev main_v132 : Ref sig .tc := ⟨.hbm, 168, rfl⟩
abbrev main_v133 : Ref sig .tc := ⟨.hbm, 169, rfl⟩
abbrev main_cst_20 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_21 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_c_22 : Ref sig .tc := ⟨.hbm, 182, rfl⟩
abbrev main_v144 : Ref sig .tc := ⟨.hbm, 183, rfl⟩
abbrev main_v145 : Ref sig .tc := ⟨.hbm, 184, rfl⟩
abbrev main_c_23 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_cst_24 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_cst_25 : Ref sig .tc := ⟨.hbm, 214, rfl⟩
abbrev main_v173 : Ref sig .tc := ⟨.hbm, 215, rfl⟩
abbrev main_v174 : Ref sig .tc := ⟨.hbm, 216, rfl⟩
abbrev main_cst_26 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_cst_27 : Ref sig .tc := ⟨.hbm, 223, rfl⟩
abbrev main_v180 : Ref sig .tc := ⟨.hbm, 224, rfl⟩
abbrev main_v181 : Ref sig .tc := ⟨.hbm, 225, rfl⟩
abbrev main_cst_28 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_cst_29 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_cst_30 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_cst_31 : Ref sig .tc := ⟨.hbm, 244, rfl⟩
abbrev main_call0_v0 : Ref sig .tc := ⟨.hbm, 245, rfl⟩
abbrev main_call0_v1 : Ref sig .tc := ⟨.hbm, 246, rfl⟩
abbrev main_v197 : Ref sig .tc := ⟨.hbm, 247, rfl⟩
abbrev main_call1_cst : Ref sig .tc := ⟨.hbm, 248, rfl⟩
abbrev main_call1_v0 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_call2_cst : Ref sig .tc := ⟨.hbm, 256, rfl⟩
abbrev main_call2_v0 : Ref sig .tc := ⟨.hbm, 257, rfl⟩
abbrev main_call2_v1 : Ref sig .tc := ⟨.hbm, 258, rfl⟩
abbrev main_call2_cst_0 : Ref sig .tc := ⟨.hbm, 259, rfl⟩
abbrev main_call2_v2 : Ref sig .tc := ⟨.hbm, 260, rfl⟩
abbrev main_call2_v3 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_call3_cst : Ref sig .tc := ⟨.hbm, 268, rfl⟩
abbrev main_call3_v0 : Ref sig .tc := ⟨.hbm, 269, rfl⟩
abbrev main_call3_v1 : Ref sig .tc := ⟨.hbm, 270, rfl⟩
abbrev main_call3_cst_0 : Ref sig .tc := ⟨.hbm, 271, rfl⟩
abbrev main_call3_v2 : Ref sig .tc := ⟨.hbm, 272, rfl⟩
abbrev main_call3_v3 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x150 : S_.BroadcastsInDim S100000x150 (![] : Fin 0 → Fin S100000x150.rank)
  transposes_S450x150_S150x450_1_0 : S450x150.Transposes [1, 0] S150x450
  bcast_S450_S1x450_1 : S450.BroadcastsInDim S1x450 (![1] : Fin 1 → Fin S1x450.rank)
  bcast_S1x450_S100000x450_0_1 : S1x450.BroadcastsInDim S100000x450 (![0, 1] : Fin 2 → Fin S100000x450.rank)
  slices_S100000x450_S100000x150_0_0 : S100000x450.Slices ![0, 0] S100000x150
  slices_S100000x450_S100000x150_0_150 : S100000x450.Slices ![0, 150] S100000x150
  slices_S100000x450_S100000x150_0_300 : S100000x450.Slices ![0, 300] S100000x150
  bcast_S_S64x150 : S_.BroadcastsInDim S64x150 (![] : Fin 0 → Fin S64x150.rank)
  bcast_S100000_S100000x1_0 : S100000.BroadcastsInDim S100000x1 (![0] : Fin 1 → Fin S100000x1.rank)
  transposes_S80x150_S150x80_1_0 : S80x150.Transposes [1, 0] S150x80
  bcast_S80_S1x80_1 : S80.BroadcastsInDim S1x80 (![1] : Fin 1 → Fin S1x80.rank)
  bcast_S1x80_S64x80_0_1 : S1x80.BroadcastsInDim S64x80 (![0, 1] : Fin 2 → Fin S64x80.rank)
  bcast_S_S64x80 : S_.BroadcastsInDim S64x80 (![] : Fin 0 → Fin S64x80.rank)
  transposes_S80x80_S80x80_1_0 : S80x80.Transposes [1, 0] S80x80
  transposes_S10x80_S80x10_1_0 : S10x80.Transposes [1, 0] S80x10
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x150_S1600000x1_S1600000x150_1_0_n_n_0_1_1150_wf : GatherDims.WF S100000x150 S1600000x1 S1600000x150 [1] [0] [] [0] [] 1 ![1, 150]
  scatter_S100000x150_S1600000x1_S1600000x150_1_0_0_1_wf : ScatterDims.WF S100000x150 S1600000x1 S1600000x150 [1] [0] [0] 1
  dot_S100000x150_S150x450_S100000x450_1_0_0_1_n_n_wf : DotDims.WF S100000x150 S150x450 S100000x450 [1] [0] [0] [1] [] []
  scatter_S64x150_S100000x1_S100000x150_1_0_0_1_wf : ScatterDims.WF S64x150 S100000x1 S100000x150 [1] [0] [0] 1
  dot_S64x150_S150x80_S64x80_1_0_0_1_n_n_wf : DotDims.WF S64x150 S150x80 S64x80 [1] [0] [0] [1] [] []
  dot_S64x80_S80x80_S64x80_1_0_0_1_n_n_wf : DotDims.WF S64x80 S80x80 S64x80 [1] [0] [0] [1] [] []
  dot_S64x80_S80x10_S64x10_1_0_0_1_n_n_wf : DotDims.WF S64x80 S80x10 S64x10 [1] [0] [0] [1] [] []

variable [Facts₀]

def gather_S100000x150_S1600000x1_S1600000x150_1_0_n_n_0_1_1150 : GatherDims S100000x150 S1600000x1 S1600000x150 where
  offsetDims := [1]
  collapsedSliceDims := [0]
  operandBatchingDims := []
  startIndicesBatchingDims := []
  startIndexMap := [0]
  indexVectorDim := 1
  sliceSizes := ![1, 150]
  wf := gather_S100000x150_S1600000x1_S1600000x150_1_0_n_n_0_1_1150_wf
def scatter_S100000x150_S1600000x1_S1600000x150_1_0_0_1 : ScatterDims S100000x150 S1600000x1 S1600000x150 where
  updateWindowDims := [1]
  insertedWindowDims := [0]
  scatterDimsToOperandDims := [0]
  indexVectorDim := 1
  wf := scatter_S100000x150_S1600000x1_S1600000x150_1_0_0_1_wf
def dot_S100000x150_S150x450_S100000x450_1_0_0_1_n_n : DotDims S100000x150 S150x450 S100000x450 where
  lhsContracting := [1]
  rhsContracting := [0]
  lhsNonContracting := [0]
  rhsNonContracting := [1]
  lhsBatch := []
  rhsBatch := []
  wf := dot_S100000x150_S150x450_S100000x450_1_0_0_1_n_n_wf
def scatter_S64x150_S100000x1_S100000x150_1_0_0_1 : ScatterDims S64x150 S100000x1 S100000x150 where
  updateWindowDims := [1]
  insertedWindowDims := [0]
  scatterDimsToOperandDims := [0]
  indexVectorDim := 1
  wf := scatter_S64x150_S100000x1_S100000x150_1_0_0_1_wf
def dot_S64x150_S150x80_S64x80_1_0_0_1_n_n : DotDims S64x150 S150x80 S64x80 where
  lhsContracting := [1]
  rhsContracting := [0]
  lhsNonContracting := [0]
  rhsNonContracting := [1]
  lhsBatch := []
  rhsBatch := []
  wf := dot_S64x150_S150x80_S64x80_1_0_0_1_n_n_wf
def dot_S64x80_S80x80_S64x80_1_0_0_1_n_n : DotDims S64x80 S80x80 S64x80 where
  lhsContracting := [1]
  rhsContracting := [0]
  lhsNonContracting := [0]
  rhsNonContracting := [1]
  lhsBatch := []
  rhsBatch := []
  wf := dot_S64x80_S80x80_S64x80_1_0_0_1_n_n_wf
def dot_S64x80_S80x10_S64x10_1_0_0_1_n_n : DotDims S64x80 S80x10 S64x10 where
  lhsContracting := [1]
  rhsContracting := [0]
  lhsNonContracting := [0]
  rhsNonContracting := [1]
  lhsBatch := []
  rhsBatch := []
  wf := dot_S64x80_S80x10_S64x10_1_0_0_1_n_n_wf

class Facts : Prop extends Facts₀ where

variable [Facts]
-- ==== Proof.KernelRun.lean ====
/-
  The idealized kernel program's run with its result named.

  The program is five kernel regions among stretches of host operations. Its frame proof folds the buffer contents
  through the segments, from the launch memory to the contents at the return; every weakly fair execution ends with
  each unscoped buffer at that last fold. Here the same run is stated with the result buffer's final contents kept in
  the post, beside the unchanged arguments: the result is the last fold read at the result buffer.
-/
import proofs.«133389_j14199161880902_1_alg».proof.Proof.Gen.KernelIdeal.Frame

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run_fold : θ_run defs (onTc (τ := τ) (main (F := F))) ⟨m, fun _ => 0, ρ⟩ (fun r => ∀ c : Dev nD,
      r.2.mem ((c.tc : Thread nD τ).loc main_v57) = W10 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v57 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelRun

end
-- ==== Proof.Spec.lean ====
/-
  The function both programs compute, written once over whole arrays.

  A graph network on 100000 nodes with 150 features each: four rounds of message passing, then a per-graph readout.
  One round: every node sums the states of the nodes that point at it (`agg`: a gather along the edges' sources, a
  scatter-add at their destinations), and a gated recurrent cell (`gruT`) updates its state from that sum: with
  `gi = inc · Wᵀ + b`, `gh = h · Uᵀ + b'` cut into three column bands (r, z, n),
  `r = σ(gi_r + gh_r)`, `z = σ(gi_z + gh_z)`, `n = tanh(gi_n + r · gh_n)`, `h' = (1 - z) · n + z · h`, where
  `σ(x) = 1 / (1 + e⁻ˣ)`. The readout sums the node states of each of 64 graphs (`pool`), takes
  `max(log ·, 0)` (a comparison of the logarithm with itself selects a zero where it differs from itself: nowhere, on the
  extended reals), and applies three affine layers with a leaky rectifier (slope 0.01 as its f32 literal) after the first two (`mlpT`).

  The definitions follow the reference program's operations one for one, so that its run reads back as `whole` of its
  arguments by unfolding; `gruT` and `mlpT` take the weight matrices already transposed and the biases already as one-row
  matrices, which is how the kernels receive them.
-/
import proofs.«133389_j14199161880902_1_alg».proof.ReferenceIdeal
import proofs.«133389_j14199161880902_1_alg».proof.Proof.Gen.ReferenceIdeal

noncomputable section

namespace Cert.GnnSpec

open Idealize.ShloMosaic Idealize.ShloMosaic.TcCoe Cert.ReferenceIdeal Cert.ReferenceIdeal.Gen

variable {F : FTy → Type} [FloatOps F]

/-- An array of shape `S` and element type `e`, as the host operations take it. -/
abbrev Arr (F : FTy → Type) (S : Shape) (e : EltTy) := (⟨S, e⟩ : BufTy).Contents (Elt F)

/-! ## Message passing -/

/-- Each edge's source node as a gather index: a negative index counts from the end. -/
def srcIdx (src : Arr F S1600000 .i32) : Arr F S1600000x1 .i32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- `incoming[v] = ∑ h[u]` over the edges `u → v`. -/
def agg (h : Arr F S100000x150 .f32) (src dst : Arr F S1600000 .i32) : Arr F S100000x150 .f32 :=
  Host.scatterAdd scatter_S100000x150_S1600000x1_S1600000x150_1_0_0_1
    (broadcastInDim S100000x150 ![] bcast_S_S100000x150 (constant S_ .f32 0x00000000#32))
    (broadcastInDim S1600000x1 ![0] bcast_S1600000_S1600000x1_0 dst)
    (Host.gather gather_S100000x150_S1600000x1_S1600000x150_1_0_n_n_0_1_1150 h (srcIdx src))

/-! ## The recurrent cell -/

/-- A gate's pre-activation `x · Wᵀ + b`, all three bands side by side. -/
def gate (x : Arr F S100000x150 .f32) (wT : Arr F S150x450 .f32) (b : Arr F S1x450 .f32) : Arr F S100000x450 .f32 :=
  addf (Host.dotGeneral dot_S100000x150_S150x450_S100000x450_1_0_0_1_n_n none x wT)
    (broadcastInDim S100000x450 ![0, 1] bcast_S1x450_S100000x450_0_1 b)

/-- The logistic function as the host spells it, `1 / (1 + e⁻ˣ)`. -/
def sigm (x : Arr F S100000x150 .f32) : Arr F S100000x150 .f32 :=
  Host.divf (broadcastInDim S100000x150 ![] bcast_S_S100000x150 (constant S_ .f32 0x3F800000#32))
    (addf (broadcastInDim S100000x150 ![] bcast_S_S100000x150 (constant S_ .f32 0x3F800000#32)) (Host.exp (Host.negf x)))

/-- The three column bands of a pre-activation. -/
def band0 (g : Arr F S100000x450 .f32) : Arr F S100000x150 .f32 := extractStridedSlice S100000x150 ![0, 0] g slices_S100000x450_S100000x150_0_0
def band1 (g : Arr F S100000x450 .f32) : Arr F S100000x150 .f32 := extractStridedSlice S100000x150 ![0, 150] g slices_S100000x450_S100000x150_0_150
def band2 (g : Arr F S100000x450 .f32) : Arr F S100000x150 .f32 := extractStridedSlice S100000x150 ![0, 300] g slices_S100000x450_S100000x150_0_300

/-- The cell's new state from the two pre-activations and the old state. -/
def cell (gi gh : Arr F S100000x450 .f32) (h : Arr F S100000x150 .f32) : Arr F S100000x150 .f32 :=
  addf
    (mulf (subf (broadcastInDim S100000x150 ![] bcast_S_S100000x150 (constant S_ .f32 0x3F800000#32)) (sigm (addf (band1 gi) (band1 gh))))
      (Host.tanh (addf (band2 gi) (mulf (sigm (addf (band0 gi) (band0 gh))) (band2 gh)))))
    (mulf (sigm (addf (band1 gi) (band1 gh))) h)

/-- The recurrent cell over transposed weights and one-row biases. -/
def gruT (inc h : Arr F S100000x150 .f32) (wT uT : Arr F S150x450 .f32) (b1 b2 : Arr F S1x450 .f32) : Arr F S100000x150 .f32 :=
  cell (gate inc wT b1) (gate h uT b2) h

/-- One round of message passing. -/
def pass (h : Arr F S100000x150 .f32) (src dst : Arr F S1600000 .i32) (wih whh : Arr F S450x150 .f32) (bih bhh : Arr F S450 .f32) :
    Arr F S100000x150 .f32 :=
  gruT (agg h src dst) h (transpose S150x450 [1, 0] wih transposes_S450x150_S150x450_1_0) (transpose S150x450 [1, 0] whh transposes_S450x150_S150x450_1_0)
    (broadcastInDim S1x450 ![1] bcast_S450_S1x450_1 bih) (broadcastInDim S1x450 ![1] bcast_S450_S1x450_1 bhh)

/-! ## The readout -/

/-- The sum of the node states of each graph. -/
def pool (h : Arr F S100000x150 .f32) (gid : Arr F S100000 .i32) : Arr F S64x150 .f32 :=
  Host.scatterAdd scatter_S64x150_S100000x1_S100000x150_1_0_0_1
    (broadcastInDim S64x150 ![] bcast_S_S64x150 (constant S_ .f32 0x00000000#32))
    (broadcastInDim S100000x1 ![0] bcast_S100000_S100000x1_0 gid) h

/-- `max(log g, 0)`, a zero selected where the logarithm differs from itself. -/
def logRelu (g : Arr F S64x150 .f32) : Arr F S64x150 .f32 :=
  maximumf
    (select (cmpf .une (Host.log g) (Host.log g)) (broadcastInDim S64x150 ![] bcast_S_S64x150 (id (constant S_ .f32 0x00000000#32))) (Host.log g))
    (broadcastInDim S64x150 ![] bcast_S_S64x150 (constant S_ .f32 0x00000000#32))

/-- The leaky rectifier: `x` where `x ≥ 0`, else the f32 literal of 0.01 times `x`. -/
def lrelu (x : Arr F S64x80 .f32) : Arr F S64x80 .f32 :=
  select (cmpf .oge x (broadcastInDim S64x80 ![] bcast_S_S64x80 (constant S_ .f32 0x00000000#32))) x
    (mulf (broadcastInDim S64x80 ![] bcast_S_S64x80 (constant S_ .f32 0x3C23D70A#32)) x)

/-- The three affine layers over transposed weights and one-row biases. -/
def mlpT (g : Arr F S64x150 .f32) (w1T : Arr F S150x80 .f32) (b1 : Arr F S1x80 .f32) (w2T : Arr F S80x80 .f32) (b2 : Arr F S1x80 .f32)
    (w3T : Arr F S80x10 .f32) (b3 : Arr F S1x10 .f32) : Arr F S64x10 .f32 :=
  addf
    (Host.dotGeneral dot_S64x80_S80x10_S64x10_1_0_0_1_n_n none
      (lrelu (addf
        (Host.dotGeneral dot_S64x80_S80x80_S64x80_1_0_0_1_n_n none
          (lrelu (addf (Host.dotGeneral dot_S64x150_S150x80_S64x80_1_0_0_1_n_n none (logRelu g) w1T)
            (broadcastInDim S64x80 ![0, 1] bcast_S1x80_S64x80_0_1 b1)))
          w2T)
        (broadcastInDim S64x80 ![0, 1] bcast_S1x80_S64x80_0_1 b2)))
      w3T)
    (broadcastInDim S64x10 ![0, 1] bcast_S1x10_S64x10_0_1 b3)

/-! ## The whole network -/

/-- The network's output from its fourteen arguments, in the programs' argument order. -/
def whole (nodes : Arr F S100000x150 .f32) (src dst : Arr F S1600000 .i32) (gid : Arr F S100000 .i32)
    (wih whh : Arr F S450x150 .f32) (bih bhh : Arr F S450 .f32) (fc1w : Arr F S80x150 .f32) (fc1b : Arr F S80 .f32)
    (fc2w : Arr F S80x80 .f32) (fc2b : Arr F S80 .f32) (fclw : Arr F S10x80 .f32) (fclb : Arr F S10 .f32) : Arr F S64x10 .f32 :=
  mlpT
    (pool (pass (pass (pass (pass nodes src dst wih whh bih bhh) src dst wih whh bih bhh) src dst wih whh bih bhh) src dst wih whh bih bhh) gid)
    (transpose S150x80 [1, 0] fc1w transposes_S80x150_S150x80_1_0) (broadcastInDim S1x80 ![1] bcast_S80_S1x80_1 fc1b)
    (transpose S80x80 [1, 0] fc2w transposes_S80x80_S80x80_1_0) (broadcastInDim S1x80 ![1] bcast_S80_S1x80_1 fc2b)
    (transpose S80x10 [1, 0] fclw transposes_S10x80_S80x10_1_0) (broadcastInDim S1x10 ![1] bcast_S10_S1x10_1 fclb)

end Cert.GnnSpec

end
-- ==== Proof.HostWalk.lean ====
/-
  The host operations between the kernel regions, read at the buffers the regions take.

  Before the first region the program transposes the six weight matrices' worth of arguments, recasts each bias vector
  as a one-row matrix, and aggregates the node states along the edges; between the recurrent regions it aggregates
  again; before the readout it pools the node states per graph. Each stretch is read here from ANY buffer contents
  `W`: the buffers it writes hold the specification's functions of the buffers it reads, and every other buffer is
  as it was. A bias vector recast as a one-row matrix is the vector broadcast along axis 1 — both read entry `q` of
  the vector at (0, q).
-/
import proofs.«133389_j14199161880902_1_alg».proof.Proof.Gen.KernelIdeal.Launch
import proofs.«133389_j14199161880902_1_alg».proof.Proof.Spec
import Idealize.ShloMosaic.Lib.StableHlo.Run
import Idealize.ShloMosaic.Lib.Pipeline.Value
import Idealize.ShloMosaic.Lib.ValueIdx

noncomputable section

namespace Cert.HostWalk

open Cert.KernelIdeal Cert.KernelIdeal.Gen
open Idealize.ShloMosaic Idealize.ShloMosaic.TcCoe Idealize.SL.Sem Idealize.ShloMosaic.StableHlo Idealize.ShloMosaic.ValueIdx

/-- A vector recast as a one-row matrix is the vector broadcast along axis 1. -/
theorem row_cast_eq_bcast {α : Type} {n : Nat} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext i
  have e2 := shapeCast_apply x hc i (ix1 (i 1 : Fin n)) (by
    rw [Shape.rowMajor_val_two, Shape.rowMajor_val_one]
    have h0 : (i 0).val = 0 := by have := (i 0).isLt; have e : (i 0).val < 1 := this; omega
    show (i 1).val = (i 0).val * n + (i 1).val
    rw [h0]; omega)
  have e3 := broadcastInDim_apply ![1] hb x i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

variable {F : FTy → Type} [FloatOps F] (W : Valuation τ sig (Elt F))

local macro "⟪" b:term "⟫" : term => `((Proc.devRef .tc $b : DevRef τ sig))

/-! ## Before the first region -/

theorem host0_agg : after hostOps0 W ⟪main_v19⟫ = Cert.GnnSpec.agg (W ⟪main_arg0⟫) (W ⟪main_arg1⟫) (W ⟪main_arg2⟫) := by
  after_results_simp; rfl
theorem host0_v0 : after hostOps0 W ⟪main_v0⟫ = transpose Cert.ReferenceIdeal.S150x450 [1, 0] (W ⟪main_arg4⟫) Cert.ReferenceIdeal.Gen.transposes_S450x150_S150x450_1_0 := by
  after_results
theorem host0_v1 : after hostOps0 W ⟪main_v1⟫ = transpose Cert.ReferenceIdeal.S150x450 [1, 0] (W ⟪main_arg5⟫) Cert.ReferenceIdeal.Gen.transposes_S450x150_S150x450_1_0 := by
  after_results
theorem host0_v2 : after hostOps0 W ⟪main_v2⟫ = broadcastInDim Cert.ReferenceIdeal.S1x450 ![1] Cert.ReferenceIdeal.Gen.bcast_S450_S1x450_1 (W ⟪main_arg6⟫) := by
  after_results; exact row_cast_eq_bcast _ _ _
theorem host0_v3 : after hostOps0 W ⟪main_v3⟫ = broadcastInDim Cert.ReferenceIdeal.S1x450 ![1] Cert.ReferenceIdeal.Gen.bcast_S450_S1x450_1 (W ⟪main_arg7⟫) := by
  after_results; exact row_cast_eq_bcast _ _ _
theorem host0_v4 : after hostOps0 W ⟪main_v4⟫ = transpose Cert.ReferenceIdeal.S150x80 [1, 0] (W ⟪main_arg8⟫) Cert.ReferenceIdeal.Gen.transposes_S80x150_S150x80_1_0 := by
  after_results
theorem host0_v5 : after hostOps0 W ⟪main_v5⟫ = transpose Cert.ReferenceIdeal.S80x80 [1, 0] (W ⟪main_arg10⟫) Cert.ReferenceIdeal.Gen.transposes_S80x80_S80x80_1_0 := by
  after_results
theorem host0_v6 : after hostOps0 W ⟪main_v6⟫ = transpose Cert.ReferenceIdeal.S80x10 [1, 0] (W ⟪main_arg12⟫) Cert.ReferenceIdeal.Gen.transposes_S10x80_S80x10_1_0 := by
  after_results
theorem host0_v7 : after hostOps0 W ⟪main_v7⟫ = broadcastInDim Cert.ReferenceIdeal.S1x80 ![1] Cert.ReferenceIdeal.Gen.bcast_S80_S1x80_1 (W ⟪main_arg9⟫) := by
  after_results; exact row_cast_eq_bcast _ _ _
theorem host0_v8 : after hostOps0 W ⟪main_v8⟫ = broadcastInDim Cert.ReferenceIdeal.S1x80 ![1] Cert.ReferenceIdeal.Gen.bcast_S80_S1x80_1 (W ⟪main_arg11⟫) := by
  after_results; exact row_cast_eq_bcast _ _ _
theorem host0_v9 : after hostOps0 W ⟪main_v9⟫ = broadcastInDim Cert.ReferenceIdeal.S1x10 ![1] Cert.ReferenceIdeal.Gen.bcast_S10_S1x10_1 (W ⟪main_arg13⟫) := by
  after_results; exact row_cast_eq_bcast _ _ _
theorem host0_arg0 : after hostOps0 W ⟪main_arg0⟫ = W ⟪main_arg0⟫ := by after_results
theorem host0_arg1 : after hostOps0 W ⟪main_arg1⟫ = W ⟪main_arg1⟫ := by after_results
theorem host0_arg2 : after hostOps0 W ⟪main_arg2⟫ = W ⟪main_arg2⟫ := by after_results
theorem host0_arg3 : after hostOps0 W ⟪main_arg3⟫ = W ⟪main_arg3⟫ := by after_results

/-! ## Between recurrent regions 0 and 1 -/

theorem host1_agg : after hostOps1 W ⟪main_v30⟫ = Cert.GnnSpec.agg (W ⟪main_v20⟫) (W ⟪main_arg1⟫) (W ⟪main_arg2⟫) := by
  after_results_simp; rfl
theorem host1_main_v20 : after hostOps1 W ⟪main_v20⟫ = W ⟪main_v20⟫ := by after_results
theorem host1_main_v0 : after hostOps1 W ⟪main_v0⟫ = W ⟪main_v0⟫ := by after_results
theorem host1_main_v1 : after hostOps1 W ⟪main_v1⟫ = W ⟪main_v1⟫ := by after_results
theorem host1_main_v2 : after hostOps1 W ⟪main_v2⟫ = W ⟪main_v2⟫ := by after_results
theorem host1_main_v3 : after hostOps1 W ⟪main_v3⟫ = W ⟪main_v3⟫ := by after_results
theorem host1_main_v4 : after hostOps1 W ⟪main_v4⟫ = W ⟪main_v4⟫ := by after_results
theorem host1_main_v5 : after hostOps1 W ⟪main_v5⟫ = W ⟪main_v5⟫ := by after_results
theorem host1_main_v6 : after hostOps1 W ⟪main_v6⟫ = W ⟪main_v6⟫ := by after_results
theorem host1_main_v7 : after hostOps1 W ⟪main_v7⟫ = W ⟪main_v7⟫ := by after_results
theorem host1_main_v8 : after hostOps1 W ⟪main_v8⟫ = W ⟪main_v8⟫ := by after_results
theorem host1_main_v9 : after hostOps1 W ⟪main_v9⟫ = W ⟪main_v9⟫ := by after_results
theorem host1_main_arg1 : after hostOps1 W ⟪main_arg1⟫ = W ⟪main_arg1⟫ := by after_results
theorem host1_main_arg2 : after hostOps1 W ⟪main_arg2⟫ = W ⟪main_arg2⟫ := by after_results
theorem host1_main_arg3 : after hostOps1 W ⟪main_arg3⟫ = W ⟪main_arg3⟫ := by after_results

/-! ## Between recurrent regions 1 and 2 -/

theorem host2_agg : after hostOps2 W ⟪main_v41⟫ = Cert.GnnSpec.agg (W ⟪main_v31⟫) (W ⟪main_arg1⟫) (W ⟪main_arg2⟫) := by
  after_results_simp; rfl
theorem host2_main_v31 : after hostOps2 W ⟪main_v31⟫ = W ⟪main_v31⟫ := by after_results
theorem host2_main_v0 : after hostOps2 W ⟪main_v0⟫ = W ⟪main_v0⟫ := by after_results
theorem host2_main_v1 : after hostOps2 W ⟪main_v1⟫ = W ⟪main_v1⟫ := by after_results
theorem host2_main_v2 : after hostOps2 W ⟪main_v2⟫ = W ⟪main_v2⟫ := by after_results
theorem host2_main_v3 : after hostOps2 W ⟪main_v3⟫ = W ⟪main_v3⟫ := by after_results
theorem host2_main_v4 : after hostOps2 W ⟪main_v4⟫ = W ⟪main_v4⟫ := by after_results
theorem host2_main_v5 : after hostOps2 W ⟪main_v5⟫ = W ⟪main_v5⟫ := by after_results
theorem host2_main_v6 : after hostOps2 W ⟪main_v6⟫ = W ⟪main_v6⟫ := by after_results
theorem host2_main_v7 : after hostOps2 W ⟪main_v7⟫ = W ⟪main_v7⟫ := by after_results
theorem host2_main_v8 : after hostOps2 W ⟪main_v8⟫ = W ⟪main_v8⟫ := by after_results
theorem host2_main_v9 : after hostOps2 W ⟪main_v9⟫ = W ⟪main_v9⟫ := by after_results
theorem host2_main_arg1 : after hostOps2 W ⟪main_arg1⟫ = W ⟪main_arg1⟫ := by after_results
theorem host2_main_arg2 : after hostOps2 W ⟪main_arg2⟫ = W ⟪main_arg2⟫ := by after_results
theorem host2_main_arg3 : after hostOps2 W ⟪main_arg3⟫ = W ⟪main_arg3⟫ := by after_results

/-! ## Between recurrent regions 2 and 3 -/

theorem host3_agg : after hostOps3 W ⟪main_v52⟫ = Cert.GnnSpec.agg (W ⟪main_v42⟫) (W ⟪main_arg1⟫) (W ⟪main_arg2⟫) := by
  after_results_simp; rfl
theorem host3_main_v42 : after hostOps3 W ⟪main_v42⟫ = W ⟪main_v42⟫ := by after_results
theorem host3_main_v0 : after hostOps3 W ⟪main_v0⟫ = W ⟪main_v0⟫ := by after_results
theorem host3_main_v1 : after hostOps3 W ⟪main_v1⟫ = W ⟪main_v1⟫ := by after_results
theorem host3_main_v2 : after hostOps3 W ⟪main_v2⟫ = W ⟪main_v2⟫ := by after_results
theorem host3_main_v3 : after hostOps3 W ⟪main_v3⟫ = W ⟪main_v3⟫ := by after_results
theorem host3_main_v4 : after hostOps3 W ⟪main_v4⟫ = W ⟪main_v4⟫ := by after_results
theorem host3_main_v5 : after hostOps3 W ⟪main_v5⟫ = W ⟪main_v5⟫ := by after_results
theorem host3_main_v6 : after hostOps3 W ⟪main_v6⟫ = W ⟪main_v6⟫ := by after_results
theorem host3_main_v7 : after hostOps3 W ⟪main_v7⟫ = W ⟪main_v7⟫ := by after_results
theorem host3_main_v8 : after hostOps3 W ⟪main_v8⟫ = W ⟪main_v8⟫ := by after_results
theorem host3_main_v9 : after hostOps3 W ⟪main_v9⟫ = W ⟪main_v9⟫ := by after_results
theorem host3_main_arg1 : after hostOps3 W ⟪main_arg1⟫ = W ⟪main_arg1⟫ := by after_results
theorem host3_main_arg2 : after hostOps3 W ⟪main_arg2⟫ = W ⟪main_arg2⟫ := by after_results
theorem host3_main_arg3 : after hostOps3 W ⟪main_arg3⟫ = W ⟪main_arg3⟫ := by after_results

/-! ## Before the readout -/

theorem host4_pool : after hostOps4 W ⟪main_v56⟫ = Cert.GnnSpec.pool (W ⟪main_v53⟫) (W ⟪main_arg3⟫) := by
  after_results_simp; rfl
theorem host4_main_v4 : after hostOps4 W ⟪main_v4⟫ = W ⟪main_v4⟫ := by after_results
theorem host4_main_v5 : after hostOps4 W ⟪main_v5⟫ = W ⟪main_v5⟫ := by after_results
theorem host4_main_v6 : after hostOps4 W ⟪main_v6⟫ = W ⟪main_v6⟫ := by after_results
theorem host4_main_v7 : after hostOps4 W ⟪main_v7⟫ = W ⟪main_v7⟫ := by after_results
theorem host4_main_v8 : after hostOps4 W ⟪main_v8⟫ = W ⟪main_v8⟫ := by after_results
theorem host4_main_v9 : after hostOps4 W ⟪main_v9⟫ = W ⟪main_v9⟫ := by after_results

end Cert.HostWalk

end
-- ==== Proof.BridgeStmt.lean ====
/-
  What joins a kernel body's arithmetic to the specification, as two statements.

  The recurrent kernel works on blocks of 1000 rows: its payload, given block `t` of the aggregated states and of the
  old states (row `p` of a block is row `1000·t + p` of the array) and the whole weight and bias arrays, must be block
  `t` of the specification's cell. The readout kernel works on whole arrays: its payload must be the specification's
  readout. Both hold on the extended reals because each kernel operation is its host namesake there.
-/
import proofs.«133389_j14199161880902_1_alg».proof.KernelIdeal
import proofs.«133389_j14199161880902_1_alg».proof.Proof.Spec
import Idealize.ShloMosaic.Lib.ValueIdx

noncomputable section

namespace Cert.Bridge

open Idealize.ShloMosaic Idealize.ShloMosaic.ValueIdx

/-- `pay` computes, on block `t`, block `t` of the recurrent cell. -/
def CellBridge (pay : Vec Ideal Cert.KernelIdeal.S1000x150 .f32 → Vec Ideal Cert.KernelIdeal.S1000x150 .f32 → Vec Ideal Cert.KernelIdeal.S150x450 .f32
      → Vec Ideal Cert.KernelIdeal.S150x450 .f32 → Vec Ideal Cert.KernelIdeal.S1x450 .f32 → Vec Ideal Cert.KernelIdeal.S1x450 .f32
      → FVec Ideal Cert.KernelIdeal.S1000x150 .f32) : Prop :=
  ∀ (inc h : Cert.GnnSpec.Arr Ideal Cert.ReferenceIdeal.S100000x150 .f32) (wT uT : Cert.GnnSpec.Arr Ideal Cert.ReferenceIdeal.S150x450 .f32)
    (b1 b2 : Cert.GnnSpec.Arr Ideal Cert.ReferenceIdeal.S1x450 .f32) (t : Fin 100) (x0 x1 : Vec Ideal Cert.KernelIdeal.S1000x150 .f32),
    (∀ (p : Fin 1000) (k : Fin 150), x0 (ix2 p k) = inc (ix2 (⟨1000 * t.val + p.val, by omega⟩ : Fin 100000) k)) →
    (∀ (p : Fin 1000) (k : Fin 150), x1 (ix2 p k) = h (ix2 (⟨1000 * t.val + p.val, by omega⟩ : Fin 100000) k)) →
    ∀ (p : Fin 1000) (j : Fin 150),
      pay x0 x1 wT uT b1 b2 (ix2 p j) = Cert.GnnSpec.gruT inc h wT uT b1 b2 (ix2 (⟨1000 * t.val + p.val, by omega⟩ : Fin 100000) j)

/-- `pay` computes the readout. -/
def MlpBridge (pay : Vec Ideal Cert.KernelIdeal.S64x150 .f32 → Vec Ideal Cert.KernelIdeal.S150x80 .f32 → Vec Ideal Cert.KernelIdeal.S1x80 .f32
      → Vec Ideal Cert.KernelIdeal.S80x80 .f32 → Vec Ideal Cert.KernelIdeal.S1x80 .f32 → Vec Ideal Cert.KernelIdeal.S80x10 .f32
      → Vec Ideal Cert.KernelIdeal.S1x10 .f32 → FVec Ideal Cert.KernelIdeal.S64x10 .f32) : Prop :=
  ∀ (g : Cert.GnnSpec.Arr Ideal Cert.ReferenceIdeal.S64x150 .f32) (w1T : Cert.GnnSpec.Arr Ideal Cert.ReferenceIdeal.S150x80 .f32)
    (b1 : Cert.GnnSpec.Arr Ideal Cert.ReferenceIdeal.S1x80 .f32) (w2T : Cert.GnnSpec.Arr Ideal Cert.ReferenceIdeal.S80x80 .f32)
    (b2 : Cert.GnnSpec.Arr Ideal Cert.ReferenceIdeal.S1x80 .f32) (w3T : Cert.GnnSpec.Arr Ideal Cert.ReferenceIdeal.S80x10 .f32)
    (b3 : Cert.GnnSpec.Arr Ideal Cert.ReferenceIdeal.S1x10 .f32),
    pay g w1T b1 w2T b2 w3T b3 = Cert.GnnSpec.mlpT g w1T b1 w2T b2 w3T b3

end Cert.Bridge

end
-- ==== Proof.Region0.lean ====
/-
  One recurrent region: its output array after all its grid points is the specification's cell of the arrays the
  region finds on entry.

  The region runs the cell on a grid of 100 points; point `t` fetches rows `1000·t … 1000·t + 999` of the aggregated
  states and of the old states, the whole weight and bias arrays, and writes back rows `1000·t …` of the new states.
  Given that the body's arithmetic on block `t` is block `t` of the whole-array cell (the hypothesis `hb`), what each
  point writes back is a block of ONE whole-array function, and the hundred blocks cover the array.
-/
import proofs.«133389_j14199161880902_1_alg».proof.Proof.Gen.KernelIdeal.Frame
import proofs.«133389_j14199161880902_1_alg».proof.Proof.Spec
import proofs.«133389_j14199161880902_1_alg».proof.Proof.BridgeStmt
import Idealize.ShloMosaic.Lib.Pipeline.Value
import Idealize.ShloMosaic.Lib.ValueIdx

noncomputable section

namespace Cert.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The printed index maps, decided over the grid: the two row-blocked inputs and the output sit at block row `t`,
    the weights and biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 100 := by have h : cfg0.N = 100 := N_0; have := t.isLt; omega

/-- Row `p` of block `t` of a row-blocked window is row `1000·t + p` of its array. -/
theorem row_block0 (c : Dev nD) (t : Fin cfg0.N) (p : Fin 1000) (k : Fin 150) :
    iblk0 V c 0 t (ix2 p k) = V c (Pipeline.arrRef spec0 0) (ix2 (⟨1000 * t.val + p.val, by have := t_lt t; omega⟩ : Fin 100000) k) := by
  obtain ⟨e0, e1, -⟩ := idx_facts t
  show V c (Pipeline.arrRef spec0 0) (((cfg0.win 0).blk t).view.emb (ix2 p k)) = _
  refine congrArg _ ?_
  funext a; apply Fin.ext
  match a with
  | ⟨0, _⟩ => show win0_0.index t (0 : Fin 2) * 1000 + 1 * p.val = 1000 * t.val + p.val; omega
  | ⟨1, _⟩ => show win0_0.index t (1 : Fin 2) * 150 + 1 * k.val = k.val; omega
theorem row_block1 (c : Dev nD) (t : Fin cfg0.N) (p : Fin 1000) (k : Fin 150) :
    iblk0 V c 1 t (ix2 p k) = V c (Pipeline.arrRef spec0 1) (ix2 (⟨1000 * t.val + p.val, by have := t_lt t; omega⟩ : Fin 100000) k) := by
  obtain ⟨-, -, e0, e1, -⟩ := idx_facts t
  show V c (Pipeline.arrRef spec0 1) (((cfg0.win 1).blk t).view.emb (ix2 p k)) = _
  refine congrArg _ ?_
  funext a; apply Fin.ext
  match a with
  | ⟨0, _⟩ => show win0_1.index t (0 : Fin 2) * 1000 + 1 * p.val = 1000 * t.val + p.val; omega
  | ⟨1, _⟩ => show win0_1.index t (1 : Fin 2) * 150 + 1 * k.val = k.val; omega

/-- A window whose one block is its whole array reads the array. -/
theorem whole_block2 (c : Dev nD) (t : Fin cfg0.N) : (iblk0 V c 2 t : S150x450.Idx → Ideal .f32) = V c (Pipeline.arrRef spec0 2) := by
  obtain ⟨-, -, -, -, e0, e1, -⟩ := idx_facts t
  funext y
  show V c (Pipeline.arrRef spec0 2) (((cfg0.win 2).blk t).view.emb y) = _
  refine congrArg _ ?_
  funext a; apply Fin.ext
  match a with
  | ⟨0, _⟩ => show win0_2.index t (0 : Fin 2) * 150 + 1 * (y 0).val = (y 0).val; omega
  | ⟨1, _⟩ => show win0_2.index t (1 : Fin 2) * 450 + 1 * (y 1).val = (y 1).val; omega
theorem whole_block3 (c : Dev nD) (t : Fin cfg0.N) : (iblk0 V c 3 t : S150x450.Idx → Ideal .f32) = V c (Pipeline.arrRef spec0 3) := by
  obtain ⟨-, -, -, -, -, -, e0, e1, -⟩ := idx_facts t
  funext y
  show V c (Pipeline.arrRef spec0 3) (((cfg0.win 3).blk t).view.emb y) = _
  refine congrArg _ ?_
  funext a; apply Fin.ext
  match a with
  | ⟨0, _⟩ => show win0_3.index t (0 : Fin 2) * 150 + 1 * (y 0).val = (y 0).val; omega
  | ⟨1, _⟩ => show win0_3.index t (1 : Fin 2) * 450 + 1 * (y 1).val = (y 1).val; omega
theorem whole_block4 (c : Dev nD) (t : Fin cfg0.N) : (iblk0 V c 4 t : S1x450.Idx → Ideal .f32) = V c (Pipeline.arrRef spec0 4) := by
  obtain ⟨-, -, -, -, -, -, -, -, e0, e1, -⟩ := idx_facts t
  funext y
  show V c (Pipeline.arrRef spec0 4) (((cfg0.win 4).blk t).view.emb y) = _
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 450 + 1 * (y 1).val = (y 1).val; omega
theorem whole_block5 (c : Dev nD) (t : Fin cfg0.N) : (iblk0 V c 5 t : S1x450.Idx → Ideal .f32) = V c (Pipeline.arrRef spec0 5) := by
  obtain ⟨-, -, -, -, -, -, -, -, -, -, e0, e1, -⟩ := idx_facts t
  funext y
  show V c (Pipeline.arrRef spec0 5) (((cfg0.win 5).blk t).view.emb y) = _
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 450 + 1 * (y 1).val = (y 1).val; omega

/-- The cell on one block, the weights and biases given as the blocks the body loads. -/
theorem cell_block (hb : Cert.Bridge.CellBridge (k0_pay1 (F := Ideal))) (inc h : Cert.GnnSpec.Arr Ideal Cert.ReferenceIdeal.S100000x150 .f32) (wT uT : Cert.GnnSpec.Arr Ideal Cert.ReferenceIdeal.S150x450 .f32)
    (b1 b2 : Cert.GnnSpec.Arr Ideal Cert.ReferenceIdeal.S1x450 .f32) (t : Fin 100) (x0 x1 : Vec Ideal S1000x150 .f32)
    (x2 x3 : Vec Ideal S150x450 .f32) (x4 x5 : Vec Ideal S1x450 .f32)
    (hx0 : ∀ (p : Fin 1000) (k : Fin 150), x0 (ix2 p k) = inc (ix2 (⟨1000 * t.val + p.val, by omega⟩ : Fin 100000) k))
    (hx1 : ∀ (p : Fin 1000) (k : Fin 150), x1 (ix2 p k) = h (ix2 (⟨1000 * t.val + p.val, by omega⟩ : Fin 100000) k))
    (hx2 : x2 = wT) (hx3 : x3 = uT) (hx4 : x4 = b1) (hx5 : x5 = b2) (p : Fin 1000) (j : Fin 150) :
    k0_pay1 (F := Ideal) x0 x1 x2 x3 x4 x5 (ix2 p j) = Cert.GnnSpec.gruT inc h wT uT b1 b2 (ix2 (⟨1000 * t.val + p.val, by omega⟩ : Fin 100000) j) := by
  subst hx2 hx3 hx4 hx5
  exact hb _ _ _ _ _ _ t _ _ hx0 hx1 p j

/-- What point `t` writes back is block `t` of the cell's whole-array function of the arrays the region finds. -/
theorem flushed_eq (hb : Cert.Bridge.CellBridge (k0_pay1 (F := Ideal))) (c : Dev nD) (t : Fin cfg0.N) :
    (dat0 V c).flushed 6 t = ((cfg0.win 6).blk t).view.read (Elt Ideal)
      (Cert.GnnSpec.gruT (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S1000x150) hz, View.ld_unit_zero (S := S150x450) hz, View.ld_unit_zero (S := S1x450) hz]
  funext y
  obtain ⟨p, j, rfl⟩ : ∃ (p : Fin 1000) (j : Fin 150), y = ix2 p j := ⟨y 0, y 1, eq_ix2 y⟩
  obtain ⟨-, -, -, -, -, -, -, -, -, -, -, -, e0, e1⟩ := idx_facts t
  have hemb : ((cfg0.win 6).blk t).view.emb (ix2 p j) = ix2 (⟨1000 * t.val + p.val, by have := t_lt t; omega⟩ : Fin 100000) j := by
    funext a; apply Fin.ext
    match a with
    | ⟨0, _⟩ => show win0_6.index t (0 : Fin 2) * 1000 + 1 * p.val = 1000 * t.val + p.val; omega
    | ⟨1, _⟩ => show win0_6.index t (1 : Fin 2) * 150 + 1 * j.val = j.val; omega
  show k0_pay1 (iblk0 V c 0 t) (iblk0 V c 1 t) (iblk0 V c 2 t) (iblk0 V c 3 t) (iblk0 V c 4 t) (iblk0 V c 5 t) (ix2 p j)
    = Cert.GnnSpec.gruT (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p j))
  rw [hemb]
  exact cell_block hb _ _ _ _ _ _ ⟨t.val, t_lt t⟩ _ _ _ _ _ _ (row_block0 V c t) (row_block1 V c t) (whole_block2 V c t) (whole_block3 V c t) (whole_block4 V c t) (whole_block5 V c t) p j

/-- An index of the output array lies in point `t`'s block iff its row is among the block's thousand. -/
theorem mem_blk (t : Fin cfg0.N) (i : S100000x150.Idx) :
    i ∈ ((cfg0.win 6).blk t).view.set ↔ ∀ a : Fin 2, win0_6.index t a * S1000x150.size a ≤ (i a).val ∧ (i a).val < win0_6.index t a * S1000x150.size a + S1000x150.size a := by
  show i ∈ ((View.whole (Pipeline.arrRef spec0 6)).slice (win0_6.rect t)).set ↔ _
  rw [View.set_slice_whole, Rect.mem_set_unit]
  exact Iff.rfl

/-- Every row is some point's: the point `row / 1000`. -/
theorem cover (i : S100000x150.Idx) : ∃ t : Fin cfg0.N, (cfg0.win 6).flush t = true ∧ i ∈ ((cfg0.win 6).blk t).view.set := by
  have hi0 : (i 0).val < 100000 := (i 0).isLt
  have hi1 : (i 1).val < 150 := (i 1).isLt
  let t : Fin cfg0.N := ⟨(i 0).val / 1000, by rw [show cfg0.N = 100 from N_0]; omega⟩
  obtain ⟨-, -, -, -, -, -, -, -, -, -, -, -, e0, e1⟩ := idx_facts t
  have ht : t.val = (i 0).val / 1000 := rfl
  refine ⟨t, flush0_6 t, ?_⟩
  rw [mem_blk]
  intro a
  match a with
  | ⟨0, _⟩ => show win0_6.index t (0 : Fin 2) * 1000 ≤ (i 0).val ∧ (i 0).val < win0_6.index t (0 : Fin 2) * 1000 + 1000; omega
  | ⟨1, _⟩ => show win0_6.index t (1 : Fin 2) * 150 ≤ (i 1).val ∧ (i 1).val < win0_6.index t (1 : Fin 2) * 150 + 150; omega

/-- The region's output array after its hundred points is the cell's function of the arrays it found. -/
theorem out_eq (hb : Cert.Bridge.CellBridge (k0_pay1 (F := Ideal))) (c : Dev nD) :
    (dat0 V c).arrAt 6 cfg0.N = Cert.GnnSpec.gruT (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed_eq V hb c t) (cover)

end Cert.Region0

end
-- ==== Proof.Region1.lean ====
/-
  One recurrent region: its output array after all its grid points is the specification's cell of the arrays the
  region finds on entry.

  The region runs the cell on a grid of 100 points; point `t` fetches rows `1000·t … 1000·t + 999` of the aggregated
  states and of the old states, the whole weight and bias arrays, and writes back rows `1000·t …` of the new states.
  Given that the body's arithmetic on block `t` is block `t` of the whole-array cell (the hypothesis `hb`), what each
  point writes back is a block of ONE whole-array function, and the hundred blocks cover the array.
-/
import proofs.«133389_j14199161880902_1_alg».proof.Proof.Gen.KernelIdeal.Frame
import proofs.«133389_j14199161880902_1_alg».proof.Proof.Spec
import proofs.«133389_j14199161880902_1_alg».proof.Proof.BridgeStmt
import Idealize.ShloMosaic.Lib.Pipeline.Value
import Idealize.ShloMosaic.Lib.ValueIdx

noncomputable section

namespace Cert.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The printed index maps, decided over the grid: the two row-blocked inputs and the output sit at block row `t`,
    the weights and biases at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 100 := by have h : cfg1.N = 100 := N_1; have := t.isLt; omega

/-- Row `p` of block `t` of a row-blocked window is row `1000·t + p` of its array. -/
theorem row_block0 (c : Dev nD) (t : Fin cfg1.N) (p : Fin 1000) (k : Fin 150) :
    iblk1 V c 0 t (ix2 p k) = V c (Pipeline.arrRef spec1 0) (ix2 (⟨1000 * t.val + p.val, by have := t_lt t; omega⟩ : Fin 100000) k) := by
  obtain ⟨e0, e1, -⟩ := idx_facts t
  show V c (Pipeline.arrRef spec1 0) (((cfg1.win 0).blk t).view.emb (ix2 p k)) = _
  refine congrArg _ ?_
  funext a; apply Fin.ext
  match a with
  | ⟨0, _⟩ => show win1_0.index t (0 : Fin 2) * 1000 + 1 * p.val = 1000 * t.val + p.val; omega
  | ⟨1, _⟩ => show win1_0.index t (1 : Fin 2) * 150 + 1 * k.val = k.val; omega
theorem row_block1 (c : Dev nD) (t : Fin cfg1.N) (p : Fin 1000) (k : Fin 150) :
    iblk1 V c 1 t (ix2 p k) = V c (Pipeline.arrRef spec1 1) (ix2 (⟨1000 * t.val + p.val, by have := t_lt t; omega⟩ : Fin 100000) k) := by
  obtain ⟨-, -, e0, e1, -⟩ := idx_facts t
  show V c (Pipeline.arrRef spec1 1) (((cfg1.win 1).blk t).view.emb (ix2 p k)) = _
  refine congrArg _ ?_
  funext a; apply Fin.ext
  match a with
  | ⟨0, _⟩ => show win1_1.index t (0 : Fin 2) * 1000 + 1 * p.val = 1000 * t.val + p.val; omega
  | ⟨1, _⟩ => show win1_1.index t (1 : Fin 2) * 150 + 1 * k.val = k.val; omega

/-- A window whose one block is its whole array reads the array. -/
theorem whole_block2 (c : Dev nD) (t : Fin cfg1.N) : (iblk1 V c 2 t : S150x450.Idx → Ideal .f32) = V c (Pipeline.arrRef spec1 2) := by
  obtain ⟨-, -, -, -, e0, e1, -⟩ := idx_facts t
  funext y
  show V c (Pipeline.arrRef spec1 2) (((cfg1.win 2).blk t).view.emb y) = _
  refine congrArg _ ?_
  funext a; apply Fin.ext
  match a with
  | ⟨0, _⟩ => show win1_2.index t (0 : Fin 2) * 150 + 1 * (y 0).val = (y 0).val; omega
  | ⟨1, _⟩ => show win1_2.index t (1 : Fin 2) * 450 + 1 * (y 1).val = (y 1).val; omega
theorem whole_block3 (c : Dev nD) (t : Fin cfg1.N) : (iblk1 V c 3 t : S150x450.Idx → Ideal .f32) = V c (Pipeline.arrRef spec1 3) := by
  obtain ⟨-, -, -, -, -, -, e0, e1, -⟩ := idx_facts t
  funext y
  show V c (Pipeline.arrRef spec1 3) (((cfg1.win 3).blk t).view.emb y) = _
  refine congrArg _ ?_
  funext a; apply Fin.ext
  match a with
  | ⟨0, _⟩ => show win1_3.index t (0 : Fin 2) * 150 + 1 * (y 0).val = (y 0).val; omega
  | ⟨1, _⟩ => show win1_3.index t (1 : Fin 2) * 450 + 1 * (y 1).val = (y 1).val; omega
theorem whole_block4 (c : Dev nD) (t : Fin cfg1.N) : (iblk1 V c 4 t : S1x450.Idx → Ideal .f32) = V c (Pipeline.arrRef spec1 4) := by
  obtain ⟨-, -, -, -, -, -, -, -, e0, e1, -⟩ := idx_facts t
  funext y
  show V c (Pipeline.arrRef spec1 4) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 450 + 1 * (y 1).val = (y 1).val; omega
theorem whole_block5 (c : Dev nD) (t : Fin cfg1.N) : (iblk1 V c 5 t : S1x450.Idx → Ideal .f32) = V c (Pipeline.arrRef spec1 5) := by
  obtain ⟨-, -, -, -, -, -, -, -, -, -, e0, e1, -⟩ := idx_facts t
  funext y
  show V c (Pipeline.arrRef spec1 5) (((cfg1.win 5).blk t).view.emb y) = _
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 450 + 1 * (y 1).val = (y 1).val; omega

/-- The cell on one block, the weights and biases given as the blocks the body loads. -/
theorem cell_block (hb : Cert.Bridge.CellBridge (k1_pay1 (F := Ideal))) (inc h : Cert.GnnSpec.Arr Ideal Cert.ReferenceIdeal.S100000x150 .f32) (wT uT : Cert.GnnSpec.Arr Ideal Cert.ReferenceIdeal.S150x450 .f32)
    (b1 b2 : Cert.GnnSpec.Arr Ideal Cert.ReferenceIdeal.S1x450 .f32) (t : Fin 100) (x0 x1 : Vec Ideal S1000x150 .f32)
    (x2 x3 : Vec Ideal S150x450 .f32) (x4 x5 : Vec Ideal S1x450 .f32)
    (hx0 : ∀ (p : Fin 1000) (k : Fin 150), x0 (ix2 p k) = inc (ix2 (⟨1000 * t.val + p.val, by omega⟩ : Fin 100000) k))
    (hx1 : ∀ (p : Fin 1000) (k : Fin 150), x1 (ix2 p k) = h (ix2 (⟨1000 * t.val + p.val, by omega⟩ : Fin 100000) k))
    (hx2 : x2 = wT) (hx3 : x3 = uT) (hx4 : x4 = b1) (hx5 : x5 = b2) (p : Fin 1000) (j : Fin 150) :
    k1_pay1 (F := Ideal) x0 x1 x2 x3 x4 x5 (ix2 p j) = Cert.GnnSpec.gruT inc h wT uT b1 b2 (ix2 (⟨1000 * t.val + p.val, by omega⟩ : Fin 100000) j) := by
  subst hx2 hx3 hx4 hx5
  exact hb _ _ _ _ _ _ t _ _ hx0 hx1 p j

/-- What point `t` writes back is block `t` of the cell's whole-array function of the arrays the region finds. -/
theorem flushed_eq (hb : Cert.Bridge.CellBridge (k1_pay1 (F := Ideal))) (c : Dev nD) (t : Fin cfg1.N) :
    (dat1 V c).flushed 6 t = ((cfg1.win 6).blk t).view.read (Elt Ideal)
      (Cert.GnnSpec.gruT (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S1000x150) hz, View.ld_unit_zero (S := S150x450) hz, View.ld_unit_zero (S := S1x450) hz]
  funext y
  obtain ⟨p, j, rfl⟩ : ∃ (p : Fin 1000) (j : Fin 150), y = ix2 p j := ⟨y 0, y 1, eq_ix2 y⟩
  obtain ⟨-, -, -, -, -, -, -, -, -, -, -, -, e0, e1⟩ := idx_facts t
  have hemb : ((cfg1.win 6).blk t).view.emb (ix2 p j) = ix2 (⟨1000 * t.val + p.val, by have := t_lt t; omega⟩ : Fin 100000) j := by
    funext a; apply Fin.ext
    match a with
    | ⟨0, _⟩ => show win1_6.index t (0 : Fin 2) * 1000 + 1 * p.val = 1000 * t.val + p.val; omega
    | ⟨1, _⟩ => show win1_6.index t (1 : Fin 2) * 150 + 1 * j.val = j.val; omega
  show k1_pay1 (iblk1 V c 0 t) (iblk1 V c 1 t) (iblk1 V c 2 t) (iblk1 V c 3 t) (iblk1 V c 4 t) (iblk1 V c 5 t) (ix2 p j)
    = Cert.GnnSpec.gruT (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p j))
  rw [hemb]
  exact cell_block hb _ _ _ _ _ _ ⟨t.val, t_lt t⟩ _ _ _ _ _ _ (row_block0 V c t) (row_block1 V c t) (whole_block2 V c t) (whole_block3 V c t) (whole_block4 V c t) (whole_block5 V c t) p j

/-- An index of the output array lies in point `t`'s block iff its row is among the block's thousand. -/
theorem mem_blk (t : Fin cfg1.N) (i : S100000x150.Idx) :
    i ∈ ((cfg1.win 6).blk t).view.set ↔ ∀ a : Fin 2, win1_6.index t a * S1000x150.size a ≤ (i a).val ∧ (i a).val < win1_6.index t a * S1000x150.size a + S1000x150.size a := by
  show i ∈ ((View.whole (Pipeline.arrRef spec1 6)).slice (win1_6.rect t)).set ↔ _
  rw [View.set_slice_whole, Rect.mem_set_unit]
  exact Iff.rfl

/-- Every row is some point's: the point `row / 1000`. -/
theorem cover (i : S100000x150.Idx) : ∃ t : Fin cfg1.N, (cfg1.win 6).flush t = true ∧ i ∈ ((cfg1.win 6).blk t).view.set := by
  have hi0 : (i 0).val < 100000 := (i 0).isLt
  have hi1 : (i 1).val < 150 := (i 1).isLt
  let t : Fin cfg1.N := ⟨(i 0).val / 1000, by rw [show cfg1.N = 100 from N_1]; omega⟩
  obtain ⟨-, -, -, -, -, -, -, -, -, -, -, -, e0, e1⟩ := idx_facts t
  have ht : t.val = (i 0).val / 1000 := rfl
  refine ⟨t, flush1_6 t, ?_⟩
  rw [mem_blk]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 150 ≤ (i 1).val ∧ (i 1).val < win1_6.index t (1 : Fin 2) * 150 + 150; omega

/-- The region's output array after its hundred points is the cell's function of the arrays it found. -/
theorem out_eq (hb : Cert.Bridge.CellBridge (k1_pay1 (F := Ideal))) (c : Dev nD) :
    (dat1 V c).arrAt 6 cfg1.N = Cert.GnnSpec.gruT (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed_eq V hb c t) (cover)

end Cert.Region1

end
-- ==== Proof.Region2.lean ====
/-
  One recurrent region: its output array after all its grid points is the specification's cell of the arrays the
  region finds on entry.

  The region runs the cell on a grid of 100 points; point `t` fetches rows `1000·t … 1000·t + 999` of the aggregated
  states and of the old states, the whole weight and bias arrays, and writes back rows `1000·t …` of the new states.
  Given that the body's arithmetic on block `t` is block `t` of the whole-array cell (the hypothesis `hb`), what each
  point writes back is a block of ONE whole-array function, and the hundred blocks cover the array.
-/
import proofs.«133389_j14199161880902_1_alg».proof.Proof.Gen.KernelIdeal.Frame
import proofs.«133389_j14199161880902_1_alg».proof.Proof.Spec
import proofs.«133389_j14199161880902_1_alg».proof.Proof.BridgeStmt
import Idealize.ShloMosaic.Lib.Pipeline.Value
import Idealize.ShloMosaic.Lib.ValueIdx

noncomputable section

namespace Cert.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The printed index maps, decided over the grid: the two row-blocked inputs and the output sit at block row `t`,
    the weights and biases at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem t_lt (t : Fin cfg2.N) : t.val < 100 := by have h : cfg2.N = 100 := N_2; have := t.isLt; omega

/-- Row `p` of block `t` of a row-blocked window is row `1000·t + p` of its array. -/
theorem row_block0 (c : Dev nD) (t : Fin cfg2.N) (p : Fin 1000) (k : Fin 150) :
    iblk2 V c 0 t (ix2 p k) = V c (Pipeline.arrRef spec2 0) (ix2 (⟨1000 * t.val + p.val, by have := t_lt t; omega⟩ : Fin 100000) k) := by
  obtain ⟨e0, e1, -⟩ := idx_facts t
  show V c (Pipeline.arrRef spec2 0) (((cfg2.win 0).blk t).view.emb (ix2 p k)) = _
  refine congrArg _ ?_
  funext a; apply Fin.ext
  match a with
  | ⟨0, _⟩ => show win2_0.index t (0 : Fin 2) * 1000 + 1 * p.val = 1000 * t.val + p.val; omega
  | ⟨1, _⟩ => show win2_0.index t (1 : Fin 2) * 150 + 1 * k.val = k.val; omega
theorem row_block1 (c : Dev nD) (t : Fin cfg2.N) (p : Fin 1000) (k : Fin 150) :
    iblk2 V c 1 t (ix2 p k) = V c (Pipeline.arrRef spec2 1) (ix2 (⟨1000 * t.val + p.val, by have := t_lt t; omega⟩ : Fin 100000) k) := by
  obtain ⟨-, -, e0, e1, -⟩ := idx_facts t
  show V c (Pipeline.arrRef spec2 1) (((cfg2.win 1).blk t).view.emb (ix2 p k)) = _
  refine congrArg _ ?_
  funext a; apply Fin.ext
  match a with
  | ⟨0, _⟩ => show win2_1.index t (0 : Fin 2) * 1000 + 1 * p.val = 1000 * t.val + p.val; omega
  | ⟨1, _⟩ => show win2_1.index t (1 : Fin 2) * 150 + 1 * k.val = k.val; omega

/-- A window whose one block is its whole array reads the array. -/
theorem whole_block2 (c : Dev nD) (t : Fin cfg2.N) : (iblk2 V c 2 t : S150x450.Idx → Ideal .f32) = V c (Pipeline.arrRef spec2 2) := by
  obtain ⟨-, -, -, -, e0, e1, -⟩ := idx_facts t
  funext y
  show V c (Pipeline.arrRef spec2 2) (((cfg2.win 2).blk t).view.emb y) = _
  refine congrArg _ ?_
  funext a; apply Fin.ext
  match a with
  | ⟨0, _⟩ => show win2_2.index t (0 : Fin 2) * 150 + 1 * (y 0).val = (y 0).val; omega
  | ⟨1, _⟩ => show win2_2.index t (1 : Fin 2) * 450 + 1 * (y 1).val = (y 1).val; omega
theorem whole_block3 (c : Dev nD) (t : Fin cfg2.N) : (iblk2 V c 3 t : S150x450.Idx → Ideal .f32) = V c (Pipeline.arrRef spec2 3) := by
  obtain ⟨-, -, -, -, -, -, e0, e1, -⟩ := idx_facts t
  funext y
  show V c (Pipeline.arrRef spec2 3) (((cfg2.win 3).blk t).view.emb y) = _
  refine congrArg _ ?_
  funext a; apply Fin.ext
  match a with
  | ⟨0, _⟩ => show win2_3.index t (0 : Fin 2) * 150 + 1 * (y 0).val = (y 0).val; omega
  | ⟨1, _⟩ => show win2_3.index t (1 : Fin 2) * 450 + 1 * (y 1).val = (y 1).val; omega
theorem whole_block4 (c : Dev nD) (t : Fin cfg2.N) : (iblk2 V c 4 t : S1x450.Idx → Ideal .f32) = V c (Pipeline.arrRef spec2 4) := by
  obtain ⟨-, -, -, -, -, -, -, -, e0, e1, -⟩ := idx_facts t
  funext y
  show V c (Pipeline.arrRef spec2 4) (((cfg2.win 4).blk t).view.emb y) = _
  refine congrArg _ ?_
  funext a; apply Fin.ext
  match a with
  | ⟨0, _⟩ => show win2_4.index t (0 : Fin 2) * 1 + 1 * (y 0).val = (y 0).val; omega
  | ⟨1, _⟩ => show win2_4.index t (1 : Fin 2) * 450 + 1 * (y 1).val = (y 1).val; omega
theorem whole_block5 (c : Dev nD) (t : Fin cfg2.N) : (iblk2 V c 5 t : S1x450.Idx → Ideal .f32) = V c (Pipeline.arrRef spec2 5) := by
  obtain ⟨-, -, -, -, -, -, -, -, -, -, e0, e1, -⟩ := idx_facts t
  funext y
  show V c (Pipeline.arrRef spec2 5) (((cfg2.win 5).blk t).view.emb y) = _
  refine congrArg _ ?_
  funext a; apply Fin.ext
  match a with
  | ⟨0, _⟩ => show win2_5.index t (0 : Fin 2) * 1 + 1 * (y 0).val = (y 0).val; omega
  | ⟨1, _⟩ => show win2_5.index t (1 : Fin 2) * 450 + 1 * (y 1).val = (y 1).val; omega

/-- The cell on one block, the weights and biases given as the blocks the body loads. -/
theorem cell_block (hb : Cert.Bridge.CellBridge (k2_pay1 (F := Ideal))) (inc h : Cert.GnnSpec.Arr Ideal Cert.ReferenceIdeal.S100000x150 .f32) (wT uT : Cert.GnnSpec.Arr Ideal Cert.ReferenceIdeal.S150x450 .f32)
    (b1 b2 : Cert.GnnSpec.Arr Ideal Cert.ReferenceIdeal.S1x450 .f32) (t : Fin 100) (x0 x1 : Vec Ideal S1000x150 .f32)
    (x2 x3 : Vec Ideal S150x450 .f32) (x4 x5 : Vec Ideal S1x450 .f32)
    (hx0 : ∀ (p : Fin 1000) (k : Fin 150), x0 (ix2 p k) = inc (ix2 (⟨1000 * t.val + p.val, by omega⟩ : Fin 100000) k))
    (hx1 : ∀ (p : Fin 1000) (k : Fin 150), x1 (ix2 p k) = h (ix2 (⟨1000 * t.val + p.val, by omega⟩ : Fin 100000) k))
    (hx2 : x2 = wT) (hx3 : x3 = uT) (hx4 : x4 = b1) (hx5 : x5 = b2) (p : Fin 1000) (j : Fin 150) :
    k2_pay1 (F := Ideal) x0 x1 x2 x3 x4 x5 (ix2 p j) = Cert.GnnSpec.gruT inc h wT uT b1 b2 (ix2 (⟨1000 * t.val + p.val, by omega⟩ : Fin 100000) j) := by
  subst hx2 hx3 hx4 hx5
  exact hb _ _ _ _ _ _ t _ _ hx0 hx1 p j

/-- What point `t` writes back is block `t` of the cell's whole-array function of the arrays the region finds. -/
theorem flushed_eq (hb : Cert.Bridge.CellBridge (k2_pay1 (F := Ideal))) (c : Dev nD) (t : Fin cfg2.N) :
    (dat2 V c).flushed 6 t = ((cfg2.win 6).blk t).view.read (Elt Ideal)
      (Cert.GnnSpec.gruT (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero hz]
  simp only [View.ld_unit_zero (S := S1000x150) hz, View.ld_unit_zero (S := S150x450) hz, View.ld_unit_zero (S := S1x450) hz]
  funext y
  obtain ⟨p, j, rfl⟩ : ∃ (p : Fin 1000) (j : Fin 150), y = ix2 p j := ⟨y 0, y 1, eq_ix2 y⟩
  obtain ⟨-, -, -, -, -, -, -, -, -, -, -, -, e0, e1⟩ := idx_facts t
  have hemb : ((cfg2.win 6).blk t).view.emb (ix2 p j) = ix2 (⟨1000 * t.val + p.val, by have := t_lt t; omega⟩ : Fin 100000) j := by
    funext a; apply Fin.ext
    match a with
    | ⟨0, _⟩ => show win2_6.index t (0 : Fin 2) * 1000 + 1 * p.val = 1000 * t.val + p.val; omega
    | ⟨1, _⟩ => show win2_6.index t (1 : Fin 2) * 150 + 1 * j.val = j.val; omega
  show k2_pay1 (iblk2 V c 0 t) (iblk2 V c 1 t) (iblk2 V c 2 t) (iblk2 V c 3 t) (iblk2 V c 4 t) (iblk2 V c 5 t) (ix2 p j)
    = Cert.GnnSpec.gruT (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (((cfg2.win 6).blk t).view.emb (ix2 p j))
  rw [hemb]
  exact cell_block hb _ _ _ _ _ _ ⟨t.val, t_lt t⟩ _ _ _ _ _ _ (row_block0 V c t) (row_block1 V c t) (whole_block2 V c t) (whole_block3 V c t) (whole_block4 V c t) (whole_block5 V c t) p j

/-- An index of the output array lies in point `t`'s block iff its row is among the block's thousand. -/
theorem mem_blk (t : Fin cfg2.N) (i : S100000x150.Idx) :
    i ∈ ((cfg2.win 6).blk t).view.set ↔ ∀ a : Fin 2, win2_6.index t a * S1000x150.size a ≤ (i a).val ∧ (i a).val < win2_6.index t a * S1000x150.size a + S1000x150.size a := by
  show i ∈ ((View.whole (Pipeline.arrRef spec2 6)).slice (win2_6.rect t)).set ↔ _
  rw [View.set_slice_whole, Rect.mem_set_unit]
  exact Iff.rfl

/-- Every row is some point's: the point `row / 1000`. -/
theorem cover (i : S100000x150.Idx) : ∃ t : Fin cfg2.N, (cfg2.win 6).flush t = true ∧ i ∈ ((cfg2.win 6).blk t).view.set := by
  have hi0 : (i 0).val < 100000 := (i 0).isLt
  have hi1 : (i 1).val < 150 := (i 1).isLt
  let t : Fin cfg2.N := ⟨(i 0).val / 1000, by rw [show cfg2.N = 100 from N_2]; omega⟩
  obtain ⟨-, -, -, -, -, -, -, -, -, -, -, -, e0, e1⟩ := idx_facts t
  have ht : t.val = (i 0).val / 1000 := rfl
  refine ⟨t, flush2_6 t, ?_⟩
  rw [mem_blk]
  intro a
  match a with
  | ⟨0, _⟩ => show win2_6.index t (0 : Fin 2) * 1000 ≤ (i 0).val ∧ (i 0).val < win2_6.index t (0 : Fin 2) * 1000 + 1000; omega
  | ⟨1, _⟩ => show win2_6.index t (1 : Fin 2) * 150 ≤ (i 1).val ∧ (i 1).val < win2_6.index t (1 : Fin 2) * 150 + 150; omega

/-- The region's output array after its hundred points is the cell's function of the arrays it found. -/
theorem out_eq (hb : Cert.Bridge.CellBridge (k2_pay1 (F := Ideal))) (c : Dev nD) :
    (dat2 V c).arrAt 6 cfg2.N = Cert.GnnSpec.gruT (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 V c).arrAt_eq_of_cover 6 _ (fun t _ => flushed_eq V hb c t) (cover)

end Cert.Region2

end
-- ==== Proof.Region3.lean ====
/-
  One recurrent region: its output array after all its grid points is the specification's cell of the arrays the
  region finds on entry.

  The region runs the cell on a grid of 100 points; point `t` fetches rows `1000·t … 1000·t + 999` of the aggregated
  states and of the old states, the whole weight and bias arrays, and writes back rows `1000·t …` of the new states.
  Given that the body's arithmetic on block `t` is block `t` of the whole-array cell (the hypothesis `hb`), what each
  point writes back is a block of ONE whole-array function, and the hundred blocks cover the array.
-/
import proofs.«133389_j14199161880902_1_alg».proof.Proof.Gen.KernelIdeal.Frame
import proofs.«133389_j14199161880902_1_alg».proof.Proof.Spec
import proofs.«133389_j14199161880902_1_alg».proof.Proof.BridgeStmt
import Idealize.ShloMosaic.Lib.Pipeline.Value
import Idealize.ShloMosaic.Lib.ValueIdx

noncomputable section

namespace Cert.Region3

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The printed index maps, decided over the grid: the two row-blocked inputs and the output sit at block row `t`,
    the weights and biases at their one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem t_lt (t : Fin cfg3.N) : t.val < 100 := by have h : cfg3.N = 100 := N_3; have := t.isLt; omega

/-- Row `p` of block `t` of a row-blocked window is row `1000·t + p` of its array. -/
theorem row_block0 (c : Dev nD) (t : Fin cfg3.N) (p : Fin 1000) (k : Fin 150) :
    iblk3 V c 0 t (ix2 p k) = V c (Pipeline.arrRef spec3 0) (ix2 (⟨1000 * t.val + p.val, by have := t_lt t; omega⟩ : Fin 100000) k) := by
  obtain ⟨e0, e1, -⟩ := idx_facts t
  show V c (Pipeline.arrRef spec3 0) (((cfg3.win 0).blk t).view.emb (ix2 p k)) = _
  refine congrArg _ ?_
  funext a; apply Fin.ext
  match a with
  | ⟨0, _⟩ => show win3_0.index t (0 : Fin 2) * 1000 + 1 * p.val = 1000 * t.val + p.val; omega
  | ⟨1, _⟩ => show win3_0.index t (1 : Fin 2) * 150 + 1 * k.val = k.val; omega
theorem row_block1 (c : Dev nD) (t : Fin cfg3.N) (p : Fin 1000) (k : Fin 150) :
    iblk3 V c 1 t (ix2 p k) = V c (Pipeline.arrRef spec3 1) (ix2 (⟨1000 * t.val + p.val, by have := t_lt t; omega⟩ : Fin 100000) k) := by
  obtain ⟨-, -, e0, e1, -⟩ := idx_facts t
  show V c (Pipeline.arrRef spec3 1) (((cfg3.win 1).blk t).view.emb (ix2 p k)) = _
  refine congrArg _ ?_
  funext a; apply Fin.ext
  match a with
  | ⟨0, _⟩ => show win3_1.index t (0 : Fin 2) * 1000 + 1 * p.val = 1000 * t.val + p.val; omega
  | ⟨1, _⟩ => show win3_1.index t (1 : Fin 2) * 150 + 1 * k.val = k.val; omega

/-- A window whose one block is its whole array reads the array. -/
theorem whole_block2 (c : Dev nD) (t : Fin cfg3.N) : (iblk3 V c 2 t : S150x450.Idx → Ideal .f32) = V c (Pipeline.arrRef spec3 2) := by
  obtain ⟨-, -, -, -, e0, e1, -⟩ := idx_facts t
  funext y
  show V c (Pipeline.arrRef spec3 2) (((cfg3.win 2).blk t).view.emb y) = _
  refine congrArg _ ?_
  funext a; apply Fin.ext
  match a with
  | ⟨0, _⟩ => show win3_2.index t (0 : Fin 2) * 150 + 1 * (y 0).val = (y 0).val; omega
  | ⟨1, _⟩ => show win3_2.index t (1 : Fin 2) * 450 + 1 * (y 1).val = (y 1).val; omega
theorem whole_block3 (c : Dev nD) (t : Fin cfg3.N) : (iblk3 V c 3 t : S150x450.Idx → Ideal .f32) = V c (Pipeline.arrRef spec3 3) := by
  obtain ⟨-, -, -, -, -, -, e0, e1, -⟩ := idx_facts t
  funext y
  show V c (Pipeline.arrRef spec3 3) (((cfg3.win 3).blk t).view.emb y) = _
  refine congrArg _ ?_
  funext a; apply Fin.ext
  match a with
  | ⟨0, _⟩ => show win3_3.index t (0 : Fin 2) * 150 + 1 * (y 0).val = (y 0).val; omega
  | ⟨1, _⟩ => show win3_3.index t (1 : Fin 2) * 450 + 1 * (y 1).val = (y 1).val; omega
theorem whole_block4 (c : Dev nD) (t : Fin cfg3.N) : (iblk3 V c 4 t : S1x450.Idx → Ideal .f32) = V c (Pipeline.arrRef spec3 4) := by
  obtain ⟨-, -, -, -, -, -, -, -, e0, e1, -⟩ := idx_facts t
  funext y
  show V c (Pipeline.arrRef spec3 4) (((cfg3.win 4).blk t).view.emb y) = _
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 450 + 1 * (y 1).val = (y 1).val; omega
theorem whole_block5 (c : Dev nD) (t : Fin cfg3.N) : (iblk3 V c 5 t : S1x450.Idx → Ideal .f32) = V c (Pipeline.arrRef spec3 5) := by
  obtain ⟨-, -, -, -, -, -, -, -, -, -, e0, e1, -⟩ := idx_facts t
  funext y
  show V c (Pipeline.arrRef spec3 5) (((cfg3.win 5).blk t).view.emb y) = _
  refine congrArg _ ?_
  funext a; apply Fin.ext
  match a with
  | ⟨0, _⟩ => show win3_5.index t (0 : Fin 2) * 1 + 1 * (y 0).val = (y 0).val; omega
  | ⟨1, _⟩ => show win3_5.index t (1 : Fin 2) * 450 + 1 * (y 1).val = (y 1).val; omega

/-- The cell on one block, the weights and biases given as the blocks the body loads. -/
theorem cell_block (hb : Cert.Bridge.CellBridge (k3_pay1 (F := Ideal))) (inc h : Cert.GnnSpec.Arr Ideal Cert.ReferenceIdeal.S100000x150 .f32) (wT uT : Cert.GnnSpec.Arr Ideal Cert.ReferenceIdeal.S150x450 .f32)
    (b1 b2 : Cert.GnnSpec.Arr Ideal Cert.ReferenceIdeal.S1x450 .f32) (t : Fin 100) (x0 x1 : Vec Ideal S1000x150 .f32)
    (x2 x3 : Vec Ideal S150x450 .f32) (x4 x5 : Vec Ideal S1x450 .f32)
    (hx0 : ∀ (p : Fin 1000) (k : Fin 150), x0 (ix2 p k) = inc (ix2 (⟨1000 * t.val + p.val, by omega⟩ : Fin 100000) k))
    (hx1 : ∀ (p : Fin 1000) (k : Fin 150), x1 (ix2 p k) = h (ix2 (⟨1000 * t.val + p.val, by omega⟩ : Fin 100000) k))
    (hx2 : x2 = wT) (hx3 : x3 = uT) (hx4 : x4 = b1) (hx5 : x5 = b2) (p : Fin 1000) (j : Fin 150) :
    k3_pay1 (F := Ideal) x0 x1 x2 x3 x4 x5 (ix2 p j) = Cert.GnnSpec.gruT inc h wT uT b1 b2 (ix2 (⟨1000 * t.val + p.val, by omega⟩ : Fin 100000) j) := by
  subst hx2 hx3 hx4 hx5
  exact hb _ _ _ _ _ _ t _ _ hx0 hx1 p j

/-- What point `t` writes back is block `t` of the cell's whole-array function of the arrays the region finds. -/
theorem flushed_eq (hb : Cert.Bridge.CellBridge (k3_pay1 (F := Ideal))) (c : Dev nD) (t : Fin cfg3.N) :
    (dat3 V c).flushed 6 t = ((cfg3.win 6).blk t).view.read (Elt Ideal)
      (Cert.GnnSpec.gruT (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S1000x150) hz, View.ld_unit_zero (S := S150x450) hz, View.ld_unit_zero (S := S1x450) hz]
  funext y
  obtain ⟨p, j, rfl⟩ : ∃ (p : Fin 1000) (j : Fin 150), y = ix2 p j := ⟨y 0, y 1, eq_ix2 y⟩
  obtain ⟨-, -, -, -, -, -, -, -, -, -, -, -, e0, e1⟩ := idx_facts t
  have hemb : ((cfg3.win 6).blk t).view.emb (ix2 p j) = ix2 (⟨1000 * t.val + p.val, by have := t_lt t; omega⟩ : Fin 100000) j := by
    funext a; apply Fin.ext
    match a with
    | ⟨0, _⟩ => show win3_6.index t (0 : Fin 2) * 1000 + 1 * p.val = 1000 * t.val + p.val; omega
    | ⟨1, _⟩ => show win3_6.index t (1 : Fin 2) * 150 + 1 * j.val = j.val; omega
  show k3_pay1 (iblk3 V c 0 t) (iblk3 V c 1 t) (iblk3 V c 2 t) (iblk3 V c 3 t) (iblk3 V c 4 t) (iblk3 V c 5 t) (ix2 p j)
    = Cert.GnnSpec.gruT (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb (ix2 p j))
  rw [hemb]
  exact cell_block hb _ _ _ _ _ _ ⟨t.val, t_lt t⟩ _ _ _ _ _ _ (row_block0 V c t) (row_block1 V c t) (whole_block2 V c t) (whole_block3 V c t) (whole_block4 V c t) (whole_block5 V c t) p j

/-- An index of the output array lies in point `t`'s block iff its row is among the block's thousand. -/
theorem mem_blk (t : Fin cfg3.N) (i : S100000x150.Idx) :
    i ∈ ((cfg3.win 6).blk t).view.set ↔ ∀ a : Fin 2, win3_6.index t a * S1000x150.size a ≤ (i a).val ∧ (i a).val < win3_6.index t a * S1000x150.size a + S1000x150.size a := by
  show i ∈ ((View.whole (Pipeline.arrRef spec3 6)).slice (win3_6.rect t)).set ↔ _
  rw [View.set_slice_whole, Rect.mem_set_unit]
  exact Iff.rfl

/-- Every row is some point's: the point `row / 1000`. -/
theorem cover (i : S100000x150.Idx) : ∃ t : Fin cfg3.N, (cfg3.win 6).flush t = true ∧ i ∈ ((cfg3.win 6).blk t).view.set := by
  have hi0 : (i 0).val < 100000 := (i 0).isLt
  have hi1 : (i 1).val < 150 := (i 1).isLt
  let t : Fin cfg3.N := ⟨(i 0).val / 1000, by rw [show cfg3.N = 100 from N_3]; omega⟩
  obtain ⟨-, -, -, -, -, -, -, -, -, -, -, -, e0, e1⟩ := idx_facts t
  have ht : t.val = (i 0).val / 1000 := rfl
  refine ⟨t, flush3_6 t, ?_⟩
  rw [mem_blk]
  intro a
  match a with
  | ⟨0, _⟩ => show win3_6.index t (0 : Fin 2) * 1000 ≤ (i 0).val ∧ (i 0).val < win3_6.index t (0 : Fin 2) * 1000 + 1000; omega
  | ⟨1, _⟩ => show win3_6.index t (1 : Fin 2) * 150 ≤ (i 1).val ∧ (i 1).val < win3_6.index t (1 : Fin 2) * 150 + 150; omega

/-- The region's output array after its hundred points is the cell's function of the arrays it found. -/
theorem out_eq (hb : Cert.Bridge.CellBridge (k3_pay1 (F := Ideal))) (c : Dev nD) :
    (dat3 V c).arrAt 6 cfg3.N = Cert.GnnSpec.gruT (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed_eq V hb c t) (cover)

end Cert.Region3

end
-- ==== Proof.Region4.lean ====
/-
  The readout region: its output array is the specification's readout of the arrays the region finds on entry.

  The grid has one point and every window's block is its whole array, so what the point writes back is the body's
  payload of the whole arrays; given that this payload is the specification's readout (the hypothesis `hm`), the
  output array is the readout.
-/
import proofs.«133389_j14199161880902_1_alg».proof.Proof.Gen.KernelIdeal.Frame
import proofs.«133389_j14199161880902_1_alg».proof.Proof.Spec
import proofs.«133389_j14199161880902_1_alg».proof.Proof.BridgeStmt
import Idealize.ShloMosaic.Lib.Pipeline.Value
import Idealize.ShloMosaic.Lib.ValueIdx

noncomputable section

namespace Cert.Region4

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The zero offset of a whole-buffer rectangle. -/
theorem hz : (![0, 0] : Fin 2 → Nat) = fun _ => 0 := funext fun a => by fin_cases a <;> rfl

/-- The printed index maps at the grid's one point: every window sits at its one block. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- A window whose one block is its whole array reads the array. -/
theorem whole_block0 (c : Dev nD) (t : Fin cfg4.N) : (iblk4 V c 0 t : S64x150.Idx → Ideal .f32) = V c (Pipeline.arrRef spec4 0) := by
  obtain ⟨e0, e1, -⟩ := idx_facts t
  funext y
  show V c (Pipeline.arrRef spec4 0) (((cfg4.win 0).blk t).view.emb y) = _
  refine congrArg _ ?_
  funext a; apply Fin.ext
  match a with
  | ⟨0, _⟩ => show win4_0.index t (0 : Fin 2) * 64 + 1 * (y 0).val = (y 0).val; omega
  | ⟨1, _⟩ => show win4_0.index t (1 : Fin 2) * 150 + 1 * (y 1).val = (y 1).val; omega
theorem whole_block1 (c : Dev nD) (t : Fin cfg4.N) : (iblk4 V c 1 t : S150x80.Idx → Ideal .f32) = V c (Pipeline.arrRef spec4 1) := by
  obtain ⟨-, -, e0, e1, -⟩ := idx_facts t
  funext y
  show V c (Pipeline.arrRef spec4 1) (((cfg4.win 1).blk t).view.emb y) = _
  refine congrArg _ ?_
  funext a; apply Fin.ext
  match a with
  | ⟨0, _⟩ => show win4_1.index t (0 : Fin 2) * 150 + 1 * (y 0).val = (y 0).val; omega
  | ⟨1, _⟩ => show win4_1.index t (1 : Fin 2) * 80 + 1 * (y 1).val = (y 1).val; omega
theorem whole_block2 (c : Dev nD) (t : Fin cfg4.N) : (iblk4 V c 2 t : S1x80.Idx → Ideal .f32) = V c (Pipeline.arrRef spec4 2) := by
  obtain ⟨-, -, -, -, e0, e1, -⟩ := idx_facts t
  funext y
  show V c (Pipeline.arrRef spec4 2) (((cfg4.win 2).blk t).view.emb y) = _
  refine congrArg _ ?_
  funext a; apply Fin.ext
  match a with
  | ⟨0, _⟩ => show win4_2.index t (0 : Fin 2) * 1 + 1 * (y 0).val = (y 0).val; omega
  | ⟨1, _⟩ => show win4_2.index t (1 : Fin 2) * 80 + 1 * (y 1).val = (y 1).val; omega
theorem whole_block3 (c : Dev nD) (t : Fin cfg4.N) : (iblk4 V c 3 t : S80x80.Idx → Ideal .f32) = V c (Pipeline.arrRef spec4 3) := by
  obtain ⟨-, -, -, -, -, -, e0, e1, -⟩ := idx_facts t
  funext y
  show V c (Pipeline.arrRef spec4 3) (((cfg4.win 3).blk t).view.emb y) = _
  refine congrArg _ ?_
  funext a; apply Fin.ext
  match a with
  | ⟨0, _⟩ => show win4_3.index t (0 : Fin 2) * 80 + 1 * (y 0).val = (y 0).val; omega
  | ⟨1, _⟩ => show win4_3.index t (1 : Fin 2) * 80 + 1 * (y 1).val = (y 1).val; omega
theorem whole_block4 (c : Dev nD) (t : Fin cfg4.N) : (iblk4 V c 4 t : S1x80.Idx → Ideal .f32) = V c (Pipeline.arrRef spec4 4) := by
  obtain ⟨-, -, -, -, -, -, -, -, e0, e1, -⟩ := idx_facts t
  funext y
  show V c (Pipeline.arrRef spec4 4) (((cfg4.win 4).blk t).view.emb y) = _
  refine congrArg _ ?_
  funext a; apply Fin.ext
  match a with
  | ⟨0, _⟩ => show win4_4.index t (0 : Fin 2) * 1 + 1 * (y 0).val = (y 0).val; omega
  | ⟨1, _⟩ => show win4_4.index t (1 : Fin 2) * 80 + 1 * (y 1).val = (y 1).val; omega
theorem whole_block5 (c : Dev nD) (t : Fin cfg4.N) : (iblk4 V c 5 t : S80x10.Idx → Ideal .f32) = V c (Pipeline.arrRef spec4 5) := by
  obtain ⟨-, -, -, -, -, -, -, -, -, -, e0, e1, -⟩ := idx_facts t
  funext y
  show V c (Pipeline.arrRef spec4 5) (((cfg4.win 5).blk t).view.emb y) = _
  refine congrArg _ ?_
  funext a; apply Fin.ext
  match a with
  | ⟨0, _⟩ => show win4_5.index t (0 : Fin 2) * 80 + 1 * (y 0).val = (y 0).val; omega
  | ⟨1, _⟩ => show win4_5.index t (1 : Fin 2) * 10 + 1 * (y 1).val = (y 1).val; omega
theorem whole_block6 (c : Dev nD) (t : Fin cfg4.N) : (iblk4 V c 6 t : S1x10.Idx → Ideal .f32) = V c (Pipeline.arrRef spec4 6) := by
  obtain ⟨-, -, -, -, -, -, -, -, -, -, -, -, e0, e1, -⟩ := idx_facts t
  funext y
  show V c (Pipeline.arrRef spec4 6) (((cfg4.win 6).blk t).view.emb y) = _
  refine congrArg _ ?_
  funext a; apply Fin.ext
  match a with
  | ⟨0, _⟩ => show win4_6.index t (0 : Fin 2) * 1 + 1 * (y 0).val = (y 0).val; omega
  | ⟨1, _⟩ => show win4_6.index t (1 : Fin 2) * 10 + 1 * (y 1).val = (y 1).val; omega

/-- The readout on the blocks the body loads. -/
theorem mlp_block (hm : Cert.Bridge.MlpBridge (fun x0 x1 x2 x3 x4 x5 x6 => k4_pay1 (F := Ideal) (k4_pay2 x0 x1 x2 x3 x4) (k4_pay3 x5) x6)) (g : Cert.GnnSpec.Arr Ideal Cert.ReferenceIdeal.S64x150 .f32) (w1T : Cert.GnnSpec.Arr Ideal Cert.ReferenceIdeal.S150x80 .f32)
    (b1 : Cert.GnnSpec.Arr Ideal Cert.ReferenceIdeal.S1x80 .f32) (w2T : Cert.GnnSpec.Arr Ideal Cert.ReferenceIdeal.S80x80 .f32)
    (b2 : Cert.GnnSpec.Arr Ideal Cert.ReferenceIdeal.S1x80 .f32) (w3T : Cert.GnnSpec.Arr Ideal Cert.ReferenceIdeal.S80x10 .f32)
    (b3 : Cert.GnnSpec.Arr Ideal Cert.ReferenceIdeal.S1x10 .f32)
    (x0 : Vec Ideal S64x150 .f32) (x1 : Vec Ideal S150x80 .f32) (x2 : Vec Ideal S1x80 .f32) (x3 : Vec Ideal S80x80 .f32)
    (x4 : Vec Ideal S1x80 .f32) (x5 : Vec Ideal S80x10 .f32) (x6 : Vec Ideal S1x10 .f32)
    (h0 : x0 = g) (h1 : x1 = w1T) (h2 : x2 = b1) (h3 : x3 = w2T) (h4 : x4 = b2) (h5 : x5 = w3T) (h6 : x6 = b3) (y : S64x10.Idx) :
    k4_pay1 (F := Ideal) (k4_pay2 x0 x1 x2 x3 x4) (k4_pay3 x5) x6 y = Cert.GnnSpec.mlpT g w1T b1 w2T b2 w3T b3 y := by
  subst h0 h1 h2 h3 h4 h5 h6
  exact congrFun (hm _ _ _ _ _ _ _) y

/-- What the one point writes back is the whole readout of the arrays the region finds. -/
theorem flushed_eq (hm : Cert.Bridge.MlpBridge (fun x0 x1 x2 x3 x4 x5 x6 => k4_pay1 (F := Ideal) (k4_pay2 x0 x1 x2 x3 x4) (k4_pay3 x5) x6)) (c : Dev nD) (t : Fin cfg4.N) :
    (dat4 V c).flushed 7 t = ((cfg4.win 7).blk t).view.read (Elt Ideal)
      (Cert.GnnSpec.mlpT (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero hz]
  simp only [View.ld_unit_zero (S := S64x150) hz, View.ld_unit_zero (S := S150x80) hz, View.ld_unit_zero (S := S1x80) hz,
    View.ld_unit_zero (S := S80x80) hz, View.ld_unit_zero (S := S80x10) hz, View.ld_unit_zero (S := S1x10) hz]
  funext y
  obtain ⟨-, -, -, -, -, -, -, -, -, -, -, -, -, -, e0, e1⟩ := idx_facts t
  have hemb : ((cfg4.win 7).blk t).view.emb y = y := by
    funext a; apply Fin.ext
    match a with
    | ⟨0, _⟩ => show win4_7.index t (0 : Fin 2) * 64 + 1 * (y 0).val = (y 0).val; omega
    | ⟨1, _⟩ => show win4_7.index t (1 : Fin 2) * 10 + 1 * (y 1).val = (y 1).val; omega
  show k4_pay1 (k4_pay2 (iblk4 V c 0 t) (iblk4 V c 1 t) (iblk4 V c 2 t) (iblk4 V c 3 t) (iblk4 V c 4 t)) (k4_pay3 (iblk4 V c 5 t)) (iblk4 V c 6 t) y
    = Cert.GnnSpec.mlpT (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb y)
  rw [hemb]
  exact mlp_block hm _ _ _ _ _ _ _ _ _ _ _ _ _ _ (whole_block0 V c t) (whole_block1 V c t) (whole_block2 V c t) (whole_block3 V c t) (whole_block4 V c t) (whole_block5 V c t) (whole_block6 V c t) y

/-- An index of the output array lies in the one point's block, which is the whole array. -/
theorem mem_blk (t : Fin cfg4.N) (i : S64x10.Idx) :
    i ∈ ((cfg4.win 7).blk t).view.set ↔ ∀ a : Fin 2, win4_7.index t a * S64x10.size a ≤ (i a).val ∧ (i a).val < win4_7.index t a * S64x10.size a + S64x10.size a := by
  show i ∈ ((View.whole (Pipeline.arrRef spec4 7)).slice (win4_7.rect t)).set ↔ _
  rw [View.set_slice_whole, Rect.mem_set_unit]
  exact Iff.rfl

theorem cover (i : S64x10.Idx) : ∃ t : Fin cfg4.N, (cfg4.win 7).flush t = true ∧ i ∈ ((cfg4.win 7).blk t).view.set := by
  have hi0 : (i 0).val < 64 := (i 0).isLt
  have hi1 : (i 1).val < 10 := (i 1).isLt
  obtain ⟨-, -, -, -, -, -, -, -, -, -, -, -, -, -, e0, e1⟩ := idx_facts t4_0
  refine ⟨t4_0, flush4_7 t4_0, ?_⟩
  rw [mem_blk]
  intro a
  match a with
  | ⟨0, _⟩ => show win4_7.index t4_0 (0 : Fin 2) * 64 ≤ (i 0).val ∧ (i 0).val < win4_7.index t4_0 (0 : Fin 2) * 64 + 64; omega
  | ⟨1, _⟩ => show win4_7.index t4_0 (1 : Fin 2) * 10 ≤ (i 1).val ∧ (i 1).val < win4_7.index t4_0 (1 : Fin 2) * 10 + 10; omega

/-- The region's output array is the readout of the arrays it found. -/
theorem out_eq (hm : Cert.Bridge.MlpBridge (fun x0 x1 x2 x3 x4 x5 x6 => k4_pay1 (F := Ideal) (k4_pay2 x0 x1 x2 x3 x4) (k4_pay3 x5) x6)) (c : Dev nD) :
    (dat4 V c).arrAt 7 cfg4.N = Cert.GnnSpec.mlpT (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 V c).arrAt_eq_of_cover 7 _ (fun t _ => flushed_eq V hm c t) (cover)

end Cert.Region4

end
-- ==== Proof.Walk.lean ====
/-
  The buffer contents at every boundary of the idealized kernel program, read as the specification's functions of the
  arguments.

  The frame proof folds the buffer contents through the program's ten segments. Walking that fold: the first stretch
  of host operations leaves the transposed weights, the one-row biases and the first aggregation; each recurrent
  region leaves the cell's new states in its output array and every other live buffer as it was; each later stretch
  aggregates the newest states; the last stretch pools them per graph, and the readout region leaves the network's
  output. "Live" buffers — the transposed weights, the one-row biases and the three index arguments — are carried
  along as a record of equations (`Consts`), re-established after every segment.
-/
import proofs.«133389_j14199161880902_1_alg».proof.Proof.Gen.KernelIdeal.Frame
import proofs.«133389_j14199161880902_1_alg».proof.Proof.HostWalk
import proofs.«133389_j14199161880902_1_alg».proof.Proof.Region0
import proofs.«133389_j14199161880902_1_alg».proof.Proof.Region1
import proofs.«133389_j14199161880902_1_alg».proof.Proof.Region2
import proofs.«133389_j14199161880902_1_alg».proof.Proof.Region3
import proofs.«133389_j14199161880902_1_alg».proof.Proof.Region4

noncomputable section

namespace Cert.Walk

open Cert.KernelIdeal Cert.KernelIdeal.Gen
open Idealize.ShloMosaic Idealize.ShloMosaic.TcCoe Idealize.SL.Sem Idealize.ShloMosaic.StableHlo
open Cert.HostWalk

variable (m : (ℓ : Loc nD τ sig) → Buf (Elt Ideal) ℓ) (ρ : Dev nD → PrngReg) (c : Dev nD)

local macro "⟪" b:term "⟫" : term => `((Proc.devRef .tc $b : DevRef τ sig))

/-- The live buffers hold the transposed weights, the one-row biases and the index arguments. -/
structure Consts (X : Valuation τ sig (Elt Ideal)) : Prop where
  v0 : X ⟪main_v0⟫ = (transpose Cert.ReferenceIdeal.S150x450 [1, 0] (m ((c : Thread nD τ).loc main_arg4)) Cert.ReferenceIdeal.Gen.transposes_S450x150_S150x450_1_0)
  v1 : X ⟪main_v1⟫ = (transpose Cert.ReferenceIdeal.S150x450 [1, 0] (m ((c : Thread nD τ).loc main_arg5)) Cert.ReferenceIdeal.Gen.transposes_S450x150_S150x450_1_0)
  v2 : X ⟪main_v2⟫ = (broadcastInDim Cert.ReferenceIdeal.S1x450 ![1] Cert.ReferenceIdeal.Gen.bcast_S450_S1x450_1 (m ((c : Thread nD τ).loc main_arg6)))
  v3 : X ⟪main_v3⟫ = (broadcastInDim Cert.ReferenceIdeal.S1x450 ![1] Cert.ReferenceIdeal.Gen.bcast_S450_S1x450_1 (m ((c : Thread nD τ).loc main_arg7)))
  v4 : X ⟪main_v4⟫ = (transpose Cert.ReferenceIdeal.S150x80 [1, 0] (m ((c : Thread nD τ).loc main_arg8)) Cert.ReferenceIdeal.Gen.transposes_S80x150_S150x80_1_0)
  v5 : X ⟪main_v5⟫ = (transpose Cert.ReferenceIdeal.S80x80 [1, 0] (m ((c : Thread nD τ).loc main_arg10)) Cert.ReferenceIdeal.Gen.transposes_S80x80_S80x80_1_0)
  v6 : X ⟪main_v6⟫ = (transpose Cert.ReferenceIdeal.S80x10 [1, 0] (m ((c : Thread nD τ).loc main_arg12)) Cert.ReferenceIdeal.Gen.transposes_S10x80_S80x10_1_0)
  v7 : X ⟪main_v7⟫ = (broadcastInDim Cert.ReferenceIdeal.S1x80 ![1] Cert.ReferenceIdeal.Gen.bcast_S80_S1x80_1 (m ((c : Thread nD τ).loc main_arg9)))
  v8 : X ⟪main_v8⟫ = (broadcastInDim Cert.ReferenceIdeal.S1x80 ![1] Cert.ReferenceIdeal.Gen.bcast_S80_S1x80_1 (m ((c : Thread nD τ).loc main_arg11)))
  v9 : X ⟪main_v9⟫ = (broadcastInDim Cert.ReferenceIdeal.S1x10 ![1] Cert.ReferenceIdeal.Gen.bcast_S10_S1x10_1 (m ((c : Thread nD τ).loc main_arg13)))
  arg1 : X ⟪main_arg1⟫ = (m ((c : Thread nD τ).loc main_arg1))
  arg2 : X ⟪main_arg2⟫ = (m ((c : Thread nD τ).loc main_arg2))
  arg3 : X ⟪main_arg3⟫ = (m ((c : Thread nD τ).loc main_arg3))

/-- After the first stretch of host operations. -/
theorem consts1 : Consts m c (W1 m ρ c) :=
  ⟨host0_v0 _, host0_v1 _, host0_v2 _, host0_v3 _, host0_v4 _, host0_v5 _, host0_v6 _, host0_v7 _, host0_v8 _, host0_v9 _,
   host0_arg1 _, host0_arg2 _, host0_arg3 _⟩
theorem inc1 : W1 m ρ c ⟪main_v19⟫ = Cert.GnnSpec.agg (m ((c : Thread nD τ).loc main_arg0)) (m ((c : Thread nD τ).loc main_arg1)) (m ((c : Thread nD τ).loc main_arg2)) := host0_agg _
theorem hid1 : W1 m ρ c ⟪main_arg0⟫ = (m ((c : Thread nD τ).loc main_arg0)) := host0_arg0 _

/-! ## Recurrent region 0 -/

/-- The region leaves the live buffers as they were and the cell's new states in its output array. -/
theorem region0 (hb : Cert.Bridge.CellBridge (k0_pay1 (F := Ideal))) (hC : Consts m c (W1 m ρ c))
    (x h : Cert.GnnSpec.Arr Ideal Cert.ReferenceIdeal.S100000x150 .f32)
    (hx : W1 m ρ c ⟪main_v19⟫ = x) (hh : W1 m ρ c ⟪main_arg0⟫ = h) :
    Consts m c (W2 m ρ c) ∧ W2 m ρ c ⟪main_v20⟫ = Cert.GnnSpec.gruT x h (transpose Cert.ReferenceIdeal.S150x450 [1, 0] (m ((c : Thread nD τ).loc main_arg4)) Cert.ReferenceIdeal.Gen.transposes_S450x150_S150x450_1_0) (transpose Cert.ReferenceIdeal.S150x450 [1, 0] (m ((c : Thread nD τ).loc main_arg5)) Cert.ReferenceIdeal.Gen.transposes_S450x150_S150x450_1_0) (broadcastInDim Cert.ReferenceIdeal.S1x450 ![1] Cert.ReferenceIdeal.Gen.bcast_S450_S1x450_1 (m ((c : Thread nD τ).loc main_arg6))) (broadcastInDim Cert.ReferenceIdeal.S1x450 ![1] Cert.ReferenceIdeal.Gen.bcast_S450_S1x450_1 (m ((c : Thread nD τ).loc main_arg7))) := by
  refine ⟨⟨?_, ?_, ?_, ?_, ?_, ?_, ?_, ?_, ?_, ?_, ?_, ?_, ?_⟩, ?_⟩
  · exact ((W2_arr m ρ c 2).trans (((dat0 (V1 m ρ) c).arrAt_in 2 rfl _).trans (A_eq0 (V1 m ρ) c 2))).trans hC.v0
  · exact ((W2_arr m ρ c 3).trans (((dat0 (V1 m ρ) c).arrAt_in 3 rfl _).trans (A_eq0 (V1 m ρ) c 3))).trans hC.v1
  · exact ((W2_arr m ρ c 4).trans (((dat0 (V1 m ρ) c).arrAt_in 4 rfl _).trans (A_eq0 (V1 m ρ) c 4))).trans hC.v2
  · exact ((W2_arr m ρ c 5).trans (((dat0 (V1 m ρ) c).arrAt_in 5 rfl _).trans (A_eq0 (V1 m ρ) c 5))).trans hC.v3
  · exact (W2_of_ne m ρ c main_v4 (by decide)).trans hC.v4
  · exact (W2_of_ne m ρ c main_v5 (by decide)).trans hC.v5
  · exact (W2_of_ne m ρ c main_v6 (by decide)).trans hC.v6
  · exact (W2_of_ne m ρ c main_v7 (by decide)).trans hC.v7
  · exact (W2_of_ne m ρ c main_v8 (by decide)).trans hC.v8
  · exact (W2_of_ne m ρ c main_v9 (by decide)).trans hC.v9
  · exact (W2_of_ne m ρ c main_arg1 (by decide)).trans hC.arg1
  · exact (W2_of_ne m ρ c main_arg2 (by decide)).trans hC.arg2
  · exact (W2_of_ne m ρ c main_arg3 (by decide)).trans hC.arg3
  · refine (W2_arr m ρ c 6).trans ((Cert.Region0.out_eq (V1 m ρ) hb c).trans ?_)
    show Cert.GnnSpec.gruT (W1 m ρ c ⟪main_v19⟫) (W1 m ρ c ⟪main_arg0⟫) (W1 m ρ c ⟪main_v0⟫) (W1 m ρ c ⟪main_v1⟫) (W1 m ρ c ⟪main_v2⟫) (W1 m ρ c ⟪main_v3⟫) = _
    rw [hx, hh, hC.v0, hC.v1, hC.v2, hC.v3]

/-! ## The stretch before recurrent region 1 -/

theorem host1 (hC : Consts m c (W2 m ρ c)) (h : Cert.GnnSpec.Arr Ideal Cert.ReferenceIdeal.S100000x150 .f32) (hh : W2 m ρ c ⟪main_v20⟫ = h) :
    Consts m c (W3 m ρ c) ∧ W3 m ρ c ⟪main_v30⟫ = Cert.GnnSpec.agg h (m ((c : Thread nD τ).loc main_arg1)) (m ((c : Thread nD τ).loc main_arg2)) ∧ W3 m ρ c ⟪main_v20⟫ = h := by
  refine ⟨⟨?_, ?_, ?_, ?_, ?_, ?_, ?_, ?_, ?_, ?_, ?_, ?_, ?_⟩, ?_, ?_⟩
  · exact (host1_main_v0 _).trans hC.v0
  · exact (host1_main_v1 _).trans hC.v1
  · exact (host1_main_v2 _).trans hC.v2
  · exact (host1_main_v3 _).trans hC.v3
  · exact (host1_main_v4 _).trans hC.v4
  · exact (host1_main_v5 _).trans hC.v5
  · exact (host1_main_v6 _).trans hC.v6
  · exact (host1_main_v7 _).trans hC.v7
  · exact (host1_main_v8 _).trans hC.v8
  · exact (host1_main_v9 _).trans hC.v9
  · exact (host1_main_arg1 _).trans hC.arg1
  · exact (host1_main_arg2 _).trans hC.arg2
  · exact (host1_main_arg3 _).trans hC.arg3
  · refine (host1_agg _).trans ?_
    rw [hh, hC.arg1, hC.arg2]
  · exact (host1_main_v20 _).trans hh

/-! ## Recurrent region 1 -/

/-- The region leaves the live buffers as they were and the cell's new states in its output array. -/
theorem region1 (hb : Cert.Bridge.CellBridge (k1_pay1 (F := Ideal))) (hC : Consts m c (W3 m ρ c))
    (x h : Cert.GnnSpec.Arr Ideal Cert.ReferenceIdeal.S100000x150 .f32)
    (hx : W3 m ρ c ⟪main_v30⟫ = x) (hh : W3 m ρ c ⟪main_v20⟫ = h) :
    Consts m c (W4 m ρ c) ∧ W4 m ρ c ⟪main_v31⟫ = Cert.GnnSpec.gruT x h (transpose Cert.ReferenceIdeal.S150x450 [1, 0] (m ((c : Thread nD τ).loc main_arg4)) Cert.ReferenceIdeal.Gen.transposes_S450x150_S150x450_1_0) (transpose Cert.ReferenceIdeal.S150x450 [1, 0] (m ((c : Thread nD τ).loc main_arg5)) Cert.ReferenceIdeal.Gen.transposes_S450x150_S150x450_1_0) (broadcastInDim Cert.ReferenceIdeal.S1x450 ![1] Cert.ReferenceIdeal.Gen.bcast_S450_S1x450_1 (m ((c : Thread nD τ).loc main_arg6))) (broadcastInDim Cert.ReferenceIdeal.S1x450 ![1] Cert.ReferenceIdeal.Gen.bcast_S450_S1x450_1 (m ((c : Thread nD τ).loc main_arg7))) := by
  refine ⟨⟨?_, ?_, ?_, ?_, ?_, ?_, ?_, ?_, ?_, ?_, ?_, ?_, ?_⟩, ?_⟩
  · exact ((W4_arr m ρ c 2).trans (((dat1 (V3 m ρ) c).arrAt_in 2 rfl _).trans (A_eq1 (V3 m ρ) c 2))).trans hC.v0
  · exact ((W4_arr m ρ c 3).trans (((dat1 (V3 m ρ) c).arrAt_in 3 rfl _).trans (A_eq1 (V3 m ρ) c 3))).trans hC.v1
  · exact ((W4_arr m ρ c 4).trans (((dat1 (V3 m ρ) c).arrAt_in 4 rfl _).trans (A_eq1 (V3 m ρ) c 4))).trans hC.v2
  · exact ((W4_arr m ρ c 5).trans (((dat1 (V3 m ρ) c).arrAt_in 5 rfl _).trans (A_eq1 (V3 m ρ) c 5))).trans hC.v3
  · exact (W4_of_ne m ρ c main_v4 (by decide)).trans hC.v4
  · exact (W4_of_ne m ρ c main_v5 (by decide)).trans hC.v5
  · exact (W4_of_ne m ρ c main_v6 (by decide)).trans hC.v6
  · exact (W4_of_ne m ρ c main_v7 (by decide)).trans hC.v7
  · exact (W4_of_ne m ρ c main_v8 (by decide)).trans hC.v8
  · exact (W4_of_ne m ρ c main_v9 (by decide)).trans hC.v9
  · exact (W4_of_ne m ρ c main_arg1 (by decide)).trans hC.arg1
  · exact (W4_of_ne m ρ c main_arg2 (by decide)).trans hC.arg2
  · exact (W4_of_ne m ρ c main_arg3 (by decide)).trans hC.arg3
  · refine (W4_arr m ρ c 6).trans ((Cert.Region1.out_eq (V3 m ρ) hb c).trans ?_)
    show Cert.GnnSpec.gruT (W3 m ρ c ⟪main_v30⟫) (W3 m ρ c ⟪main_v20⟫) (W3 m ρ c ⟪main_v0⟫) (W3 m ρ c ⟪main_v1⟫) (W3 m ρ c ⟪main_v2⟫) (W3 m ρ c ⟪main_v3⟫) = _
    rw [hx, hh, hC.v0, hC.v1, hC.v2, hC.v3]

/-! ## The stretch before recurrent region 2 -/

theorem host2 (hC : Consts m c (W4 m ρ c)) (h : Cert.GnnSpec.Arr Ideal Cert.ReferenceIdeal.S100000x150 .f32) (hh : W4 m ρ c ⟪main_v31⟫ = h) :
    Consts m c (W5 m ρ c) ∧ W5 m ρ c ⟪main_v41⟫ = Cert.GnnSpec.agg h (m ((c : Thread nD τ).loc main_arg1)) (m ((c : Thread nD τ).loc main_arg2)) ∧ W5 m ρ c ⟪main_v31⟫ = h := by
  refine ⟨⟨?_, ?_, ?_, ?_, ?_, ?_, ?_, ?_, ?_, ?_, ?_, ?_, ?_⟩, ?_, ?_⟩
  · exact (host2_main_v0 _).trans hC.v0
  · exact (host2_main_v1 _).trans hC.v1
  · exact (host2_main_v2 _).trans hC.v2
  · exact (host2_main_v3 _).trans hC.v3
  · exact (host2_main_v4 _).trans hC.v4
  · exact (host2_main_v5 _).trans hC.v5
  · exact (host2_main_v6 _).trans hC.v6
  · exact (host2_main_v7 _).trans hC.v7
  · exact (host2_main_v8 _).trans hC.v8
  · exact (host2_main_v9 _).trans hC.v9
  · exact (host2_main_arg1 _).trans hC.arg1
  · exact (host2_main_arg2 _).trans hC.arg2
  · exact (host2_main_arg3 _).trans hC.arg3
  · refine (host2_agg _).trans ?_
    rw [hh, hC.arg1, hC.arg2]
  · exact (host2_main_v31 _).trans hh

/-! ## Recurrent region 2 -/

/-- The region leaves the live buffers as they were and the cell's new states in its output array. -/
theorem region2 (hb : Cert.Bridge.CellBridge (k2_pay1 (F := Ideal))) (hC : Consts m c (W5 m ρ c))
    (x h : Cert.GnnSpec.Arr Ideal Cert.ReferenceIdeal.S100000x150 .f32)
    (hx : W5 m ρ c ⟪main_v41⟫ = x) (hh : W5 m ρ c ⟪main_v31⟫ = h) :
    Consts m c (W6 m ρ c) ∧ W6 m ρ c ⟪main_v42⟫ = Cert.GnnSpec.gruT x h (transpose Cert.ReferenceIdeal.S150x450 [1, 0] (m ((c : Thread nD τ).loc main_arg4)) Cert.ReferenceIdeal.Gen.transposes_S450x150_S150x450_1_0) (transpose Cert.ReferenceIdeal.S150x450 [1, 0] (m ((c : Thread nD τ).loc main_arg5)) Cert.ReferenceIdeal.Gen.transposes_S450x150_S150x450_1_0) (broadcastInDim Cert.ReferenceIdeal.S1x450 ![1] Cert.ReferenceIdeal.Gen.bcast_S450_S1x450_1 (m ((c : Thread nD τ).loc main_arg6))) (broadcastInDim Cert.ReferenceIdeal.S1x450 ![1] Cert.ReferenceIdeal.Gen.bcast_S450_S1x450_1 (m ((c : Thread nD τ).loc main_arg7))) := by
  refine ⟨⟨?_, ?_, ?_, ?_, ?_, ?_, ?_, ?_, ?_, ?_, ?_, ?_, ?_⟩, ?_⟩
  · exact ((W6_arr m ρ c 2).trans (((dat2 (V5 m ρ) c).arrAt_in 2 rfl _).trans (A_eq2 (V5 m ρ) c 2))).trans hC.v0
  · exact ((W6_arr m ρ c 3).trans (((dat2 (V5 m ρ) c).arrAt_in 3 rfl _).trans (A_eq2 (V5 m ρ) c 3))).trans hC.v1
  · exact ((W6_arr m ρ c 4).trans (((dat2 (V5 m ρ) c).arrAt_in 4 rfl _).trans (A_eq2 (V5 m ρ) c 4))).trans hC.v2
  · exact ((W6_arr m ρ c 5).trans (((dat2 (V5 m ρ) c).arrAt_in 5 rfl _).trans (A_eq2 (V5 m ρ) c 5))).trans hC.v3
  · exact (W6_of_ne m ρ c main_v4 (by decide)).trans hC.v4
  · exact (W6_of_ne m ρ c main_v5 (by decide)).trans hC.v5
  · exact (W6_of_ne m ρ c main_v6 (by decide)).trans hC.v6
  · exact (W6_of_ne m ρ c main_v7 (by decide)).trans hC.v7
  · exact (W6_of_ne m ρ c main_v8 (by decide)).trans hC.v8
  · exact (W6_of_ne m ρ c main_v9 (by decide)).trans hC.v9
  · exact (W6_of_ne m ρ c main_arg1 (by decide)).trans hC.arg1
  · exact (W6_of_ne m ρ c main_arg2 (by decide)).trans hC.arg2
  · exact (W6_of_ne m ρ c main_arg3 (by decide)).trans hC.arg3
  · refine (W6_arr m ρ c 6).trans ((Cert.Region2.out_eq (V5 m ρ) hb c).trans ?_)
    show Cert.GnnSpec.gruT (W5 m ρ c ⟪main_v41⟫) (W5 m ρ c ⟪main_v31⟫) (W5 m ρ c ⟪main_v0⟫) (W5 m ρ c ⟪main_v1⟫) (W5 m ρ c ⟪main_v2⟫) (W5 m ρ c ⟪main_v3⟫) = _
    rw [hx, hh, hC.v0, hC.v1, hC.v2, hC.v3]

/-! ## The stretch before recurrent region 3 -/

theorem host3 (hC : Consts m c (W6 m ρ c)) (h : Cert.GnnSpec.Arr Ideal Cert.ReferenceIdeal.S100000x150 .f32) (hh : W6 m ρ c ⟪main_v42⟫ = h) :
    Consts m c (W7 m ρ c) ∧ W7 m ρ c ⟪main_v52⟫ = Cert.GnnSpec.agg h (m ((c : Thread nD τ).loc main_arg1)) (m ((c : Thread nD τ).loc main_arg2)) ∧ W7 m ρ c ⟪main_v42⟫ = h := by
  refine ⟨⟨?_, ?_, ?_, ?_, ?_, ?_, ?_, ?_, ?_, ?_, ?_, ?_, ?_⟩, ?_, ?_⟩
  · exact (host3_main_v0 _).trans hC.v0
  · exact (host3_main_v1 _).trans hC.v1
  · exact (host3_main_v2 _).trans hC.v2
  · exact (host3_main_v3 _).trans hC.v3
  · exact (host3_main_v4 _).trans hC.v4
  · exact (host3_main_v5 _).trans hC.v5
  · exact (host3_main_v6 _).trans hC.v6
  · exact (host3_main_v7 _).trans hC.v7
  · exact (host3_main_v8 _).trans hC.v8
  · exact (host3_main_v9 _).trans hC.v9
  · exact (host3_main_arg1 _).trans hC.arg1
  · exact (host3_main_arg2 _).trans hC.arg2
  · exact (host3_main_arg3 _).trans hC.arg3
  · refine (host3_agg _).trans ?_
    rw [hh, hC.arg1, hC.arg2]
  · exact (host3_main_v42 _).trans hh

/-! ## Recurrent region 3 -/

/-- The region leaves the live buffers as they were and the cell's new states in its output array. -/
theorem region3 (hb : Cert.Bridge.CellBridge (k3_pay1 (F := Ideal))) (hC : Consts m c (W7 m ρ c))
    (x h : Cert.GnnSpec.Arr Ideal Cert.ReferenceIdeal.S100000x150 .f32)
    (hx : W7 m ρ c ⟪main_v52⟫ = x) (hh : W7 m ρ c ⟪main_v42⟫ = h) :
    Consts m c (W8 m ρ c) ∧ W8 m ρ c ⟪main_v53⟫ = Cert.GnnSpec.gruT x h (transpose Cert.ReferenceIdeal.S150x450 [1, 0] (m ((c : Thread nD τ).loc main_arg4)) Cert.ReferenceIdeal.Gen.transposes_S450x150_S150x450_1_0) (transpose Cert.ReferenceIdeal.S150x450 [1, 0] (m ((c : Thread nD τ).loc main_arg5)) Cert.ReferenceIdeal.Gen.transposes_S450x150_S150x450_1_0) (broadcastInDim Cert.ReferenceIdeal.S1x450 ![1] Cert.ReferenceIdeal.Gen.bcast_S450_S1x450_1 (m ((c : Thread nD τ).loc main_arg6))) (broadcastInDim Cert.ReferenceIdeal.S1x450 ![1] Cert.ReferenceIdeal.Gen.bcast_S450_S1x450_1 (m ((c : Thread nD τ).loc main_arg7))) := by
  refine ⟨⟨?_, ?_, ?_, ?_, ?_, ?_, ?_, ?_, ?_, ?_, ?_, ?_, ?_⟩, ?_⟩
  · exact ((W8_arr m ρ c 2).trans (((dat3 (V7 m ρ) c).arrAt_in 2 rfl _).trans (A_eq3 (V7 m ρ) c 2))).trans hC.v0
  · exact ((W8_arr m ρ c 3).trans (((dat3 (V7 m ρ) c).arrAt_in 3 rfl _).trans (A_eq3 (V7 m ρ) c 3))).trans hC.v1
  · exact ((W8_arr m ρ c 4).trans (((dat3 (V7 m ρ) c).arrAt_in 4 rfl _).trans (A_eq3 (V7 m ρ) c 4))).trans hC.v2
  · exact ((W8_arr m ρ c 5).trans (((dat3 (V7 m ρ) c).arrAt_in 5 rfl _).trans (A_eq3 (V7 m ρ) c 5))).trans hC.v3
  · exact (W8_of_ne m ρ c main_v4 (by decide)).trans hC.v4
  · exact (W8_of_ne m ρ c main_v5 (by decide)).trans hC.v5
  · exact (W8_of_ne m ρ c main_v6 (by decide)).trans hC.v6
  · exact (W8_of_ne m ρ c main_v7 (by decide)).trans hC.v7
  · exact (W8_of_ne m ρ c main_v8 (by decide)).trans hC.v8
  · exact (W8_of_ne m ρ c main_v9 (by decide)).trans hC.v9
  · exact (W8_of_ne m ρ c main_arg1 (by decide)).trans hC.arg1
  · exact (W8_of_ne m ρ c main_arg2 (by decide)).trans hC.arg2
  · exact (W8_of_ne m ρ c main_arg3 (by decide)).trans hC.arg3
  · refine (W8_arr m ρ c 6).trans ((Cert.Region3.out_eq (V7 m ρ) hb c).trans ?_)
    show Cert.GnnSpec.gruT (W7 m ρ c ⟪main_v52⟫) (W7 m ρ c ⟪main_v42⟫) (W7 m ρ c ⟪main_v0⟫) (W7 m ρ c ⟪main_v1⟫) (W7 m ρ c ⟪main_v2⟫) (W7 m ρ c ⟪main_v3⟫) = _
    rw [hx, hh, hC.v0, hC.v1, hC.v2, hC.v3]

/-! ## The readout -/

/-- The network's output, at the result buffer of the last boundary's contents. -/
theorem result (hb0 : Cert.Bridge.CellBridge (k0_pay1 (F := Ideal))) (hb1 : Cert.Bridge.CellBridge (k1_pay1 (F := Ideal)))
    (hb2 : Cert.Bridge.CellBridge (k2_pay1 (F := Ideal))) (hb3 : Cert.Bridge.CellBridge (k3_pay1 (F := Ideal)))
    (hm : Cert.Bridge.MlpBridge (fun x0 x1 x2 x3 x4 x5 x6 => k4_pay1 (F := Ideal) (k4_pay2 x0 x1 x2 x3 x4) (k4_pay3 x5) x6)) :
    W10 m ρ c ⟪main_v57⟫ = Cert.GnnSpec.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨C2, h2⟩ := region0 m ρ c hb0 (consts1 m ρ c) _ _ (inc1 m ρ c) (hid1 m ρ c)
  obtain ⟨C3, x3, h3⟩ := host1 m ρ c C2 _ h2
  obtain ⟨C4, h4⟩ := region1 m ρ c hb1 C3 _ _ x3 h3
  obtain ⟨C5, x5, h5⟩ := host2 m ρ c C4 _ h4
  obtain ⟨C6, h6⟩ := region2 m ρ c hb2 C5 _ _ x5 h5
  obtain ⟨C7, x7, h7⟩ := host3 m ρ c C6 _ h6
  obtain ⟨C8, h8⟩ := region3 m ρ c hb3 C7 _ _ x7 h7
  refine (W10_arr m ρ c 7).trans ((Cert.Region4.out_eq (V9 m ρ) hm c).trans ?_)
  show Cert.GnnSpec.mlpT (W9 m ρ c ⟪main_v56⟫) (W9 m ρ c ⟪main_v4⟫) (W9 m ρ c ⟪main_v7⟫) (W9 m ρ c ⟪main_v5⟫) (W9 m ρ c ⟪main_v8⟫) (W9 m ρ c ⟪main_v6⟫) (W9 m ρ c ⟪main_v9⟫) = _
  have p56 : W9 m ρ c ⟪main_v56⟫ = Cert.GnnSpec.pool (W8 m ρ c ⟪main_v53⟫) (W8 m ρ c ⟪main_arg3⟫) := host4_pool _
  have kv4 : W9 m ρ c ⟪main_v4⟫ = W8 m ρ c ⟪main_v4⟫ := host4_main_v4 _
  have kv7 : W9 m ρ c ⟪main_v7⟫ = W8 m ρ c ⟪main_v7⟫ := host4_main_v7 _
  have kv5 : W9 m ρ c ⟪main_v5⟫ = W8 m ρ c ⟪main_v5⟫ := host4_main_v5 _
  have kv8 : W9 m ρ c ⟪main_v8⟫ = W8 m ρ c ⟪main_v8⟫ := host4_main_v8 _
  have kv6 : W9 m ρ c ⟪main_v6⟫ = W8 m ρ c ⟪main_v6⟫ := host4_main_v6 _
  have kv9 : W9 m ρ c ⟪main_v9⟫ = W8 m ρ c ⟪main_v9⟫ := host4_main_v9 _
  rw [p56, h8, C8.arg3, kv4, C8.v4, kv7, C8.v7, kv5, C8.v5, kv8, C8.v8, kv6, C8.v6, kv9, C8.v9]
  rfl

end Cert.Walk

end
-- ==== Proof.RefOps.lean ====
/-
  The reference program's @main as a list of its host operations, in order, each call of a module-local function replaced
  by the function's own operations over the buffers of that call. The list is cut into consecutive pieces, so that both
  the windows the program is printed in and the rounds of the network (one round of message passing is 56 operations,
  the readout 42) are concatenations of pieces: `main_eq` reads the program as the straight line of the whole list,
  `ops_sub` says every operation touches TensorCore buffers only, `ops_fresh` that every operation determines its results,
  and per piece `pieceK_keep` that a buffer none of its operations writes holds after it what it held before.
-/
import proofs.«133389_j14199161880902_1_alg».proof.Proof.Spec
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 56 of 266. -/
abbrev piece0 : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg1 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x150_S1600000x1_S1600000x150_1_0_n_n_0_1_1150 x i) : (⟨S100000x150, .f32⟩ : BufTy).Contents (Elt F) → (⟨S1600000x1, .i32⟩ : BufTy).Contents (Elt F) → (⟨S1600000x150, .f32⟩ : BufTy).Contents (Elt F)),
    StableHlo.nullary main_cst (constant S_ .f32 0x00000000#32),
    StableHlo.unary main_cst main_v7 (broadcastInDim S100000x150 ![] bcast_S_S100000x150 : (⟨S_, .f32⟩ : BufTy).Contents (Elt F) → (⟨S100000x150, .f32⟩ : BufTy).Contents (Elt F)),
    StableHlo.unary main_arg2 main_v8 (broadcastInDim S1600000x1 ![0] bcast_S1600000_S1600000x1_0 : (⟨S1600000, .i32⟩ : BufTy).Contents (Elt F) → (⟨S1600000x1, .i32⟩ : BufTy).Contents (Elt F)),
    StableHlo.ternary main_v7 main_v8 main_v6 main_v9 ((fun x i u => Host.scatterAdd scatter_S100000x150_S1600000x1_S1600000x150_1_0_0_1 x i u) : (⟨S100000x150, .f32⟩ : BufTy).Contents (Elt F) → (⟨S1600000x1, .i32⟩ : BufTy).Contents (Elt F) → (⟨S1600000x150, .f32⟩ : BufTy).Contents (Elt F) → (⟨S100000x150, .f32⟩ : BufTy).Contents (Elt F)),
    StableHlo.unary main_arg4 main_v10 ((transpose S150x450 [1, 0] · transposes_S450x150_S150x450_1_0) : (⟨S450x150, .f32⟩ : BufTy).Contents (Elt F) → (⟨S150x450, .f32⟩ : BufTy).Contents (Elt F)),
    StableHlo.binary main_v9 main_v10 main_v11 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg6 main_v12 (broadcastInDim S1x450 ![1] bcast_S450_S1x450_1 : (⟨S450, .f32⟩ : BufTy).Contents (Elt F) → (⟨S1x450, .f32⟩ : BufTy).Contents (Elt F)),
    StableHlo.unary main_v12 main_v13 (broadcastInDim S100000x450 ![0, 1] bcast_S1x450_S100000x450_0_1 : (⟨S1x450, .f32⟩ : BufTy).Contents (Elt F) → (⟨S100000x450, .f32⟩ : BufTy).Contents (Elt F)),
    StableHlo.binary main_v11 main_v13 main_v14 (addf : (⟨S100000x450, .f32⟩ : BufTy).Contents (Elt F) → (⟨S100000x450, .f32⟩ : BufTy).Contents (Elt F) → (⟨S100000x450, .f32⟩ : BufTy).Contents (Elt F)),
    StableHlo.unary main_arg5 main_v15 ((transpose S150x450 [1, 0] · transposes_S450x150_S150x450_1_0) : (⟨S450x150, .f32⟩ : BufTy).Contents (Elt F) → (⟨S150x450, .f32⟩ : BufTy).Contents (Elt F)),
    StableHlo.binary main_arg0 main_v15 main_v16 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg7 main_v17 (broadcastInDim S1x450 ![1] bcast_S450_S1x450_1 : (⟨S450, .f32⟩ : BufTy).Contents (Elt F) → (⟨S1x450, .f32⟩ : BufTy).Contents (Elt F)),
    StableHlo.unary main_v17 main_v18 (broadcastInDim S100000x450 ![0, 1] bcast_S1x450_S100000x450_0_1 : (⟨S1x450, .f32⟩ : BufTy).Contents (Elt F) → (⟨S100000x450, .f32⟩ : BufTy).Contents (Elt F)),
    StableHlo.binary main_v16 main_v18 main_v19 (addf : (⟨S100000x450, .f32⟩ : BufTy).Contents (Elt F) → (⟨S100000x450, .f32⟩ : BufTy).Contents (Elt F) → (⟨S100000x450, .f32⟩ : BufTy).Contents (Elt F)),
    StableHlo.unary main_v14 main_v20 ((extractStridedSlice S100000x150 ![0, 0] · slices_S100000x450_S100000x150_0_0) : (⟨S100000x450, .f32⟩ : BufTy).Contents (Elt F) → (⟨S100000x150, .f32⟩ : BufTy).Contents (Elt F)),
    StableHlo.unary main_v14 main_v21 ((extractStridedSlice S100000x150 ![0, 150] · slices_S100000x450_S100000x150_0_150) : (⟨S100000x450, .f32⟩ : BufTy).Contents (Elt F) → (⟨S100000x150, .f32⟩ : BufTy).Contents (Elt F)),
    StableHlo.unary main_v14 main_v22 ((extractStridedSlice S100000x150 ![0, 300] · slices_S100000x450_S100000x150_0_300) : (⟨S100000x450, .f32⟩ : BufTy).Contents (Elt F) → (⟨S100000x150, .f32⟩ : BufTy).Contents (Elt F)),
    StableHlo.unary main_v19 main_v23 ((extractStridedSlice S100000x150 ![0, 0] · slices_S100000x450_S100000x150_0_0) : (⟨S100000x450, .f32⟩ : BufTy).Contents (Elt F) → (⟨S100000x150, .f32⟩ : BufTy).Contents (Elt F)),
    StableHlo.unary main_v19 main_v24 ((extractStridedSlice S100000x150 ![0, 150] · slices_S100000x450_S100000x150_0_150) : (⟨S100000x450, .f32⟩ : BufTy).Contents (Elt F) → (⟨S100000x150, .f32⟩ : BufTy).Contents (Elt F)),
    StableHlo.unary main_v19 main_v25 ((extractStridedSlice S100000x150 ![0, 300] · slices_S100000x450_S100000x150_0_300) : (⟨S100000x450, .f32⟩ : BufTy).Contents (Elt F) → (⟨S100000x150, .f32⟩ : BufTy).Contents (Elt F)),
    StableHlo.binary main_v20 main_v23 main_v26 (addf : (⟨S100000x150, .f32⟩ : BufTy).Contents (Elt F) → (⟨S100000x150, .f32⟩ : BufTy).Contents (Elt F) → (⟨S100000x150, .f32⟩ : BufTy).Contents (Elt F)),
    StableHlo.unary main_v26 main_v27 (Host.negf : (⟨S100000x150, .f32⟩ : BufTy).Contents (Elt F) → (⟨S100000x150, .f32⟩ : BufTy).Contents (Elt F)),
    StableHlo.unary main_v27 main_v28 (Host.exp : (⟨S100000x150, .f32⟩ : BufTy).Contents (Elt F) → (⟨S100000x150, .f32⟩ : BufTy).Contents (Elt F)),
    StableHlo.nullary main_cst_1 (constant S_ .f32 0x3F800000#32),
    StableHlo.unary main_cst_1 main_v29 (broadcastInDim S100000x150 ![] bcast_S_S100000x150 : (⟨S_, .f32⟩ : BufTy).Contents (Elt F) → (⟨S100000x150, .f32⟩ : BufTy).Contents (Elt F)),
    StableHlo.binary main_v29 main_v28 main_v30 (addf : (⟨S100000x150, .f32⟩ : BufTy).Contents (Elt F) → (⟨S100000x150, .f32⟩ : BufTy).Contents (Elt F) → (⟨S100000x150, .f32⟩ : BufTy).Contents (Elt F)),
    StableHlo.nullary main_cst_2 (constant S_ .f32 0x3F800000#32),
    StableHlo.unary main_cst_2 main_v31 (broadcastInDim S100000x150 ![] bcast_S_S100000x150 : (⟨S_, .f32⟩ : BufTy).Contents (Elt F) → (⟨S100000x150, .f32⟩ : BufTy).Contents (Elt F)),
    StableHlo.binary main_v31 main_v30 main_v32 (Host.divf : (⟨S100000x150, .f32⟩ : BufTy).Contents (Elt F) → (⟨S100000x150, .f32⟩ : BufTy).Contents (Elt F) → (⟨S100000x150, .f32⟩ : BufTy).Contents (Elt F)),
    StableHlo.binary main_v21 main_v24 main_v33 (addf : (⟨S100000x150, .f32⟩ : BufTy).Contents (Elt F) → (⟨S100000x150, .f32⟩ : BufTy).Contents (Elt F) → (⟨S100000x150, .f32⟩ : BufTy).Contents (Elt F)),
    StableHlo.unary main_v33 main_v34 (Host.negf : (⟨S100000x150, .f32⟩ : BufTy).Contents (Elt F) → (⟨S100000x150, .f32⟩ : BufTy).Contents (Elt F)),
    StableHlo.unary main_v34 main_v35 (Host.exp : (⟨S100000x150, .f32⟩ : BufTy).Contents (Elt F) → (⟨S100000x150, .f32⟩ : BufTy).Contents (Elt F)),
    StableHlo.nullary main_cst_3 (constant S_ .f32 0x3F800000#32),
    StableHlo.unary main_cst_3 main_v36 (broadcastInDim S100000x150 ![] bcast_S_S100000x150 : (⟨S_, .f32⟩ : BufTy).Contents (Elt F) → (⟨S100000x150, .f32⟩ : BufTy).Contents (Elt F)),
    StableHlo.binary main_v36 main_v35 main_v37 (addf : (⟨S100000x150, .f32⟩ : BufTy).Contents (Elt F) → (⟨S100000x150, .f32⟩ : BufTy).Contents (Elt F) → (⟨S100000x150, .f32⟩ : BufTy).Contents (Elt F)),
    StableHlo.nullary main_cst_4 (constant S_ .f32 0x3F800000#32),
    StableHlo.unary main_cst_4 main_v38 (broadcastInDim S100000x150 ![] bcast_S_S100000x150 : (⟨S_, .f32⟩ : BufTy).Contents (Elt F) → (⟨S100000x150, .f32⟩ : BufTy).Contents (Elt F)),
    StableHlo.binary main_v38 main_v37 main_v39 (Host.divf : (⟨S100000x150, .f32⟩ : BufTy).Contents (Elt F) → (⟨S100000x150, .f32⟩ : BufTy).Contents (Elt F) → (⟨S100000x150, .f32⟩ : BufTy).Contents (Elt F)),
    StableHlo.binary main_v32 main_v25 main_v40 (mulf : (⟨S100000x150, .f32⟩ : BufTy).Contents (Elt F) → (⟨S100000x150, .f32⟩ : BufTy).Contents (Elt F) → (⟨S100000x150, .f32⟩ : BufTy).Contents (Elt F)),
    StableHlo.binary main_v22 main_v40 main_v41 (addf : (⟨S100000x150, .f32⟩ : BufTy).Contents (Elt F) → (⟨S100000x150, .f32⟩ : BufTy).Contents (Elt F) → (⟨S100000x150, .f32⟩ : BufTy).Contents (Elt F)),
    StableHlo.unary main_v41 main_v42 (Host.tanh : (⟨S100000x150, .f32⟩ : BufTy).Contents (Elt F) → (⟨S100000x150, .f32⟩ : BufTy).Contents (Elt F)),
    StableHlo.nullary main_cst_5 (constant S_ .f32 0x3F800000#32),
    StableHlo.unary main_cst_5 main_v43 (broadcastInDim S100000x150 ![] bcast_S_S100000x150 : (⟨S_, .f32⟩ : BufTy).Contents (Elt F) → (⟨S100000x150, .f32⟩ : BufTy).Contents (Elt F)),
    StableHlo.binary main_v43 main_v39 main_v44 (subf : (⟨S100000x150, .f32⟩ : BufTy).Contents (Elt F) → (⟨S100000x150, .f32⟩ : BufTy).Contents (Elt F) → (⟨S100000x150, .f32⟩ : BufTy).Contents (Elt F)),
    StableHlo.binary main_v44 main_v42 main_v45 (mulf : (⟨S100000x150, .f32⟩ : BufTy).Contents (Elt F) → (⟨S100000x150, .f32⟩ : BufTy).Contents (Elt F) → (⟨S100000x150, .f32⟩ : BufTy).Contents (Elt F)),
    StableHlo.binary main_v39 main_arg0 main_v46 (mulf : (⟨S100000x150, .f32⟩ : BufTy).Contents (Elt F) → (⟨S100000x150, .f32⟩ : BufTy).Contents (Elt F) → (⟨S100000x150, .f32⟩ : BufTy).Contents (Elt F)),
    StableHlo.binary main_v45 main_v46 main_v47 (addf : (⟨S100000x150, .f32⟩ : BufTy).Contents (Elt F) → (⟨S100000x150, .f32⟩ : BufTy).Contents (Elt F) → (⟨S100000x150, .f32⟩ : BufTy).Contents (Elt F)) ]

/-- Operations 57 … 60 of 266. -/
abbrev piece1 : List (HloOp τ sig (Elt F)) :=
  [ StableHlo.nullary main_c_6 (constantI S_ 32 0#32),
    StableHlo.unary main_c_6 main_v48 (broadcastInDim S1600000 ![] bcast_S_S1600000 : (⟨S_, .i32⟩ : BufTy).Contents (Elt F) → (⟨S1600000, .i32⟩ : BufTy).Contents (Elt F)),
    StableHlo.binary main_arg1 main_v48 main_v49 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32) ]

/-- Operations 61 … 112 of 266. -/
abbrev piece2 : List (HloOp τ sig (Elt F)) :=
  [ StableHlo.unary main_c_7 main_v50 (broadcastInDim S1600000 ![] bcast_S_S1600000 : (⟨S_, .i32⟩ : BufTy).Contents (Elt F) → (⟨S1600000, .i32⟩ : BufTy).Contents (Elt F)),
    StableHlo.binary main_arg1 main_v50 main_v51 (addi : (⟨S1600000, .i32⟩ : BufTy).Contents (Elt F) → (⟨S1600000, .i32⟩ : BufTy).Contents (Elt F) → (⟨S1600000, .i32⟩ : BufTy).Contents (Elt F)),
    StableHlo.ternary main_v49 main_v51 main_arg1 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v52 main_v53 (broadcastInDim S1600000x1 ![0] bcast_S1600000_S1600000x1_0 : (⟨S1600000, .i32⟩ : BufTy).Contents (Elt F) → (⟨S1600000x1, .i32⟩ : BufTy).Contents (Elt F)),
    StableHlo.binary main_v47 main_v53 main_v54 ((fun x i => Host.gather gather_S100000x150_S1600000x1_S1600000x150_1_0_n_n_0_1_1150 x i) : (⟨S100000x150, .f32⟩ : BufTy).Contents (Elt F) → (⟨S1600000x1, .i32⟩ : BufTy).Contents (Elt F) → (⟨S1600000x150, .f32⟩ : BufTy).Contents (Elt F)),
    StableHlo.nullary main_cst_8 (constant S_ .f32 0x00000000#32),
    StableHlo.unary main_cst_8 main_v55 (broadcastInDim S100000x150 ![] bcast_S_S100000x150 : (⟨S_, .f32⟩ : BufTy).Contents (Elt F) → (⟨S100000x150, .f32⟩ : BufTy).Contents (Elt F)),
    StableHlo.unary main_arg2 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x150_S1600000x1_S1600000x150_1_0_0_1 x i u) : (⟨S100000x150, .f32⟩ : BufTy).Contents (Elt F) → (⟨S1600000x1, .i32⟩ : BufTy).Contents (Elt F) → (⟨S1600000x150, .f32⟩ : BufTy).Contents (Elt F) → (⟨S100000x150, .f32⟩ : BufTy).Contents (Elt F)),
    StableHlo.unary main_arg4 main_v58 ((transpose S150x450 [1, 0] · transposes_S450x150_S150x450_1_0) : (⟨S450x150, .f32⟩ : BufTy).Contents (Elt F) → (⟨S150x450, .f32⟩ : BufTy).Contents (Elt F)),
    StableHlo.binary main_v57 main_v58 main_v59 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg6 main_v60 (broadcastInDim S1x450 ![1] bcast_S450_S1x450_1 : (⟨S450, .f32⟩ : BufTy).Contents (Elt F) → (⟨S1x450, .f32⟩ : BufTy).Contents (Elt F)),
    StableHlo.unary main_v60 main_v61 (broadcastInDim S100000x450 ![0, 1] bcast_S1x450_S100000x450_0_1 : (⟨S1x450, .f32⟩ : BufTy).Contents (Elt F) → (⟨S100000x450, .f32⟩ : BufTy).Contents (Elt F)),
    StableHlo.binary main_v59 main_v61 main_v62 (addf : (⟨S100000x450, .f32⟩ : BufTy).Contents (Elt F) → (⟨S100000x450, .f32⟩ : BufTy).Contents (Elt F) → (⟨S100000x450, .f32⟩ : BufTy).Contents (Elt F)),
    StableHlo.unary main_arg5 main_v63 ((transpose S150x450 [1, 0] · transposes_S450x150_S150x450_1_0) : (⟨S450x150, .f32⟩ : BufTy).Contents (Elt F) → (⟨S150x450, .f32⟩ : BufTy).Contents (Elt F)),
    StableHlo.binary main_v47 main_v63 main_v64 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg7 main_v65 (broadcastInDim S1x450 ![1] bcast_S450_S1x450_1 : (⟨S450, .f32⟩ : BufTy).Contents (Elt F) → (⟨S1x450, .f32⟩ : BufTy).Contents (Elt F)),
    StableHlo.unary main_v65 main_v66 (broadcastInDim S100000x450 ![0, 1] bcast_S1x450_S100000x450_0_1 : (⟨S1x450, .f32⟩ : BufTy).Contents (Elt F) → (⟨S100000x450, .f32⟩ : BufTy).Contents (Elt F)),
    StableHlo.binary main_v64 main_v66 main_v67 (addf : (⟨S100000x450, .f32⟩ : BufTy).Contents (Elt F) → (⟨S100000x450, .f32⟩ : BufTy).Contents (Elt F) → (⟨S100000x450, .f32⟩ : BufTy).Contents (Elt F)),
    StableHlo.unary main_v62 main_v68 ((extractStridedSlice S100000x150 ![0, 0] · slices_S100000x450_S100000x150_0_0) : (⟨S100000x450, .f32⟩ : BufTy).Contents (Elt F) → (⟨S100000x150, .f32⟩ : BufTy).Contents (Elt F)),
    StableHlo.unary main_v62 main_v69 ((extractStridedSlice S100000x150 ![0, 150] · slices_S100000x450_S100000x150_0_150) : (⟨S100000x450, .f32⟩ : BufTy).Contents (Elt F) → (⟨S100000x150, .f32⟩ : BufTy).Contents (Elt F)),
    StableHlo.unary main_v62 main_v70 ((extractStridedSlice S100000x150 ![0, 300] · slices_S100000x450_S100000x150_0_300) : (⟨S100000x450, .f32⟩ : BufTy).Contents (Elt F) → (⟨S100000x150, .f32⟩ : BufTy).Contents (Elt F)),
    StableHlo.unary main_v67 main_v71 ((extractStridedSlice S100000x150 ![0, 0] · slices_S100000x450_S100000x150_0_0) : (⟨S100000x450, .f32⟩ : BufTy).Contents (Elt F) → (⟨S100000x150, .f32⟩ : BufTy).Contents (Elt F)),
    StableHlo.unary main_v67 main_v72 ((extractStridedSlice S100000x150 ![0, 150] · slices_S100000x450_S100000x150_0_150) : (⟨S100000x450, .f32⟩ : BufTy).Contents (Elt F) → (⟨S100000x150, .f32⟩ : BufTy).Contents (Elt F)),
    StableHlo.unary main_v67 main_v73 ((extractStridedSlice S100000x150 ![0, 300] · slices_S100000x450_S100000x150_0_300) : (⟨S100000x450, .f32⟩ : BufTy).Contents (Elt F) → (⟨S100000x150, .f32⟩ : BufTy).Contents (Elt F)),
    StableHlo.binary main_v68 main_v71 main_v74 (addf : (⟨S100000x150, .f32⟩ : BufTy).Contents (Elt F) → (⟨S100000x150, .f32⟩ : BufTy).Contents (Elt F) → (⟨S100000x150, .f32⟩ : BufTy).Contents (Elt F)),
    StableHlo.unary main_v74 main_v75 (Host.negf : (⟨S100000x150, .f32⟩ : BufTy).Contents (Elt F) → (⟨S100000x150, .f32⟩ : BufTy).Contents (Elt F)),
    StableHlo.unary main_v75 main_v76 (Host.exp : (⟨S100000x150, .f32⟩ : BufTy).Contents (Elt F) → (⟨S100000x150, .f32⟩ : BufTy).Contents (Elt F)),
    StableHlo.nullary main_cst_9 (constant S_ .f32 0x3F800000#32),
    StableHlo.unary main_cst_9 main_v77 (broadcastInDim S100000x150 ![] bcast_S_S100000x150 : (⟨S_, .f32⟩ : BufTy).Contents (Elt F) → (⟨S100000x150, .f32⟩ : BufTy).Contents (Elt F)),
    StableHlo.binary main_v77 main_v76 main_v78 (addf : (⟨S100000x150, .f32⟩ : BufTy).Contents (Elt F) → (⟨S100000x150, .f32⟩ : BufTy).Contents (Elt F) → (⟨S100000x150, .f32⟩ : BufTy).Contents (Elt F)),
    StableHlo.nullary main_cst_10 (constant S_ .f32 0x3F800000#32),
    StableHlo.unary main_cst_10 main_v79 (broadcastInDim S100000x150 ![] bcast_S_S100000x150 : (⟨S_, .f32⟩ : BufTy).Contents (Elt F) → (⟨S100000x150, .f32⟩ : BufTy).Contents (Elt F)),
    StableHlo.binary main_v79 main_v78 main_v80 (Host.divf : (⟨S100000x150, .f32⟩ : BufTy).Contents (Elt F) → (⟨S100000x150, .f32⟩ : BufTy).Contents (Elt F) → (⟨S100000x150, .f32⟩ : BufTy).Contents (Elt F)),
    StableHlo.binary main_v69 main_v72 main_v81 (addf : (⟨S100000x150, .f32⟩ : BufTy).Contents (Elt F) → (⟨S100000x150, .f32⟩ : BufTy).Contents (Elt F) → (⟨S100000x150, .f32⟩ : BufTy).Contents (Elt F)),
    StableHlo.unary main_v81 main_v82 (Host.negf : (⟨S100000x150, .f32⟩ : BufTy).Contents (Elt F) → (⟨S100000x150, .f32⟩ : BufTy).Contents (Elt F)),
    StableHlo.unary main_v82 main_v83 (Host.exp : (⟨S100000x150, .f32⟩ : BufTy).Contents (Elt F) → (⟨S100000x150, .f32⟩ : BufTy).Contents (Elt F)),
    StableHlo.nullary main_cst_11 (constant S_ .f32 0x3F800000#32),
    StableHlo.unary main_cst_11 main_v84 (broadcastInDim S100000x150 ![] bcast_S_S100000x150 : (⟨S_, .f32⟩ : BufTy).Contents (Elt F) → (⟨S100000x150, .f32⟩ : BufTy).Contents (Elt F)),
    StableHlo.binary main_v84 main_v83 main_v85 (addf : (⟨S100000x150, .f32⟩ : BufTy).Contents (Elt F) → (⟨S100000x150, .f32⟩ : BufTy).Contents (Elt F) → (⟨S100000x150, .f32⟩ : BufTy).Contents (Elt F)),
    StableHlo.nullary main_cst_12 (constant S_ .f32 0x3F800000#32),
    StableHlo.unary main_cst_12 main_v86 (broadcastInDim S100000x150 ![] bcast_S_S100000x150 : (⟨S_, .f32⟩ : BufTy).Contents (Elt F) → (⟨S100000x150, .f32⟩ : BufTy).Contents (Elt F)),
    StableHlo.binary main_v86 main_v85 main_v87 (Host.divf : (⟨S100000x150, .f32⟩ : BufTy).Contents (Elt F) → (⟨S100000x150, .f32⟩ : BufTy).Contents (Elt F) → (⟨S100000x150, .f32⟩ : BufTy).Contents (Elt F)),
    StableHlo.binary main_v80 main_v73 main_v88 (mulf : (⟨S100000x150, .f32⟩ : BufTy).Contents (Elt F) → (⟨S100000x150, .f32⟩ : BufTy).Contents (Elt F) → (⟨S100000x150, .f32⟩ : BufTy).Contents (Elt F)),
    StableHlo.binary main_v70 main_v88 main_v89 (addf : (⟨S100000x150, .f32⟩ : BufTy).Contents (Elt F) → (⟨S100000x150, .f32⟩ : BufTy).Contents (Elt F) → (⟨S100000x150, .f32⟩ : BufTy).Contents (Elt F)),
    StableHlo.unary main_v89 main_v90 (Host.tanh : (⟨S100000x150, .f32⟩ : BufTy).Contents (Elt F) → (⟨S100000x150, .f32⟩ : BufTy).Contents (Elt F)),
    StableHlo.nullary main_cst_13 (constant S_ .f32 0x3F800000#32),
    StableHlo.unary main_cst_13 main_v91 (broadcastInDim S100000x150 ![] bcast_S_S100000x150 : (⟨S_, .f32⟩ : BufTy).Contents (Elt F) → (⟨S100000x150, .f32⟩ : BufTy).Contents (Elt F)),
    StableHlo.binary main_v91 main_v87 main_v92 (subf : (⟨S100000x150, .f32⟩ : BufTy).Contents (Elt F) → (⟨S100000x150, .f32⟩ : BufTy).Contents (Elt F) → (⟨S100000x150, .f32⟩ : BufTy).Contents (Elt F)),
    StableHlo.binary main_v92 main_v90 main_v93 (mulf : (⟨S100000x150, .f32⟩ : BufTy).Contents (Elt F) → (⟨S100000x150, .f32⟩ : BufTy).Contents (Elt F) → (⟨S100000x150, .f32⟩ : BufTy).Contents (Elt F)),
    StableHlo.binary main_v87 main_v47 main_v94 (mulf : (⟨S100000x150, .f32⟩ : BufTy).Contents (Elt F) → (⟨S100000x150, .f32⟩ : BufTy).Contents (Elt F) → (⟨S100000x150, .f32⟩ : BufTy).Contents (Elt F)),
    StableHlo.binary main_v93 main_v94 main_v95 (addf : (⟨S100000x150, .f32⟩ : BufTy).Contents (Elt F) → (⟨S100000x150, .f32⟩ : BufTy).Contents (Elt F) → (⟨S100000x150, .f32⟩ : BufTy).Contents (Elt F)) ]

/-- Operations 113 … 120 of 266. -/
abbrev piece3 : List (HloOp τ sig (Elt F)) :=
  [ StableHlo.nullary main_c_14 (constantI S_ 32 0#32),
    StableHlo.unary main_c_14 main_v96 (broadcastInDim S1600000 ![] bcast_S_S1600000 : (⟨S_, .i32⟩ : BufTy).Contents (Elt F) → (⟨S1600000, .i32⟩ : BufTy).Contents (Elt F)),
    StableHlo.binary main_arg1 main_v96 main_v97 (cmpi .slt : (⟨S1600000, .i32⟩ : BufTy).Contents (Elt F) → (⟨S1600000, .i32⟩ : BufTy).Contents (Elt F) → (⟨S1600000, .i1⟩ : BufTy).Contents (Elt F)),
    StableHlo.nullary main_c_15 (constantI S_ 32 100000#32),
    StableHlo.unary main_c_15 main_v98 (broadcastInDim S1600000 ![] bcast_S_S1600000 : (⟨S_, .i32⟩ : BufTy).Contents (Elt F) → (⟨S1600000, .i32⟩ : BufTy).Contents (Elt F)),
    StableHlo.binary main_arg1 main_v98 main_v99 (addi : (⟨S1600000, .i32⟩ : BufTy).Contents (Elt F) → (⟨S1600000, .i32⟩ : BufTy).Contents (Elt F) → (⟨S1600000, .i32⟩ : BufTy).Contents (Elt F)),
    StableHlo.ternary main_v97 main_v99 main_arg1 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v100 main_v101 (broadcastInDim S1600000x1 ![0] bcast_S1600000_S1600000x1_0 : (⟨S1600000, .i32⟩ : BufTy).Contents (Elt F) → (⟨S1600000x1, .i32⟩ : BufTy).Contents (Elt F)) ]

/-- Operations 121 … 168 of 266. -/
abbrev piece4 : List (HloOp τ sig (Elt F)) :=
  [ StableHlo.binary main_v95 main_v101 main_v102 ((fun x i => Host.gather gather_S100000x150_S1600000x1_S1600000x150_1_0_n_n_0_1_1150 x i) : (⟨S100000x150, .f32⟩ : BufTy).Contents (Elt F) → (⟨S1600000x1, .i32⟩ : BufTy).Contents (Elt F) → (⟨S1600000x150, .f32⟩ : BufTy).Contents (Elt F)),
    StableHlo.nullary main_cst_16 (constant S_ .f32 0x00000000#32),
    StableHlo.unary main_cst_16 main_v103 (broadcastInDim S100000x150 ![] bcast_S_S100000x150 : (⟨S_, .f32⟩ : BufTy).Contents (Elt F) → (⟨S100000x150, .f32⟩ : BufTy).Contents (Elt F)),
    StableHlo.unary main_arg2 main_v104 (broadcastInDim S1600000x1 ![0] bcast_S1600000_S1600000x1_0 : (⟨S1600000, .i32⟩ : BufTy).Contents (Elt F) → (⟨S1600000x1, .i32⟩ : BufTy).Contents (Elt F)),
    StableHlo.ternary main_v103 main_v104 main_v102 main_v105 ((fun x i u => Host.scatterAdd scatter_S100000x150_S1600000x1_S1600000x150_1_0_0_1 x i u) : (⟨S100000x150, .f32⟩ : BufTy).Contents (Elt F) → (⟨S1600000x1, .i32⟩ : BufTy).Contents (Elt F) → (⟨S1600000x150, .f32⟩ : BufTy).Contents (Elt F) → (⟨S100000x150, .f32⟩ : BufTy).Contents (Elt F)),
    StableHlo.unary main_arg4 main_v106 ((transpose S150x450 [1, 0] · transposes_S450x150_S150x450_1_0) : (⟨S450x150, .f32⟩ : BufTy).Contents (Elt F) → (⟨S150x450, .f32⟩ : BufTy).Contents (Elt F)),
    StableHlo.binary main_v105 main_v106 main_v107 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg6 main_v108 (broadcastInDim S1x450 ![1] bcast_S450_S1x450_1 : (⟨S450, .f32⟩ : BufTy).Contents (Elt F) → (⟨S1x450, .f32⟩ : BufTy).Contents (Elt F)),
    StableHlo.unary main_v108 main_v109 (broadcastInDim S100000x450 ![0, 1] bcast_S1x450_S100000x450_0_1 : (⟨S1x450, .f32⟩ : BufTy).Contents (Elt F) → (⟨S100000x450, .f32⟩ : BufTy).Contents (Elt F)),
    StableHlo.binary main_v107 main_v109 main_v110 (addf : (⟨S100000x450, .f32⟩ : BufTy).Contents (Elt F) → (⟨S100000x450, .f32⟩ : BufTy).Contents (Elt F) → (⟨S100000x450, .f32⟩ : BufTy).Contents (Elt F)),
    StableHlo.unary main_arg5 main_v111 ((transpose S150x450 [1, 0] · transposes_S450x150_S150x450_1_0) : (⟨S450x150, .f32⟩ : BufTy).Contents (Elt F) → (⟨S150x450, .f32⟩ : BufTy).Contents (Elt F)),
    StableHlo.binary main_v95 main_v111 main_v112 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg7 main_v113 (broadcastInDim S1x450 ![1] bcast_S450_S1x450_1 : (⟨S450, .f32⟩ : BufTy).Contents (Elt F) → (⟨S1x450, .f32⟩ : BufTy).Contents (Elt F)),
    StableHlo.unary main_v113 main_v114 (broadcastInDim S100000x450 ![0, 1] bcast_S1x450_S100000x450_0_1 : (⟨S1x450, .f32⟩ : BufTy).Contents (Elt F) → (⟨S100000x450, .f32⟩ : BufTy).Contents (Elt F)),
    StableHlo.binary main_v112 main_v114 main_v115 (addf : (⟨S100000x450, .f32⟩ : BufTy).Contents (Elt F) → (⟨S100000x450, .f32⟩ : BufTy).Contents (Elt F) → (⟨S100000x450, .f32⟩ : BufTy).Contents (Elt F)),
    StableHlo.unary main_v110 main_v116 ((extractStridedSlice S100000x150 ![0, 0] · slices_S100000x450_S100000x150_0_0) : (⟨S100000x450, .f32⟩ : BufTy).Contents (Elt F) → (⟨S100000x150, .f32⟩ : BufTy).Contents (Elt F)),
    StableHlo.unary main_v110 main_v117 ((extractStridedSlice S100000x150 ![0, 150] · slices_S100000x450_S100000x150_0_150) : (⟨S100000x450, .f32⟩ : BufTy).Contents (Elt F) → (⟨S100000x150, .f32⟩ : BufTy).Contents (Elt F)),
    StableHlo.unary main_v110 main_v118 ((extractStridedSlice S100000x150 ![0, 300] · slices_S100000x450_S100000x150_0_300) : (⟨S100000x450, .f32⟩ : BufTy).Contents (Elt F) → (⟨S100000x150, .f32⟩ : BufTy).Contents (Elt F)),
    StableHlo.unary main_v115 main_v119 ((extractStridedSlice S100000x150 ![0, 0] · slices_S100000x450_S100000x150_0_0) : (⟨S100000x450, .f32⟩ : BufTy).Contents (Elt F) → (⟨S100000x150, .f32⟩ : BufTy).Contents (Elt F)),
    StableHlo.unary main_v115 main_v120 ((extractStridedSlice S100000x150 ![0, 150] · slices_S100000x450_S100000x150_0_150) : (⟨S100000x450, .f32⟩ : BufTy).Contents (Elt F) → (⟨S100000x150, .f32⟩ : BufTy).Contents (Elt F)),
    StableHlo.unary main_v115 main_v121 ((extractStridedSlice S100000x150 ![0, 300] · slices_S100000x450_S100000x150_0_300) : (⟨S100000x450, .f32⟩ : BufTy).Contents (Elt F) → (⟨S100000x150, .f32⟩ : BufTy).Contents (Elt F)),
    StableHlo.binary main_v116 main_v119 main_v122 (addf : (⟨S100000x150, .f32⟩ : BufTy).Contents (Elt F) → (⟨S100000x150, .f32⟩ : BufTy).Contents (Elt F) → (⟨S100000x150, .f32⟩ : BufTy).Contents (Elt F)),
    StableHlo.unary main_v122 main_v123 (Host.negf : (⟨S100000x150, .f32⟩ : BufTy).Contents (Elt F) → (⟨S100000x150, .f32⟩ : BufTy).Contents (Elt F)),
    StableHlo.unary main_v123 main_v124 (Host.exp : (⟨S100000x150, .f32⟩ : BufTy).Contents (Elt F) → (⟨S100000x150, .f32⟩ : BufTy).Contents (Elt F)),
    StableHlo.nullary main_cst_17 (constant S_ .f32 0x3F800000#32),
    StableHlo.unary main_cst_17 main_v125 (broadcastInDim S100000x150 ![] bcast_S_S100000x150 : (⟨S_, .f32⟩ : BufTy).Contents (Elt F) → (⟨S100000x150, .f32⟩ : BufTy).Contents (Elt F)),
    StableHlo.binary main_v125 main_v124 main_v126 (addf : (⟨S100000x150, .f32⟩ : BufTy).Contents (Elt F) → (⟨S100000x150, .f32⟩ : BufTy).Contents (Elt F) → (⟨S100000x150, .f32⟩ : BufTy).Contents (Elt F)),
    StableHlo.nullary main_cst_18 (constant S_ .f32 0x3F800000#32),
    StableHlo.unary main_cst_18 main_v127 (broadcastInDim S100000x150 ![] bcast_S_S100000x150 : (⟨S_, .f32⟩ : BufTy).Contents (Elt F) → (⟨S100000x150, .f32⟩ : BufTy).Contents (Elt F)),
    StableHlo.binary main_v127 main_v126 main_v128 (Host.divf : (⟨S100000x150, .f32⟩ : BufTy).Contents (Elt F) → (⟨S100000x150, .f32⟩ : BufTy).Contents (Elt F) → (⟨S100000x150, .f32⟩ : BufTy).Contents (Elt F)),
    StableHlo.binary main_v117 main_v120 main_v129 (addf : (⟨S100000x150, .f32⟩ : BufTy).Contents (Elt F) → (⟨S100000x150, .f32⟩ : BufTy).Contents (Elt F) → (⟨S100000x150, .f32⟩ : BufTy).Contents (Elt F)),
    StableHlo.unary main_v129 main_v130 (Host.negf : (⟨S100000x150, .f32⟩ : BufTy).Contents (Elt F) → (⟨S100000x150, .f32⟩ : BufTy).Contents (Elt F)),
    StableHlo.unary main_v130 main_v131 (Host.exp : (⟨S100000x150, .f32⟩ : BufTy).Contents (Elt F) → (⟨S100000x150, .f32⟩ : BufTy).Contents (Elt F)),
    StableHlo.nullary main_cst_19 (constant S_ .f32 0x3F800000#32),
    StableHlo.unary main_cst_19 main_v132 (broadcastInDim S100000x150 ![] bcast_S_S100000x150 : (⟨S_, .f32⟩ : BufTy).Contents (Elt F) → (⟨S100000x150, .f32⟩ : BufTy).Contents (Elt F)),
    StableHlo.binary main_v132 main_v131 main_v133 (addf : (⟨S100000x150, .f32⟩ : BufTy).Contents (Elt F) → (⟨S100000x150, .f32⟩ : BufTy).Contents (Elt F) → (⟨S100000x150, .f32⟩ : BufTy).Contents (Elt F)),
    StableHlo.nullary main_cst_20 (constant S_ .f32 0x3F800000#32),
    StableHlo.unary main_cst_20 main_v134 (broadcastInDim S100000x150 ![] bcast_S_S100000x150 : (⟨S_, .f32⟩ : BufTy).Contents (Elt F) → (⟨S100000x150, .f32⟩ : BufTy).Contents (Elt F)),
    StableHlo.binary main_v134 main_v133 main_v135 (Host.divf : (⟨S100000x150, .f32⟩ : BufTy).Contents (Elt F) → (⟨S100000x150, .f32⟩ : BufTy).Contents (Elt F) → (⟨S100000x150, .f32⟩ : BufTy).Contents (Elt F)),
    StableHlo.binary main_v128 main_v121 main_v136 (mulf : (⟨S100000x150, .f32⟩ : BufTy).Contents (Elt F) → (⟨S100000x150, .f32⟩ : BufTy).Contents (Elt F) → (⟨S100000x150, .f32⟩ : BufTy).Contents (Elt F)),
    StableHlo.binary main_v118 main_v136 main_v137 (addf : (⟨S100000x150, .f32⟩ : BufTy).Contents (Elt F) → (⟨S100000x150, .f32⟩ : BufTy).Contents (Elt F) → (⟨S100000x150, .f32⟩ : BufTy).Contents (Elt F)),
    StableHlo.unary main_v137 main_v138 (Host.tanh : (⟨S100000x150, .f32⟩ : BufTy).Contents (Elt F) → (⟨S100000x150, .f32⟩ : BufTy).Contents (Elt F)),
    StableHlo.nullary main_cst_21 (constant S_ .f32 0x3F800000#32),
    StableHlo.unary main_cst_21 main_v139 (broadcastInDim S100000x150 ![] bcast_S_S100000x150 : (⟨S_, .f32⟩ : BufTy).Contents (Elt F) → (⟨S100000x150, .f32⟩ : BufTy).Contents (Elt F)),
    StableHlo.binary main_v139 main_v135 main_v140 (subf : (⟨S100000x150, .f32⟩ : BufTy).Contents (Elt F) → (⟨S100000x150, .f32⟩ : BufTy).Contents (Elt F) → (⟨S100000x150, .f32⟩ : BufTy).Contents (Elt F)),
    StableHlo.binary main_v140 main_v138 main_v141 (mulf : (⟨S100000x150, .f32⟩ : BufTy).Contents (Elt F) → (⟨S100000x150, .f32⟩ : BufTy).Contents (Elt F) → (⟨S100000x150, .f32⟩ : BufTy).Contents (Elt F)),
    StableHlo.binary main_v135 main_v95 main_v142 (mulf : (⟨S100000x150, .f32⟩ : BufTy).Contents (Elt F) → (⟨S100000x150, .f32⟩ : BufTy).Contents (Elt F) → (⟨S100000x150, .f32⟩ : BufTy).Contents (Elt F)),
    StableHlo.binary main_v141 main_v142 main_v143 (addf : (⟨S100000x150, .f32⟩ : BufTy).Contents (Elt F) → (⟨S100000x150, .f32⟩ : BufTy).Contents (Elt F) → (⟨S100000x150, .f32⟩ : BufTy).Contents (Elt F)) ]

/-- Operations 169 … 180 of 266. -/
abbrev piece5 : List (HloOp τ sig (Elt F)) :=
  [ StableHlo.nullary main_c_22 (constantI S_ 32 0#32),
    StableHlo.unary main_c_22 main_v144 (broadcastInDim S1600000 ![] bcast_S_S1600000 : (⟨S_, .i32⟩ : BufTy).Contents (Elt F) → (⟨S1600000, .i32⟩ : BufTy).Contents (Elt F)),
    StableHlo.binary main_arg1 main_v144 main_v145 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v146 (broadcastInDim S1600000 ![] bcast_S_S1600000 : (⟨S_, .i32⟩ : BufTy).Contents (Elt F) → (⟨S1600000, .i32⟩ : BufTy).Contents (Elt F)),
    StableHlo.binary main_arg1 main_v146 main_v147 (addi : (⟨S1600000, .i32⟩ : BufTy).Contents (Elt F) → (⟨S1600000, .i32⟩ : BufTy).Contents (Elt F) → (⟨S1600000, .i32⟩ : BufTy).Contents (Elt F)),
    StableHlo.ternary main_v145 main_v147 main_arg1 main_v148 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v148 main_v149 (broadcastInDim S1600000x1 ![0] bcast_S1600000_S1600000x1_0 : (⟨S1600000, .i32⟩ : BufTy).Contents (Elt F) → (⟨S1600000x1, .i32⟩ : BufTy).Contents (Elt F)),
    StableHlo.binary main_v143 main_v149 main_v150 ((fun x i => Host.gather gather_S100000x150_S1600000x1_S1600000x150_1_0_n_n_0_1_1150 x i) : (⟨S100000x150, .f32⟩ : BufTy).Contents (Elt F) → (⟨S1600000x1, .i32⟩ : BufTy).Contents (Elt F) → (⟨S1600000x150, .f32⟩ : BufTy).Contents (Elt F)),
    StableHlo.nullary main_cst_24 (constant S_ .f32 0x00000000#32),
    StableHlo.unary main_cst_24 main_v151 (broadcastInDim S100000x150 ![] bcast_S_S100000x150 : (⟨S_, .f32⟩ : BufTy).Contents (Elt F) → (⟨S100000x150, .f32⟩ : BufTy).Contents (Elt F)),
    StableHlo.unary main_arg2 main_v152 (broadcastInDim S1600000x1 ![0] bcast_S1600000_S1600000x1_0 : (⟨S1600000, .i32⟩ : BufTy).Contents (Elt F) → (⟨S1600000x1, .i32⟩ : BufTy).Contents (Elt F)) ]

/-- Operations 181 … 224 of 266. -/
abbrev piece6 : List (HloOp τ sig (Elt F)) :=
  [ StableHlo.ternary main_v151 main_v152 main_v150 main_v153 ((fun x i u => Host.scatterAdd scatter_S100000x150_S1600000x1_S1600000x150_1_0_0_1 x i u) : (⟨S100000x150, .f32⟩ : BufTy).Contents (Elt F) → (⟨S1600000x1, .i32⟩ : BufTy).Contents (Elt F) → (⟨S1600000x150, .f32⟩ : BufTy).Contents (Elt F) → (⟨S100000x150, .f32⟩ : BufTy).Contents (Elt F)),
    StableHlo.unary main_arg4 main_v154 ((transpose S150x450 [1, 0] · transposes_S450x150_S150x450_1_0) : (⟨S450x150, .f32⟩ : BufTy).Contents (Elt F) → (⟨S150x450, .f32⟩ : BufTy).Contents (Elt F)),
    StableHlo.binary main_v153 main_v154 main_v155 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg6 main_v156 (broadcastInDim S1x450 ![1] bcast_S450_S1x450_1 : (⟨S450, .f32⟩ : BufTy).Contents (Elt F) → (⟨S1x450, .f32⟩ : BufTy).Contents (Elt F)),
    StableHlo.unary main_v156 main_v157 (broadcastInDim S100000x450 ![0, 1] bcast_S1x450_S100000x450_0_1 : (⟨S1x450, .f32⟩ : BufTy).Contents (Elt F) → (⟨S100000x450, .f32⟩ : BufTy).Contents (Elt F)),
    StableHlo.binary main_v155 main_v157 main_v158 (addf : (⟨S100000x450, .f32⟩ : BufTy).Contents (Elt F) → (⟨S100000x450, .f32⟩ : BufTy).Contents (Elt F) → (⟨S100000x450, .f32⟩ : BufTy).Contents (Elt F)),
    StableHlo.unary main_arg5 main_v159 ((transpose S150x450 [1, 0] · transposes_S450x150_S150x450_1_0) : (⟨S450x150, .f32⟩ : BufTy).Contents (Elt F) → (⟨S150x450, .f32⟩ : BufTy).Contents (Elt F)),
    StableHlo.binary main_v143 main_v159 main_v160 ((fun l r => Host.dotGeneral dot_S100000x150_S150x450_S100000x450_1_0_0_1_n_n none l r) : (⟨S100000x150, .f32⟩ : BufTy).Contents (Elt F) → (⟨S150x450, .f32⟩ : BufTy).Contents (Elt F) → (⟨S100000x450, .f32⟩ : BufTy).Contents (Elt F)),
    StableHlo.unary main_arg7 main_v161 (broadcastInDim S1x450 ![1] bcast_S450_S1x450_1 : (⟨S450, .f32⟩ : BufTy).Contents (Elt F) → (⟨S1x450, .f32⟩ : BufTy).Contents (Elt F)),
    StableHlo.unary main_v161 main_v162 (broadcastInDim S100000x450 ![0, 1] bcast_S1x450_S100000x450_0_1 : (⟨S1x450, .f32⟩ : BufTy).Contents (Elt F) → (⟨S100000x450, .f32⟩ : BufTy).Contents (Elt F)),
    StableHlo.binary main_v160 main_v162 main_v163 (addf : (⟨S100000x450, .f32⟩ : BufTy).Contents (Elt F) → (⟨S100000x450, .f32⟩ : BufTy).Contents (Elt F) → (⟨S100000x450, .f32⟩ : BufTy).Contents (Elt F)),
    StableHlo.unary main_v158 main_v164 ((extractStridedSlice S100000x150 ![0, 0] · slices_S100000x450_S100000x150_0_0) : (⟨S100000x450, .f32⟩ : BufTy).Contents (Elt F) → (⟨S100000x150, .f32⟩ : BufTy).Contents (Elt F)),
    StableHlo.unary main_v158 main_v165 ((extractStridedSlice S100000x150 ![0, 150] · slices_S100000x450_S100000x150_0_150) : (⟨S100000x450, .f32⟩ : BufTy).Contents (Elt F) → (⟨S100000x150, .f32⟩ : BufTy).Contents (Elt F)),
    StableHlo.unary main_v158 main_v166 ((extractStridedSlice S100000x150 ![0, 300] · slices_S100000x450_S100000x150_0_300) : (⟨S100000x450, .f32⟩ : BufTy).Contents (Elt F) → (⟨S100000x150, .f32⟩ : BufTy).Contents (Elt F)),
    StableHlo.unary main_v163 main_v167 ((extractStridedSlice S100000x150 ![0, 0] · slices_S100000x450_S100000x150_0_0) : (⟨S100000x450, .f32⟩ : BufTy).Contents (Elt F) → (⟨S100000x150, .f32⟩ : BufTy).Contents (Elt F)),
    StableHlo.unary main_v163 main_v168 ((extractStridedSlice S100000x150 ![0, 150] · slices_S100000x450_S100000x150_0_150) : (⟨S100000x450, .f32⟩ : BufTy).Contents (Elt F) → (⟨S100000x150, .f32⟩ : BufTy).Contents (Elt F)),
    StableHlo.unary main_v163 main_v169 ((extractStridedSlice S100000x150 ![0, 300] · slices_S100000x450_S100000x150_0_300) : (⟨S100000x450, .f32⟩ : BufTy).Contents (Elt F) → (⟨S100000x150, .f32⟩ : BufTy).Contents (Elt F)),
    StableHlo.binary main_v164 main_v167 main_v170 (addf : (⟨S100000x150, .f32⟩ : BufTy).Contents (Elt F) → (⟨S100000x150, .f32⟩ : BufTy).Contents (Elt F) → (⟨S100000x150, .f32⟩ : BufTy).Contents (Elt F)),
    StableHlo.unary main_v170 main_v171 (Host.negf : (⟨S100000x150, .f32⟩ : BufTy).Contents (Elt F) → (⟨S100000x150, .f32⟩ : BufTy).Contents (Elt F)),
    StableHlo.unary main_v171 main_v172 (Host.exp : (⟨S100000x150, .f32⟩ : BufTy).Contents (Elt F) → (⟨S100000x150, .f32⟩ : BufTy).Contents (Elt F)),
    StableHlo.nullary main_cst_25 (constant S_ .f32 0x3F800000#32),
    StableHlo.unary main_cst_25 main_v173 (broadcastInDim S100000x150 ![] bcast_S_S100000x150 : (⟨S_, .f32⟩ : BufTy).Contents (Elt F) → (⟨S100000x150, .f32⟩ : BufTy).Contents (Elt F)),
    StableHlo.binary main_v173 main_v172 main_v174 (addf : (⟨S100000x150, .f32⟩ : BufTy).Contents (Elt F) → (⟨S100000x150, .f32⟩ : BufTy).Contents (Elt F) → (⟨S100000x150, .f32⟩ : BufTy).Contents (Elt F)),
    StableHlo.nullary main_cst_26 (constant S_ .f32 0x3F800000#32),
    StableHlo.unary main_cst_26 main_v175 (broadcastInDim S100000x150 ![] bcast_S_S100000x150 : (⟨S_, .f32⟩ : BufTy).Contents (Elt F) → (⟨S100000x150, .f32⟩ : BufTy).Contents (Elt F)),
    StableHlo.binary main_v175 main_v174 main_v176 (Host.divf : (⟨S100000x150, .f32⟩ : BufTy).Contents (Elt F) → (⟨S100000x150, .f32⟩ : BufTy).Contents (Elt F) → (⟨S100000x150, .f32⟩ : BufTy).Contents (Elt F)),
    StableHlo.binary main_v165 main_v168 main_v177 (addf : (⟨S100000x150, .f32⟩ : BufTy).Contents (Elt F) → (⟨S100000x150, .f32⟩ : BufTy).Contents (Elt F) → (⟨S100000x150, .f32⟩ : BufTy).Contents (Elt F)),
    StableHlo.unary main_v177 main_v178 (Host.negf : (⟨S100000x150, .f32⟩ : BufTy).Contents (Elt F) → (⟨S100000x150, .f32⟩ : BufTy).Contents (Elt F)),
    StableHlo.unary main_v178 main_v179 (Host.exp : (⟨S100000x150, .f32⟩ : BufTy).Contents (Elt F) → (⟨S100000x150, .f32⟩ : BufTy).Contents (Elt F)),
    StableHlo.nullary main_cst_27 (constant S_ .f32 0x3F800000#32),
    StableHlo.unary main_cst_27 main_v180 (broadcastInDim S100000x150 ![] bcast_S_S100000x150 : (⟨S_, .f32⟩ : BufTy).Contents (Elt F) → (⟨S100000x150, .f32⟩ : BufTy).Contents (Elt F)),
    StableHlo.binary main_v180 main_v179 main_v181 (addf : (⟨S100000x150, .f32⟩ : BufTy).Contents (Elt F) → (⟨S100000x150, .f32⟩ : BufTy).Contents (Elt F) → (⟨S100000x150, .f32⟩ : BufTy).Contents (Elt F)),
    StableHlo.nullary main_cst_28 (constant S_ .f32 0x3F800000#32),
    StableHlo.unary main_cst_28 main_v182 (broadcastInDim S100000x150 ![] bcast_S_S100000x150 : (⟨S_, .f32⟩ : BufTy).Contents (Elt F) → (⟨S100000x150, .f32⟩ : BufTy).Contents (Elt F)),
    StableHlo.binary main_v182 main_v181 main_v183 (Host.divf : (⟨S100000x150, .f32⟩ : BufTy).Contents (Elt F) → (⟨S100000x150, .f32⟩ : BufTy).Contents (Elt F) → (⟨S100000x150, .f32⟩ : BufTy).Contents (Elt F)),
    StableHlo.binary main_v176 main_v169 main_v184 (mulf : (⟨S100000x150, .f32⟩ : BufTy).Contents (Elt F) → (⟨S100000x150, .f32⟩ : BufTy).Contents (Elt F) → (⟨S100000x150, .f32⟩ : BufTy).Contents (Elt F)),
    StableHlo.binary main_v166 main_v184 main_v185 (addf : (⟨S100000x150, .f32⟩ : BufTy).Contents (Elt F) → (⟨S100000x150, .f32⟩ : BufTy).Contents (Elt F) → (⟨S100000x150, .f32⟩ : BufTy).Contents (Elt F)),
    StableHlo.unary main_v185 main_v186 (Host.tanh : (⟨S100000x150, .f32⟩ : BufTy).Contents (Elt F) → (⟨S100000x150, .f32⟩ : BufTy).Contents (Elt F)),
    StableHlo.nullary main_cst_29 (constant S_ .f32 0x3F800000#32),
    StableHlo.unary main_cst_29 main_v187 (broadcastInDim S100000x150 ![] bcast_S_S100000x150 : (⟨S_, .f32⟩ : BufTy).Contents (Elt F) → (⟨S100000x150, .f32⟩ : BufTy).Contents (Elt F)),
    StableHlo.binary main_v187 main_v183 main_v188 (subf : (⟨S100000x150, .f32⟩ : BufTy).Contents (Elt F) → (⟨S100000x150, .f32⟩ : BufTy).Contents (Elt F) → (⟨S100000x150, .f32⟩ : BufTy).Contents (Elt F)),
    StableHlo.binary main_v188 main_v186 main_v189 (mulf : (⟨S100000x150, .f32⟩ : BufTy).Contents (Elt F) → (⟨S100000x150, .f32⟩ : BufTy).Contents (Elt F) → (⟨S100000x150, .f32⟩ : BufTy).Contents (Elt F)),
    StableHlo.binary main_v183 main_v143 main_v190 (mulf : (⟨S100000x150, .f32⟩ : BufTy).Contents (Elt F) → (⟨S100000x150, .f32⟩ : BufTy).Contents (Elt F) → (⟨S100000x150, .f32⟩ : BufTy).Contents (Elt F)),
    StableHlo.binary main_v189 main_v190 main_v191 (addf : (⟨S100000x150, .f32⟩ : BufTy).Contents (Elt F) → (⟨S100000x150, .f32⟩ : BufTy).Contents (Elt F) → (⟨S100000x150, .f32⟩ : BufTy).Contents (Elt F)) ]

/-- Operations 225 … 250 of 266. -/
abbrev piece7 : List (HloOp τ sig (Elt F)) :=
  [ StableHlo.nullary main_cst_30 (constant S_ .f32 0x00000000#32),
    StableHlo.unary main_cst_30 main_v192 (broadcastInDim S64x150 ![] bcast_S_S64x150 : (⟨S_, .f32⟩ : BufTy).Contents (Elt F) → (⟨S64x150, .f32⟩ : BufTy).Contents (Elt F)),
    StableHlo.unary main_arg3 main_v193 (broadcastInDim S100000x1 ![0] bcast_S100000_S100000x1_0 : (⟨S100000, .i32⟩ : BufTy).Contents (Elt F) → (⟨S100000x1, .i32⟩ : BufTy).Contents (Elt F)),
    StableHlo.ternary main_v192 main_v193 main_v191 main_v194 ((fun x i u => Host.scatterAdd scatter_S64x150_S100000x1_S100000x150_1_0_0_1 x i u) : (⟨S64x150, .f32⟩ : BufTy).Contents (Elt F) → (⟨S100000x1, .i32⟩ : BufTy).Contents (Elt F) → (⟨S100000x150, .f32⟩ : BufTy).Contents (Elt F) → (⟨S64x150, .f32⟩ : BufTy).Contents (Elt F)),
    StableHlo.unary main_v194 main_v195 (Host.log : (⟨S64x150, .f32⟩ : BufTy).Contents (Elt F) → (⟨S64x150, .f32⟩ : BufTy).Contents (Elt F)),
    StableHlo.binary main_v195 main_v195 main_v196 (cmpf .une : (⟨S64x150, .f32⟩ : BufTy).Contents (Elt F) → (⟨S64x150, .f32⟩ : BufTy).Contents (Elt F) → (⟨S64x150, .i1⟩ : BufTy).Contents (Elt F)),
    StableHlo.nullary main_cst_31 (constant S_ .f32 0x00000000#32),
    StableHlo.TRef.unary (.of main_cst_31 : StableHlo.TRef sig ⟨S_, .f32⟩) main_call0.v0 id,
    StableHlo.TRef.unary main_call0.v0 main_call0.v1 (broadcastInDim S64x150 ![] bcast_S_S64x150),
    StableHlo.TRef.ternary (.of main_v196 : StableHlo.TRef sig ⟨S64x150, .i1⟩) main_call0.v1 (.of main_v195 : StableHlo.TRef sig ⟨S64x150, .f32⟩) main_call0.v2 select,
    StableHlo.TRef.nullary main_call1.cst (constant S_ .f32 0x00000000#32),
    StableHlo.TRef.unary main_call1.cst main_call1.v0 (broadcastInDim S64x150 ![] bcast_S_S64x150),
    StableHlo.TRef.binary (.of main_v197 : StableHlo.TRef sig ⟨S64x150, .f32⟩) main_call1.v0 main_call1.v1 maximumf,
    StableHlo.unary main_arg8 main_v199 ((transpose S150x80 [1, 0] · transposes_S80x150_S150x80_1_0) : (⟨S80x150, .f32⟩ : BufTy).Contents (Elt F) → (⟨S150x80, .f32⟩ : BufTy).Contents (Elt F)),
    StableHlo.binary main_v198 main_v199 main_v200 ((fun l r => Host.dotGeneral dot_S64x150_S150x80_S64x80_1_0_0_1_n_n none l r) : (⟨S64x150, .f32⟩ : BufTy).Contents (Elt F) → (⟨S150x80, .f32⟩ : BufTy).Contents (Elt F) → (⟨S64x80, .f32⟩ : BufTy).Contents (Elt F)),
    StableHlo.unary main_arg9 main_v201 (broadcastInDim S1x80 ![1] bcast_S80_S1x80_1 : (⟨S80, .f32⟩ : BufTy).Contents (Elt F) → (⟨S1x80, .f32⟩ : BufTy).Contents (Elt F)),
    StableHlo.unary main_v201 main_v202 (broadcastInDim S64x80 ![0, 1] bcast_S1x80_S64x80_0_1 : (⟨S1x80, .f32⟩ : BufTy).Contents (Elt F) → (⟨S64x80, .f32⟩ : BufTy).Contents (Elt F)),
    StableHlo.binary main_v200 main_v202 main_v203 (addf : (⟨S64x80, .f32⟩ : BufTy).Contents (Elt F) → (⟨S64x80, .f32⟩ : BufTy).Contents (Elt F) → (⟨S64x80, .f32⟩ : BufTy).Contents (Elt F)),
    StableHlo.TRef.nullary main_call2.cst (constant S_ .f32 0x00000000#32),
    StableHlo.TRef.unary main_call2.cst main_call2.v0 (broadcastInDim S64x80 ![] bcast_S_S64x80),
    StableHlo.TRef.binary (.of main_v203 : StableHlo.TRef sig ⟨S64x80, .f32⟩) main_call2.v0 main_call2.v1 (cmpf .oge),
    StableHlo.TRef.nullary main_call2.cst_0 (constant S_ .f32 0x3C23D70A#32),
    StableHlo.TRef.unary main_call2.cst_0 main_call2.v2 (broadcastInDim S64x80 ![] bcast_S_S64x80),
    StableHlo.TRef.binary main_call2.v2 (.of main_v203 : StableHlo.TRef sig ⟨S64x80, .f32⟩) main_call2.v3 mulf,
    StableHlo.TRef.ternary main_call2.v1 (.of main_v203 : StableHlo.TRef sig ⟨S64x80, .f32⟩) main_call2.v3 main_call2.call0.v0 select,
    StableHlo.unary main_arg10 main_v205 ((transpose S80x80 [1, 0] · transposes_S80x80_S80x80_1_0) : (⟨S80x80, .f32⟩ : BufTy).Contents (Elt F) → (⟨S80x80, .f32⟩ : BufTy).Contents (Elt F)) ]

/-- Operations 251 … 266 of 266. -/
abbrev piece8 : List (HloOp τ sig (Elt F)) :=
  [ StableHlo.binary main_v204 main_v205 main_v206 ((fun l r => Host.dotGeneral dot_S64x80_S80x80_S64x80_1_0_0_1_n_n none l r) : (⟨S64x80, .f32⟩ : BufTy).Contents (Elt F) → (⟨S80x80, .f32⟩ : BufTy).Contents (Elt F) → (⟨S64x80, .f32⟩ : BufTy).Contents (Elt F)),
    StableHlo.unary main_arg11 main_v207 (broadcastInDim S1x80 ![1] bcast_S80_S1x80_1 : (⟨S80, .f32⟩ : BufTy).Contents (Elt F) → (⟨S1x80, .f32⟩ : BufTy).Contents (Elt F)),
    StableHlo.unary main_v207 main_v208 (broadcastInDim S64x80 ![0, 1] bcast_S1x80_S64x80_0_1 : (⟨S1x80, .f32⟩ : BufTy).Contents (Elt F) → (⟨S64x80, .f32⟩ : BufTy).Contents (Elt F)),
    StableHlo.binary main_v206 main_v208 main_v209 (addf : (⟨S64x80, .f32⟩ : BufTy).Contents (Elt F) → (⟨S64x80, .f32⟩ : BufTy).Contents (Elt F) → (⟨S64x80, .f32⟩ : BufTy).Contents (Elt F)),
    StableHlo.TRef.nullary main_call3.cst (constant S_ .f32 0x00000000#32),
    StableHlo.TRef.unary main_call3.cst main_call3.v0 (broadcastInDim S64x80 ![] bcast_S_S64x80),
    StableHlo.TRef.binary (.of main_v209 : StableHlo.TRef sig ⟨S64x80, .f32⟩) main_call3.v0 main_call3.v1 (cmpf .oge),
    StableHlo.TRef.nullary main_call3.cst_0 (constant S_ .f32 0x3C23D70A#32),
    StableHlo.TRef.unary main_call3.cst_0 main_call3.v2 (broadcastInDim S64x80 ![] bcast_S_S64x80),
    StableHlo.TRef.binary main_call3.v2 (.of main_v209 : StableHlo.TRef sig ⟨S64x80, .f32⟩) main_call3.v3 mulf,
    StableHlo.TRef.ternary main_call3.v1 (.of main_v209 : StableHlo.TRef sig ⟨S64x80, .f32⟩) main_call3.v3 main_call3.call0.v0 select,
    StableHlo.unary main_arg12 main_v211 ((transpose S80x10 [1, 0] · transposes_S10x80_S80x10_1_0) : (⟨S10x80, .f32⟩ : BufTy).Contents (Elt F) → (⟨S80x10, .f32⟩ : BufTy).Contents (Elt F)),
    StableHlo.binary main_v210 main_v211 main_v212 ((fun l r => Host.dotGeneral dot_S64x80_S80x10_S64x10_1_0_0_1_n_n none l r) : (⟨S64x80, .f32⟩ : BufTy).Contents (Elt F) → (⟨S80x10, .f32⟩ : BufTy).Contents (Elt F) → (⟨S64x10, .f32⟩ : BufTy).Contents (Elt F)),
    StableHlo.unary main_arg13 main_v213 (broadcastInDim S1x10 ![1] bcast_S10_S1x10_1 : (⟨S10, .f32⟩ : BufTy).Contents (Elt F) → (⟨S1x10, .f32⟩ : BufTy).Contents (Elt F)),
    StableHlo.unary main_v213 main_v214 (broadcastInDim S64x10 ![0, 1] bcast_S1x10_S64x10_0_1 : (⟨S1x10, .f32⟩ : BufTy).Contents (Elt F) → (⟨S64x10, .f32⟩ : BufTy).Contents (Elt F)),
    StableHlo.binary main_v212 main_v214 main_v215 (addf : (⟨S64x10, .f32⟩ : BufTy).Contents (Elt F) → (⟨S64x10, .f32⟩ : BufTy).Contents (Elt F) → (⟨S64x10, .f32⟩ : BufTy).Contents (Elt F)) ]

/-- The operations of the program's window `main_part0`: operations 1 … 60. -/
abbrev ops_part0 : List (HloOp τ sig (Elt F)) := piece0 ++ (piece1)

/-- The operations of the program's window `main_part1`: operations 61 … 120. -/
abbrev ops_part1 : List (HloOp τ sig (Elt F)) := piece2 ++ (piece3)

/-- The operations of the program's window `main_part2`: operations 121 … 180. -/
abbrev ops_part2 : List (HloOp τ sig (Elt F)) := piece4 ++ (piece5)

/-- The operations of the program's window `main_part3`: operations 181 … 250. -/
abbrev ops_part3 : List (HloOp τ sig (Elt F)) := piece6 ++ (piece7)

/-- The operations of the program's window `main_part4`: operations 251 … 266. -/
abbrev ops_part4 : List (HloOp τ sig (Elt F)) := piece8

/-- @main's 266 operations, in order. -/
abbrev ops : List (HloOp τ sig (Elt F)) := piece0 ++ (piece1 ++ (piece2 ++ (piece3 ++ (piece4 ++ (piece5 ++ (piece6 ++ (piece7 ++ (piece8))))))))

set_option maxRecDepth 8192 in
set_option maxHeartbeats 4000000 in
theorem main_part0_eq (c : Dev nD) : main_part0 (F := F) c = seq ops_part0 := rfl

set_option maxRecDepth 8192 in
set_option maxHeartbeats 4000000 in
theorem main_part1_eq (c : Dev nD) : main_part1 (F := F) c = seq ops_part1 := rfl

set_option maxRecDepth 8192 in
set_option maxHeartbeats 4000000 in
theorem main_part2_eq (c : Dev nD) : main_part2 (F := F) c = seq ops_part2 := rfl

set_option maxRecDepth 8192 in
set_option maxHeartbeats 4000000 in
theorem main_part3_eq (c : Dev nD) : main_part3 (F := F) c = seq ops_part3 := rfl

set_option maxRecDepth 8192 in
set_option maxHeartbeats 4000000 in
theorem main_part4_eq (c : Dev nD) : main_part4 (F := F) c = seq ops_part4 := rfl

/-- The pieces in order are the windows in order. -/
theorem ops_eq_windows : (ops : List (HloOp τ sig (Elt F))) = ops_part0 ++ (ops_part1 ++ (ops_part2 ++ (ops_part3 ++ (ops_part4)))) := by
  simp only [List.append_assoc]

set_option maxRecDepth 8192 in
/-- @main is the straight line of its operations: window by window, the calls unfolded. -/
theorem main_eq (c : Dev nD) : main (F := F) c = seq ops := by
  rw [ops_eq_windows]
  simp only [seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem piece0_sub : (piece0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem piece0_fresh : ∀ op ∈ (piece0 : List (HloOp τ sig (Elt F))), op.fresh = ∅ := by
  intro _ h; (repeat (cases h with | head => rfl | tail _ h => ?_)); exact nomatch h

set_option maxRecDepth 8192 in
theorem piece1_sub : (piece1 : List (HloOp τ sig (Elt F))).Forall fun op => op.bufs ⊆ tcRefs τ sig :=
  ⟨nullary_bufs_sub .., unary_bufs_sub .., binary_bufs_sub .., nullary_bufs_sub ..⟩
set_option maxRecDepth 8192 in
theorem piece1_fresh : ∀ op ∈ (piece1 : List (HloOp τ sig (Elt F))), op.fresh = ∅ := by
  intro _ h; (repeat (cases h with | head => rfl | tail _ h => ?_)); exact nomatch h

set_option maxRecDepth 8192 in
theorem piece2_sub : (piece2 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem piece2_fresh : ∀ op ∈ (piece2 : List (HloOp τ sig (Elt F))), op.fresh = ∅ := by
  intro _ h; (repeat (cases h with | head => rfl | tail _ h => ?_)); exact nomatch h

set_option maxRecDepth 8192 in
theorem piece3_sub : (piece3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
set_option maxRecDepth 8192 in
theorem piece3_fresh : ∀ op ∈ (piece3 : List (HloOp τ sig (Elt F))), op.fresh = ∅ := by
  intro _ h; (repeat (cases h with | head => rfl | tail _ h => ?_)); exact nomatch h

set_option maxRecDepth 8192 in
theorem piece4_sub : (piece4 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem piece4_fresh : ∀ op ∈ (piece4 : List (HloOp τ sig (Elt F))), op.fresh = ∅ := by
  intro _ h; (repeat (cases h with | head => rfl | tail _ h => ?_)); exact nomatch h

set_option maxRecDepth 8192 in
theorem piece5_sub : (piece5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
set_option maxRecDepth 8192 in
theorem piece5_fresh : ∀ op ∈ (piece5 : List (HloOp τ sig (Elt F))), op.fresh = ∅ := by
  intro _ h; (repeat (cases h with | head => rfl | tail _ h => ?_)); exact nomatch h

set_option maxRecDepth 8192 in
theorem piece6_sub : (piece6 : List (HloOp τ sig (Elt F))).Forall fun op => op.bufs ⊆ tcRefs τ sig :=
  ⟨ternary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
set_option maxRecDepth 8192 in
theorem piece6_fresh : ∀ op ∈ (piece6 : List (HloOp τ sig (Elt F))), op.fresh = ∅ := by
  intro _ h; (repeat (cases h with | head => rfl | tail _ h => ?_)); exact nomatch h

set_option maxRecDepth 8192 in
theorem piece7_sub : (piece7 : List (HloOp τ sig (Elt F))).Forall fun op => op.bufs ⊆ tcRefs τ sig :=
  ⟨nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
set_option maxRecDepth 8192 in
theorem piece7_fresh : ∀ op ∈ (piece7 : List (HloOp τ sig (Elt F))), op.fresh = ∅ := by
  intro _ h; (repeat (cases h with | head => rfl | tail _ h => ?_)); exact nomatch h

set_option maxRecDepth 8192 in
theorem piece8_sub : (piece8 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩
set_option maxRecDepth 8192 in
theorem piece8_fresh : ∀ op ∈ (piece8 : List (HloOp τ sig (Elt F))), op.fresh = ∅ := by
  intro _ h; (repeat (cases h with | head => rfl | tail _ h => ?_)); exact nomatch h

/-- Every operation touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp piece0_sub op h, List.forall_iff_forall_mem.mp piece1_sub op h, List.forall_iff_forall_mem.mp piece2_sub op h, List.forall_iff_forall_mem.mp piece3_sub op h, List.forall_iff_forall_mem.mp piece4_sub op h, List.forall_iff_forall_mem.mp piece5_sub op h, List.forall_iff_forall_mem.mp piece6_sub op h, List.forall_iff_forall_mem.mp piece7_sub op h, List.forall_iff_forall_mem.mp piece8_sub op h]

/-- Every operation determines its results. -/
theorem ops_fresh : ∀ op ∈ (ops : List (HloOp τ sig (Elt F))), op.fresh = ∅ := fun op h => by
    simp only [ops, List.mem_append] at h
    rcases h with h | h | h | h | h | h | h | h | h
    exacts [piece0_fresh op h, piece1_fresh op h, piece2_fresh op h, piece3_fresh op h, piece4_fresh op h, piece5_fresh op h, piece6_fresh op h, piece7_fresh op h, piece8_fresh op h]

/-- The buffers that the operations of `piece0` write. -/
abbrev piece0_W : List (Ref sig .tc) := [main_c, main_v0, main_v1, main_c_0, main_v2, main_v3, main_v4, main_v5, main_v6, main_cst, main_v7, main_v8, main_v9, main_v10, main_v11, main_v12, main_v13, main_v14, main_v15, main_v16, main_v17, main_v18, main_v19, main_v20, main_v21, main_v22, main_v23, main_v24, main_v25, main_v26, main_v27, main_v28, main_cst_1, main_v29, main_v30, main_cst_2, main_v31, main_v32, main_v33, main_v34, main_v35, main_cst_3, main_v36, main_v37, main_cst_4, main_v38, main_v39, main_v40, main_v41, main_v42, main_cst_5, main_v43, main_v44, main_v45, main_v46, main_v47]
set_option maxRecDepth 8192 in
theorem piece0_writes : (piece0 : List (HloOp τ sig (Elt F))).Forall fun op => op.writes ⊆ (piece0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece0` does not write keeps its contents through it. -/
theorem piece0_keep (V : Valuation τ sig (Elt F)) {r : Ref sig .tc} (h : r ∉ piece0_W) :
    after piece0 V (Proc.devRef .tc r) = V (Proc.devRef .tc r) :=
  after_of_writes_sub piece0 V piece0_writes h

/-- The buffers that the operations of `piece1` write. -/
abbrev piece1_W : List (Ref sig .tc) := [main_c_6, main_v48, main_v49, main_c_7]
set_option maxRecDepth 8192 in
theorem piece1_writes : (piece1 : List (HloOp τ sig (Elt F))).Forall fun op => op.writes ⊆ (piece1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece1` does not write keeps its contents through it. -/
theorem piece1_keep (V : Valuation τ sig (Elt F)) {r : Ref sig .tc} (h : r ∉ piece1_W) :
    after piece1 V (Proc.devRef .tc r) = V (Proc.devRef .tc r) :=
  after_of_writes_sub piece1 V piece1_writes h

/-- The buffers that the operations of `piece2` write. -/
abbrev piece2_W : List (Ref sig .tc) := [main_v50, main_v51, main_v52, main_v53, main_v54, main_cst_8, main_v55, main_v56, main_v57, main_v58, main_v59, main_v60, main_v61, main_v62, main_v63, main_v64, main_v65, main_v66, main_v67, main_v68, main_v69, main_v70, main_v71, main_v72, main_v73, main_v74, main_v75, main_v76, main_cst_9, main_v77, main_v78, main_cst_10, main_v79, main_v80, main_v81, main_v82, main_v83, main_cst_11, main_v84, main_v85, main_cst_12, main_v86, main_v87, main_v88, main_v89, main_v90, main_cst_13, main_v91, main_v92, main_v93, main_v94, main_v95]
set_option maxRecDepth 8192 in
theorem piece2_writes : (piece2 : List (HloOp τ sig (Elt F))).Forall fun op => op.writes ⊆ (piece2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece2` does not write keeps its contents through it. -/
theorem piece2_keep (V : Valuation τ sig (Elt F)) {r : Ref sig .tc} (h : r ∉ piece2_W) :
    after piece2 V (Proc.devRef .tc r) = V (Proc.devRef .tc r) :=
  after_of_writes_sub piece2 V piece2_writes h

/-- The buffers that the operations of `piece3` write. -/
abbrev piece3_W : List (Ref sig .tc) := [main_c_14, main_v96, main_v97, main_c_15, main_v98, main_v99, main_v100, main_v101]
set_option maxRecDepth 8192 in
theorem piece3_writes : (piece3 : List (HloOp τ sig (Elt F))).Forall fun op => op.writes ⊆ (piece3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece3` does not write keeps its contents through it. -/
theorem piece3_keep (V : Valuation τ sig (Elt F)) {r : Ref sig .tc} (h : r ∉ piece3_W) :
    after piece3 V (Proc.devRef .tc r) = V (Proc.devRef .tc r) :=
  after_of_writes_sub piece3 V piece3_writes h

/-- The buffers that the operations of `piece4` write. -/
abbrev piece4_W : List (Ref sig .tc) := [main_v102, main_cst_16, main_v103, main_v104, main_v105, main_v106, main_v107, main_v108, main_v109, main_v110, main_v111, main_v112, main_v113, main_v114, main_v115, main_v116, main_v117, main_v118, main_v119, main_v120, main_v121, main_v122, main_v123, main_v124, main_cst_17, main_v125, main_v126, main_cst_18, main_v127, main_v128, main_v129, main_v130, main_v131, main_cst_19, main_v132, main_v133, main_cst_20, main_v134, main_v135, main_v136, main_v137, main_v138, main_cst_21, main_v139, main_v140, main_v141, main_v142, main_v143]
set_option maxRecDepth 8192 in
theorem piece4_writes : (piece4 : List (HloOp τ sig (Elt F))).Forall fun op => op.writes ⊆ (piece4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece4` does not write keeps its contents through it. -/
theorem piece4_keep (V : Valuation τ sig (Elt F)) {r : Ref sig .tc} (h : r ∉ piece4_W) :
    after piece4 V (Proc.devRef .tc r) = V (Proc.devRef .tc r) :=
  after_of_writes_sub piece4 V piece4_writes h

/-- The buffers that the operations of `piece5` write. -/
abbrev piece5_W : List (Ref sig .tc) := [main_c_22, main_v144, main_v145, main_c_23, main_v146, main_v147, main_v148, main_v149, main_v150, main_cst_24, main_v151, main_v152]
set_option maxRecDepth 8192 in
theorem piece5_writes : (piece5 : List (HloOp τ sig (Elt F))).Forall fun op => op.writes ⊆ (piece5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece5` does not write keeps its contents through it. -/
theorem piece5_keep (V : Valuation τ sig (Elt F)) {r : Ref sig .tc} (h : r ∉ piece5_W) :
    after piece5 V (Proc.devRef .tc r) = V (Proc.devRef .tc r) :=
  after_of_writes_sub piece5 V piece5_writes h

/-- The buffers that the operations of `piece6` write. -/
abbrev piece6_W : List (Ref sig .tc) := [main_v153, main_v154, main_v155, main_v156, main_v157, main_v158, main_v159, main_v160, main_v161, main_v162, main_v163, main_v164, main_v165, main_v166, main_v167, main_v168, main_v169, main_v170, main_v171, main_v172, main_cst_25, main_v173, main_v174, main_cst_26, main_v175, main_v176, main_v177, main_v178, main_v179, main_cst_27, main_v180, main_v181, main_cst_28, main_v182, main_v183, main_v184, main_v185, main_v186, main_cst_29, main_v187, main_v188, main_v189, main_v190, main_v191]
set_option maxRecDepth 8192 in
theorem piece6_writes : (piece6 : List (HloOp τ sig (Elt F))).Forall fun op => op.writes ⊆ (piece6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece6` does not write keeps its contents through it. -/
theorem piece6_keep (V : Valuation τ sig (Elt F)) {r : Ref sig .tc} (h : r ∉ piece6_W) :
    after piece6 V (Proc.devRef .tc r) = V (Proc.devRef .tc r) :=
  after_of_writes_sub piece6 V piece6_writes h

/-- The buffers that the operations of `piece7` write. -/
abbrev piece7_W : List (Ref sig .tc) := [main_cst_30, main_v192, main_v193, main_v194, main_v195, main_v196, main_cst_31, main_call0.v0.ref, main_call0.v1.ref, main_call0.v2.ref, main_call1.cst.ref, main_call1.v0.ref, main_call1.v1.ref, main_v199, main_v200, main_v201, main_v202, main_v203, main_call2.cst.ref, main_call2.v0.ref, main_call2.v1.ref, main_call2.cst_0.ref, main_call2.v2.ref, main_call2.v3.ref, main_call2.call0.v0.ref, main_v205]
set_option maxRecDepth 8192 in
theorem piece7_writes : (piece7 : List (HloOp τ sig (Elt F))).Forall fun op => op.writes ⊆ (piece7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece7` does not write keeps its contents through it. -/
theorem piece7_keep (V : Valuation τ sig (Elt F)) {r : Ref sig .tc} (h : r ∉ piece7_W) :
    after piece7 V (Proc.devRef .tc r) = V (Proc.devRef .tc r) :=
  after_of_writes_sub piece7 V piece7_writes h

/-- The buffers that the operations of `piece8` write. -/
abbrev piece8_W : List (Ref sig .tc) := [main_v206, main_v207, main_v208, main_v209, main_call3.cst.ref, main_call3.v0.ref, main_call3.v1.ref, main_call3.cst_0.ref, main_call3.v2.ref, main_call3.v3.ref, main_call3.call0.v0.ref, main_v211, main_v212, main_v213, main_v214, main_v215]
set_option maxRecDepth 8192 in
theorem piece8_writes : (piece8 : List (HloOp τ sig (Elt F))).Forall fun op => op.writes ⊆ (piece8_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `piece8` does not write keeps its contents through it. -/
theorem piece8_keep (V : Valuation τ sig (Elt F)) {r : Ref sig .tc} (h : r ∉ piece8_W) :
    after piece8 V (Proc.devRef .tc r) = V (Proc.devRef .tc r) :=
  after_of_writes_sub piece8 V piece8_writes h

end Cert.RefRun

end
-- ==== Proof.RefRun.lean ====
/-
  The reference program's run, read back as one function of its arguments.

  The operation list is read round by round. One round of message passing is 56 consecutive operations that compute,
  from the node states in one buffer and from the argument buffers, the next node states `pass h src dst wih whh bih bhh`
  into another buffer (`roundK_val`); the last 42 operations compute the readout `mlpT (pool h gid) …` from the fourth
  round's states (`readout_val`). No operation writes an argument buffer, and a round does not write the buffer it reads
  the states from, so the contents after all 266 operations are the composition of the five maps: `whole` of the
  arguments at the result buffer (`readback`), every argument where it was (`args_kept`). `run` states this of every
  weakly fair execution of the program from any memory with zero counters.
-/
import proofs.«133389_j14199161880902_1_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo Cert.GnnSpec

variable {F : FTy → Type} [FloatOps F]

/-- The contents after two lists run one after the other: the second list's from the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Every weakly fair execution of @main terminates, and every TensorCore buffer ends at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The rounds

The five stretches of the list: the four rounds of message passing and the readout. Definitions, not abbreviations: a
stretch is opened only where its operations are read. -/

/-- The first round: operations 1 … 56. -/
def round1 : List (HloOp τ sig (Elt F)) := piece0
/-- The second round: operations 57 … 112. -/
def round2 : List (HloOp τ sig (Elt F)) := piece1 ++ piece2
/-- The third round: operations 113 … 168. -/
def round3 : List (HloOp τ sig (Elt F)) := piece3 ++ piece4
/-- The fourth round: operations 169 … 224. -/
def round4 : List (HloOp τ sig (Elt F)) := piece5 ++ piece6
/-- The readout: operations 225 … 266. -/
def readout : List (HloOp τ sig (Elt F)) := piece7 ++ piece8

/-- The list is the five stretches in order. -/
theorem ops_eq_rounds : (ops : List (HloOp τ sig (Elt F))) = round1 ++ (round2 ++ (round3 ++ (round4 ++ readout))) := by
  simp only [ops, round1, round2, round3, round4, readout, List.append_assoc]

/-! ## What a stretch leaves alone -/

/-- A buffer that `round1` does not write keeps its contents through it. -/
theorem round1_keep (V : Valuation τ sig (Elt F)) {r : Ref sig .tc} (h : r ∉ piece0_W) :
    after round1 V (Proc.devRef .tc r) = V (Proc.devRef .tc r) := by
  unfold round1
  exact piece0_keep V h
/-- `round1_keep` keyed for `simp`: the reference is matched, not indexed. -/
theorem round1_keep' (V : Valuation τ sig (Elt F)) {r : Ref sig .tc} (h : r ∉ piece0_W) :
    after round1 V (no_index (Proc.devRef .tc r)) = V (Proc.devRef .tc r) := round1_keep V h

/-- A buffer that `round2` does not write keeps its contents through it. -/
theorem round2_keep (V : Valuation τ sig (Elt F)) {r : Ref sig .tc} (h : r ∉ piece1_W ++ piece2_W) :
    after round2 V (Proc.devRef .tc r) = V (Proc.devRef .tc r) := by
  unfold round2
  rw [after_app, piece2_keep _ (fun hh => h (List.mem_append_right _ hh)), piece1_keep _ (fun hh => h (List.mem_append_left _ hh))]
/-- `round2_keep` keyed for `simp`: the reference is matched, not indexed. -/
theorem round2_keep' (V : Valuation τ sig (Elt F)) {r : Ref sig .tc} (h : r ∉ piece1_W ++ piece2_W) :
    after round2 V (no_index (Proc.devRef .tc r)) = V (Proc.devRef .tc r) := round2_keep V h

/-- A buffer that `round3` does not write keeps its contents through it. -/
theorem round3_keep (V : Valuation τ sig (Elt F)) {r : Ref sig .tc} (h : r ∉ piece3_W ++ piece4_W) :
    after round3 V (Proc.devRef .tc r) = V (Proc.devRef .tc r) := by
  unfold round3
  rw [after_app, piece4_keep _ (fun hh => h (List.mem_append_right _ hh)), piece3_keep _ (fun hh => h (List.mem_append_left _ hh))]
/-- `round3_keep` keyed for `simp`: the reference is matched, not indexed. -/
theorem round3_keep' (V : Valuation τ sig (Elt F)) {r : Ref sig .tc} (h : r ∉ piece3_W ++ piece4_W) :
    after round3 V (no_index (Proc.devRef .tc r)) = V (Proc.devRef .tc r) := round3_keep V h

/-- A buffer that `round4` does not write keeps its contents through it. -/
theorem round4_keep (V : Valuation τ sig (Elt F)) {r : Ref sig .tc} (h : r ∉ piece5_W ++ piece6_W) :
    after round4 V (Proc.devRef .tc r) = V (Proc.devRef .tc r) := by
  unfold round4
  rw [after_app, piece6_keep _ (fun hh => h (List.mem_append_right _ hh)), piece5_keep _ (fun hh => h (List.mem_append_left _ hh))]
/-- `round4_keep` keyed for `simp`: the reference is matched, not indexed. -/
theorem round4_keep' (V : Valuation τ sig (Elt F)) {r : Ref sig .tc} (h : r ∉ piece5_W ++ piece6_W) :
    after round4 V (no_index (Proc.devRef .tc r)) = V (Proc.devRef .tc r) := round4_keep V h

/-- A buffer that `readout` does not write keeps its contents through it. -/
theorem readout_keep (V : Valuation τ sig (Elt F)) {r : Ref sig .tc} (h : r ∉ piece7_W ++ piece8_W) :
    after readout V (Proc.devRef .tc r) = V (Proc.devRef .tc r) := by
  unfold readout
  rw [after_app, piece8_keep _ (fun hh => h (List.mem_append_right _ hh)), piece7_keep _ (fun hh => h (List.mem_append_left _ hh))]
/-- `readout_keep` keyed for `simp`: the reference is matched, not indexed. -/
theorem readout_keep' (V : Valuation τ sig (Elt F)) {r : Ref sig .tc} (h : r ∉ piece7_W ++ piece8_W) :
    after readout V (no_index (Proc.devRef .tc r)) = V (Proc.devRef .tc r) := readout_keep V h

/-! ## What a stretch computes

Each is a computation: the fold unrolled, every operation's result read at its own buffer and passed over at the others,
and the composed term is the specification's by unfolding its definitions (the gather, the scatter-add and the
contractions stay folded: the two sides apply them to the same operands). -/

attribute [local irreducible] Host.scatterAdd Host.gather in
set_option maxRecDepth 8192 in
set_option maxHeartbeats 4000000 in
/-- The first round computes the first new node states from the arguments'. -/
theorem round1_val (V : Valuation τ sig (Elt F)) :
    after round1 V (Proc.devRef .tc main_v47)
      = pass (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  unfold round1
  simp only [piece0]
  after_results_simp
  rfl

attribute [local irreducible] Host.scatterAdd Host.gather in
set_option maxRecDepth 8192 in
set_option maxHeartbeats 4000000 in
/-- The second round, from the first's states. -/
theorem round2_val (V : Valuation τ sig (Elt F)) :
    after round2 V (Proc.devRef .tc main_v95)
      = pass (V (Proc.devRef .tc main_v47)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  unfold round2
  rw [after_app]
  simp only [piece1, piece2]
  after_results_simp
  rfl

attribute [local irreducible] Host.scatterAdd Host.gather in
set_option maxRecDepth 8192 in
set_option maxHeartbeats 4000000 in
/-- The third round, from the second's states. -/
theorem round3_val (V : Valuation τ sig (Elt F)) :
    after round3 V (Proc.devRef .tc main_v143)
      = pass (V (Proc.devRef .tc main_v95)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  unfold round3
  rw [after_app]
  simp only [piece3, piece4]
  after_results_simp
  rfl

attribute [local irreducible] Host.scatterAdd Host.gather in
set_option maxRecDepth 8192 in
set_option maxHeartbeats 4000000 in
/-- The fourth round, from the third's states. -/
theorem round4_val (V : Valuation τ sig (Elt F)) :
    after round4 V (Proc.devRef .tc main_v191)
      = pass (V (Proc.devRef .tc main_v143)) (V (Proc.devRef .tc main_arg1)) (V (Proc.devRef .tc main_arg2)) (V (Proc.devRef .tc main_arg4)) (V (Proc.devRef .tc main_arg5)) (V (Proc.devRef .tc main_arg6)) (V (Proc.devRef .tc main_arg7)) := by
  unfold round4
  rw [after_app]
  simp only [piece5, piece6]
  after_results_simp
  rfl

attribute [local irreducible] Host.scatterAdd Host.gather in
set_option maxRecDepth 8192 in
set_option maxHeartbeats 4000000 in
/-- The readout computes the network's output from the fourth round's states: the per-graph sums, `max(log ·, 0)` (the
    two module-local functions' operations in line), the three affine layers with the leaky rectifier's operations in line. -/
theorem readout_val (V : Valuation τ sig (Elt F)) :
    after readout V (Proc.devRef .tc main_v215)
      = mlpT (pool (V (Proc.devRef .tc main_v191)) (V (Proc.devRef .tc main_arg3)))
          (transpose S150x80 [1, 0] (V (Proc.devRef .tc main_arg8)) transposes_S80x150_S150x80_1_0) (broadcastInDim S1x80 ![1] bcast_S80_S1x80_1 (V (Proc.devRef .tc main_arg9)))
          (transpose S80x80 [1, 0] (V (Proc.devRef .tc main_arg10)) transposes_S80x80_S80x80_1_0) (broadcastInDim S1x80 ![1] bcast_S80_S1x80_1 (V (Proc.devRef .tc main_arg11)))
          (transpose S80x10 [1, 0] (V (Proc.devRef .tc main_arg12)) transposes_S10x80_S80x10_1_0) (broadcastInDim S1x10 ![1] bcast_S10_S1x10_1 (V (Proc.devRef .tc main_arg13))) := by
  unfold readout
  rw [after_app]
  simp only [piece7, piece8]
  after_results_simp
  rfl

/-! ## The whole list -/

/-- After all the operations the result buffer holds the network's output of the arguments: the five stretches
    composed, each reading the argument buffers as they were at the start. -/
theorem readback (V : Valuation τ sig (Elt F)) :
    after ops V (Proc.devRef .tc main_v215)
      = whole (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [ops_eq_rounds]
  simp only [after_app]
  rw [readout_val, round4_val, round3_val, round2_val, round1_val]
  simp (disch := decide) only [round1_keep', round2_keep', round3_keep', round4_keep']
  rfl

/-- A buffer no stretch writes holds after all the operations what it held before. -/
theorem args_kept (V : Valuation τ sig (Elt F)) (r : Ref sig .tc) (h1 : r ∉ piece0_W) (h2 : r ∉ piece1_W ++ piece2_W)
    (h3 : r ∉ piece3_W ++ piece4_W) (h4 : r ∉ piece5_W ++ piece6_W) (h5 : r ∉ piece7_W ++ piece8_W) :
    after ops V (Proc.devRef .tc r) = V (Proc.devRef .tc r) := by
  rw [ops_eq_rounds]
  simp only [after_app]
  rw [readout_keep _ h5, round4_keep _ h4, round3_keep _ h3, round2_keep _ h2, round1_keep _ h1]

/-- On every device, for any float values, from any memory with zero counters: every weakly fair execution of @main
    terminates with the result buffer at the network's output of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v215)
        = Cert.GnnSpec.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v215).trans (readback (launchContents m c)),
      (h c main_arg0).trans (args_kept _ main_arg0 (by decide) (by decide) (by decide) (by decide) (by decide)),
      (h c main_arg1).trans (args_kept _ main_arg1 (by decide) (by decide) (by decide) (by decide) (by decide)),
      (h c main_arg2).trans (args_kept _ main_arg2 (by decide) (by decide) (by decide) (by decide) (by decide)),
      (h c main_arg3).trans (args_kept _ main_arg3 (by decide) (by decide) (by decide) (by decide) (by decide)),
      (h c main_arg4).trans (args_kept _ main_arg4 (by decide) (by decide) (by decide) (by decide) (by decide)),
      (h c main_arg5).trans (args_kept _ main_arg5 (by decide) (by decide) (by decide) (by decide) (by decide)),
      (h c main_arg6).trans (args_kept _ main_arg6 (by decide) (by decide) (by decide) (by decide) (by decide)),
      (h c main_arg7).trans (args_kept _ main_arg7 (by decide) (by decide) (by decide) (by decide) (by decide)),
      (h c main_arg8).trans (args_kept _ main_arg8 (by decide) (by decide) (by decide) (by decide) (by decide)),
      (h c main_arg9).trans (args_kept _ main_arg9 (by decide) (by decide) (by decide) (by decide) (by decide)),
      (h c main_arg10).trans (args_kept _ main_arg10 (by decide) (by decide) (by decide) (by decide) (by decide)),
      (h c main_arg11).trans (args_kept _ main_arg11 (by decide) (by decide) (by decide) (by decide) (by decide)),
      (h c main_arg12).trans (args_kept _ main_arg12 (by decide) (by decide) (by decide) (by decide) (by decide)),
      (h c main_arg13).trans (args_kept _ main_arg13 (by decide) (by decide) (by decide) (by decide) (by decide))⟩)
    (run_main m ρ)

end Cert.RefRun

end
-- ==== Proof.BridgeIdx.lean ====
/-
  The one index fact every matrix product of this network needs: a contraction record with one contracting axis —
  rows by columns, `[M, K] · [K, N]`, no batch axis — sums, at output index (p, q), the products
  `lhs (p, i) * rhs (i, q)` over `i : Fin K`. Stated once for every record with those dimension numbers, whatever the
  proof of their side conditions, so that the kernel's block product, the reference's whole-array product and the three
  readout products are all instances.
-/
import Idealize.ShloMosaic.Lib.KernelVsHost
import Idealize.ShloMosaic.Lib.IdealHost
import Idealize.ShloMosaic.Lib.ValueLayout

noncomputable section

open scoped BigOperators

namespace Cert.Bridge

open Idealize.ShloMosaic Idealize.ShloMosaic.ValueIdx

/-- The dimension numbers `<[1], [0], [0], [1], [], []>` at shapes `[M, K]`, `[K, N]`, `[M, N]`. -/
abbrev plainD {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ :=
  { lhsContracting := [1], rhsContracting := [0], lhsNonContracting := [0], rhsNonContracting := [1],
    lhsBatch := [], rhsBatch := [], wf := wf }

/-- The left operand's index at output (p, q) and contraction coordinate i is (p, i). -/
theorem plainD_lhsIdx {M K N : Nat} (wf : DotDims.WF ⟨2, ![M, K]⟩ ⟨2, ![K, N]⟩ ⟨2, ![M, N]⟩ [1] [0] [0] [1] [] [])
    (p : Fin M) (q : Fin N) (i : Fin K) :
    (plainD wf).lhsIdx (ix2 p q) ((contrEquiv1 (plainD wf) K rfl rfl).symm i) = ix2 p i := by
  funext a
  match a with
  | ⟨0, _⟩ => rfl
  | ⟨1, _⟩ =>
    refine Fin.ext ?_
    exact ((plainD wf).lhsIdx_val_of_single (cl := (1 : Fin 2)) rfl (ix2 p q) _).trans
      (contrEquiv1_symm_val (plainD wf) K rfl rfl i)

/-- The right operand's index at output (p, q) and contraction coordinate i is (i, q). -/
theorem plainD_rhsIdx {M K N : Nat} (wf : DotDims.WF ⟨2, ![M, K]⟩ ⟨2, ![K, N]⟩ ⟨2, ![M, N]⟩ [1] [0] [0] [1] [] [])
    (p : Fin M) (q : Fin N) (i : Fin K) :
    (plainD wf).rhsIdx (ix2 p q) ((contrEquiv1 (plainD wf) K rfl rfl).symm i) = ix2 i q := by
  funext a
  match a with
  | ⟨0, _⟩ =>
    refine Fin.ext ?_
    exact ((plainD wf).rhsIdx_val_of_single (cr := (0 : Fin 2)) rfl (ix2 p q) _).trans
      (contrEquiv1_symm_val (plainD wf) K rfl rfl i)
  | ⟨1, _⟩ => rfl

/-- The contraction's sum at output (p, q), over the contracted coordinate. -/
theorem plainD_sum {M K N : Nat} (wf : DotDims.WF ⟨2, ![M, K]⟩ ⟨2, ![K, N]⟩ ⟨2, ![M, N]⟩ [1] [0] [0] [1] [] [])
    (lhs : (⟨2, ![M, K]⟩ : Shape).Idx → EReal) (rhs : (⟨2, ![K, N]⟩ : Shape).Idx → EReal) (p : Fin M) (q : Fin N) :
    ∑ k : (plainD wf).contr.Idx, lhs ((plainD wf).lhsIdx (ix2 p q) k) * rhs ((plainD wf).rhsIdx (ix2 p q) k)
      = ∑ i : Fin K, lhs (ix2 p i) * rhs (ix2 i q) := by
  rw [← Equiv.sum_comp (contrEquiv1 (plainD wf) K rfl rfl).symm]
  exact Finset.sum_congr rfl fun i _ => by rw [plainD_lhsIdx, plainD_rhsIdx]

/-! ## Pointwise functions read at an index (all by unfolding) -/

section Pointwise
variable {s : Shape} {φ : FTy}

/-- The kernel's logistic at an index is the extended reals' logistic of the element. -/
theorem logistic_apply (x : FVec Ideal s φ) (i : s.Idx) : logistic x i = Ideal.logistic (x i) := rfl
/-- The kernel's hyperbolic tangent at an index. -/
theorem tanh_apply (x : FVec Ideal s φ) (i : s.Idx) : tanh x i = Ideal.tanh (x i) := rfl
/-- The kernel's logarithm at an index. -/
theorem log_apply (x : FVec Ideal s φ) (i : s.Idx) : log x i = Ideal.log (x i) := rfl
/-- The host's hyperbolic tangent at an index is the same function of the element. -/
theorem hostTanh_apply (x : FVec Ideal s φ) (i : s.Idx) : Host.tanh x i = Ideal.tanh (x i) := rfl
/-- The host's exponential at an index. -/
theorem hostExp_apply (x : FVec Ideal s φ) (i : s.Idx) : Host.exp x i = Ideal.exp (x i) := rfl
/-- The host's logarithm at an index. -/
theorem hostLog_apply (x : FVec Ideal s φ) (i : s.Idx) : Host.log x i = Ideal.log (x i) := rfl
/-- The host's negation at an index. -/
theorem hostNegf_apply (x : FVec Ideal s φ) (i : s.Idx) : Host.negf x i = -(x i) := rfl
/-- A scalar with the bits of a constant is the extended real the bits denote. -/
theorem scalarOfBits_eq (b : BitVec φ.bits) : Scalar.ofBits (F := Ideal) φ b = Ideal.ofBits φ b := rfl

end Pointwise

end Cert.Bridge

end
-- ==== Proof.BridgeGru.lean ====
/-
  The recurrent cell, kernel against specification, one entry at a time.

  Both programs compute, at row r and column j of the state,
    h'(r, j) = (1 - z) · tanh (gi(300 + j) + ρ · gh(300 + j)) + z · h(r, j),
    ρ = σ (gi(j) + gh(j)),  z = σ (gi(150 + j) + gh(150 + j)),
  from the two pre-activations of row r, gi(q) = ∑ₖ inc(r, k) · Wᵀ(k, q) + b(0, q) and gh(q) = ∑ₖ h(r, k) · Uᵀ(k, q) + b'(0, q),
  with σ x = 1 / (1 + e⁻ˣ) on the extended reals. The kernel spells this on a block of 1000 rows (a matrix product into a
  zero accumulator, a one-row bias broadcast down the rows, three column bands cut out by slices, its own logistic); the
  specification spells it on the whole array with the host's operations. `pre` and `cellAt` are the two formulas on
  extended reals; each side is read at an index to them, and a block's row p of block t is row 1000·t + p of the array.
-/
import proofs.«133389_j14199161880902_1_alg».proof.Proof.Spec
import proofs.«133389_j14199161880902_1_alg».proof.Proof.Gen.KernelIdeal.Skeleton
import proofs.«133389_j14199161880902_1_alg».proof.Proof.BridgeIdx
import proofs.«133389_j14199161880902_1_alg».proof.Proof.BridgeStmt

noncomputable section

open scoped BigOperators

namespace Cert.Bridge

open Idealize.ShloMosaic Idealize.ShloMosaic.ValueIdx

/-! ## The two formulas on extended reals -/

/-- A gate's pre-activation at column `q`, from one row of the input: `∑ₖ row k · w (k, q) + b (0, q)`. -/
def pre (row : Fin 150 → EReal) (w : FVec Ideal ⟨2, ![150, 450]⟩ .f32) (b : FVec Ideal ⟨2, ![1, 450]⟩ .f32) (q : Fin 450) : EReal :=
  (∑ k : Fin 150, row k * w (ix2 k q)) + b (ix2 (0 : Fin 1) q)

/-- The cell's new state at column `j`, from the two pre-activations of a row and the old state there. -/
def cellAt (gi gh : Fin 450 → EReal) (hv : EReal) (j : Fin 150) : EReal :=
  (1 - Ideal.logistic (gi ⟨150 + j.val, by omega⟩ + gh ⟨150 + j.val, by omega⟩))
      * Ideal.tanh (gi ⟨300 + j.val, by omega⟩
          + Ideal.logistic (gi ⟨j.val, by omega⟩ + gh ⟨j.val, by omega⟩) * gh ⟨300 + j.val, by omega⟩)
    + Ideal.logistic (gi ⟨150 + j.val, by omega⟩ + gh ⟨150 + j.val, by omega⟩) * hv

/-! ## The kernel's side: a block of 1000 rows -/

section Kernel
open Cert.KernelIdeal Cert.KernelIdeal.Gen

/-- The kernel's pre-activation of a block, in its own operations. -/
def kgate (x : FVec Ideal S1000x150 .f32) (w : FVec Ideal S150x450 .f32) (b : FVec Ideal S1x450 .f32) : FVec Ideal S1000x450 .f32 :=
  addf
    (matmul dot_S1000x150_S150x450_S1000x450_1_0_0_1_n_n none (truncf .bf16 x bitsLt_bf16_f32)
      (truncf .bf16 (shapeCast S150x450 w shapeCasts_S150x450_S150x450) bitsLt_bf16_f32) (constant S1000x450 .f32 0x00000000#32))
    (broadcastTo S1000x450 (shapeCast S1x450 b shapeCasts_S1x450_S1x450) broadcasts_S1x450_S1000x450)

/-- The kernel's cell on a block, in its own operations. -/
def kcell (gi gh : FVec Ideal S1000x450 .f32) (h : FVec Ideal S1000x150 .f32) : FVec Ideal S1000x150 .f32 :=
  addf
    (mulf
      (subf (broadcast S1000x150 (Scalar.ofBits .f32 0x3F800000#32))
        (logistic (addf (extractStridedSlice S1000x150 ![0, 150] gi slices_S1000x450_o0_150_S1000x150)
          (extractStridedSlice S1000x150 ![0, 150] gh slices_S1000x450_o0_150_S1000x150))))
      (tanh (addf (extractStridedSlice S1000x150 ![0, 300] gi slices_S1000x450_o0_300_S1000x150)
        (mulf
          (logistic (addf (extractStridedSlice S1000x150 ![0, 0] gi slices_S1000x450_o0_0_S1000x150)
            (extractStridedSlice S1000x150 ![0, 0] gh slices_S1000x450_o0_0_S1000x150)))
          (extractStridedSlice S1000x150 ![0, 300] gh slices_S1000x450_o0_300_S1000x150)))))
    (mulf
      (logistic (addf (extractStridedSlice S1000x150 ![0, 150] gi slices_S1000x450_o0_150_S1000x150)
        (extractStridedSlice S1000x150 ![0, 150] gh slices_S1000x450_o0_150_S1000x150)))
      h)

/-- The kernel's payload is that cell of those two pre-activations: the same operations in the same order. -/
theorem k0_pay1_eq (x0 x1 : Vec Ideal S1000x150 .f32) (wT uT : Vec Ideal S150x450 .f32) (b1 b2 : Vec Ideal S1x450 .f32) :
    k0_pay1 (F := Ideal) x0 x1 wT uT b1 b2
      = kcell (kgate (shapeCast S1000x150 x0 shapeCasts_S1000x150_S1000x150) wT b1) (kgate x1 uT b2) x1 := rfl

/-- The kernel's pre-activation at row `p`, column `q` of the block. -/
theorem kgate_apply (x : FVec Ideal S1000x150 .f32) (w : FVec Ideal S150x450 .f32) (b : FVec Ideal S1x450 .f32)
    (p : Fin 1000) (q : Fin 450) : kgate x w b (ix2 p q) = pre (fun k => x (ix2 p k)) w b q := by
  unfold kgate
  rw [shapeCast_self, shapeCast_self]
  show FloatOps.matmul dot_S1000x150_S150x450_S1000x450_1_0_0_1_n_n none x w (constant S1000x450 .f32 0x00000000#32) (ix2 p q)
      + broadcastTo S1000x450 b broadcasts_S1x450_S1000x450 (ix2 p q) = _
  rw [Ideal.matmul_constant_zero_apply, broadcastTo_1b_ab_apply]
  exact congrArg (· + b (ix2 (0 : Fin 1) q)) (plainD_sum _ x w p q)

/-- The kernel's cell at row `p`, column `j` of the block. -/
theorem kcell_apply (gi gh : FVec Ideal S1000x450 .f32) (h : FVec Ideal S1000x150 .f32) (p : Fin 1000) (j : Fin 150) :
    kcell gi gh h (ix2 p j) = cellAt (fun q => gi (ix2 p q)) (fun q => gh (ix2 p q)) (h (ix2 p j)) j := by
  have e0 : ∀ v : FVec Ideal S1000x450 .f32,
      extractStridedSlice S1000x150 ![0, 0] v slices_S1000x450_o0_0_S1000x150 (ix2 p j) = v (ix2 p (⟨j.val, by omega⟩ : Fin 450)) :=
    fun v => slice2_axis1_apply 0 v _ p j _ (Nat.zero_add _).symm
  have e1 : ∀ v : FVec Ideal S1000x450 .f32,
      extractStridedSlice S1000x150 ![0, 150] v slices_S1000x450_o0_150_S1000x150 (ix2 p j) = v (ix2 p (⟨150 + j.val, by omega⟩ : Fin 450)) :=
    fun v => slice2_axis1_apply 150 v _ p j _ rfl
  have e2 : ∀ v : FVec Ideal S1000x450 .f32,
      extractStridedSlice S1000x150 ![0, 300] v slices_S1000x450_o0_300_S1000x150 (ix2 p j) = v (ix2 p (⟨300 + j.val, by omega⟩ : Fin 450)) :=
    fun v => slice2_axis1_apply 300 v _ p j _ rfl
  unfold kcell cellAt
  simp only [addf_apply, mulf_apply, subf_apply, broadcast_apply, logistic_apply, tanh_apply, e0, e1, e2, scalarOfBits_eq,
    Ideal.ofBits_one_f32]

end Kernel

/-! ## The specification's side: the whole array -/

section Spec
open Cert.ReferenceIdeal Cert.ReferenceIdeal.Gen Cert.GnnSpec

/-- The specification's pre-activation at row `r`, column `q` of the array. -/
theorem gate_apply (x : Arr Ideal S100000x150 .f32) (w : Arr Ideal S150x450 .f32) (b : Arr Ideal S1x450 .f32)
    (r : Fin 100000) (q : Fin 450) : gate x w b (ix2 r q) = pre (fun k => x (ix2 r k)) w b q := by
  unfold gate
  show FloatOps.dotGeneral (F := Ideal) dot_S100000x150_S150x450_S100000x450_1_0_0_1_n_n none .single x w (ix2 r q)
      + broadcastInDim S100000x450 ![0, 1] bcast_S1x450_S100000x450_0_1 b (ix2 r q) = _
  rw [Ideal.dotGeneral_apply, broadcastInDim_oneRow_apply]
  exact congrArg (· + b (ix2 (0 : Fin 1) q)) (plainD_sum _ x w r q)

/-- The host's spelling `1 / (1 + e⁻ˣ)` is the logistic function at every entry: its two constants are the extended real one. -/
theorem sigm_apply (x : Arr Ideal S100000x150 .f32) (i : S100000x150.Idx) : sigm x i = Ideal.logistic (x i) := by
  show Ideal.div (Ideal.ofBits .f32 0x3F800000#32) (Ideal.ofBits .f32 0x3F800000#32 + Ideal.exp (-(x i))) = _
  rw [Ideal.ofBits_one_f32]
  rfl

/-- The specification's cell at row `r`, column `j` of the array. -/
theorem cell_apply (gi gh : Arr Ideal S100000x450 .f32) (h : Arr Ideal S100000x150 .f32) (r : Fin 100000) (j : Fin 150) :
    cell gi gh h (ix2 r j) = cellAt (fun q => gi (ix2 r q)) (fun q => gh (ix2 r q)) (h (ix2 r j)) j := by
  have e0 : ∀ v : Arr Ideal S100000x450 .f32,
      extractStridedSlice S100000x150 ![0, 0] v slices_S100000x450_S100000x150_0_0 (ix2 r j) = v (ix2 r (⟨j.val, by omega⟩ : Fin 450)) :=
    fun v => slice2_axis1_apply 0 v _ r j _ (Nat.zero_add _).symm
  have e1 : ∀ v : Arr Ideal S100000x450 .f32,
      extractStridedSlice S100000x150 ![0, 150] v slices_S100000x450_S100000x150_0_150 (ix2 r j) = v (ix2 r (⟨150 + j.val, by omega⟩ : Fin 450)) :=
    fun v => slice2_axis1_apply 150 v _ r j _ rfl
  have e2 : ∀ v : Arr Ideal S100000x450 .f32,
      extractStridedSlice S100000x150 ![0, 300] v slices_S100000x450_S100000x150_0_300 (ix2 r j) = v (ix2 r (⟨300 + j.val, by omega⟩ : Fin 450)) :=
    fun v => slice2_axis1_apply 300 v _ r j _ rfl
  have one : broadcastInDim S100000x150 ![] bcast_S_S100000x150 (constant (F := Ideal) S_ .f32 0x3F800000#32) (ix2 r j) = 1 :=
    Ideal.ofBits_one_f32
  unfold cell band0 band1 band2 cellAt
  simp only [addf_apply, mulf_apply, subf_apply, hostTanh_apply, sigm_apply, e0, e1, e2, one]

end Spec

/-! ## One block of the cell -/

open Cert.GnnSpec in
/-- One block of the cell: row `p` of block `t` is row `1000·t + p` of the whole array. -/
theorem gru_block
    (inc h : Arr Ideal Cert.ReferenceIdeal.S100000x150 .f32) (wT uT : Arr Ideal Cert.ReferenceIdeal.S150x450 .f32)
    (b1 b2 : Arr Ideal Cert.ReferenceIdeal.S1x450 .f32)
    (t : Fin 100) (x0 x1 : Vec Ideal Cert.KernelIdeal.S1000x150 .f32)
    (hx0 : ∀ (p : Fin 1000) (k : Fin 150), x0 (ix2 p k) = inc (ix2 (⟨1000 * t.val + p.val, by omega⟩ : Fin 100000) k))
    (hx1 : ∀ (p : Fin 1000) (k : Fin 150), x1 (ix2 p k) = h (ix2 (⟨1000 * t.val + p.val, by omega⟩ : Fin 100000) k))
    (p : Fin 1000) (j : Fin 150) :
    Cert.KernelIdeal.Gen.k0_pay1 (F := Ideal) x0 x1 wT uT b1 b2 (ix2 p j)
      = gruT inc h wT uT b1 b2 (ix2 (⟨1000 * t.val + p.val, by omega⟩ : Fin 100000) j) := by
  rw [k0_pay1_eq, kcell_apply]
  unfold gruT
  rw [cell_apply]
  simp only [kgate_apply, gate_apply, shapeCast_self, hx0, hx1]

/-! ## The other three calls

The second, third and fourth calls run one text, which is the first call's with one more identity reshape, of the old
state, before its two uses. -/

section Calls
open Cert.KernelIdeal Cert.KernelIdeal.Gen

/-- The second call's payload is the same cell of the same pre-activations, the old state passed through an identity reshape. -/
theorem k1_pay1_kcell (x0 x1 : Vec Ideal S1000x150 .f32) (wT uT : Vec Ideal S150x450 .f32) (b1 b2 : Vec Ideal S1x450 .f32) :
    k1_pay1 (F := Ideal) x0 x1 wT uT b1 b2
      = kcell (kgate (shapeCast S1000x150 x0 shapeCasts_S1000x150_S1000x150) wT b1)
          (kgate (shapeCast S1000x150 x1 shapeCasts_S1000x150_S1000x150) uT b2)
          (shapeCast S1000x150 x1 shapeCasts_S1000x150_S1000x150) := rfl

/-- So it is the first call's payload: a reshape to the same shape is the identity. -/
theorem k1_pay1_eq : @k1_pay1 Ideal _ = @k0_pay1 Ideal _ := by
  funext x0 x1 wT uT b1 b2
  rw [k1_pay1_kcell, k0_pay1_eq, shapeCast_self x1]

/-- The third and fourth calls' payloads are the second's, letter for letter. -/
theorem k2_pay1_eq : @k2_pay1 Ideal _ = @k0_pay1 Ideal _ := (rfl : @k2_pay1 Ideal _ = @k1_pay1 Ideal _).trans k1_pay1_eq
theorem k3_pay1_eq : @k3_pay1 Ideal _ = @k0_pay1 Ideal _ := (rfl : @k3_pay1 Ideal _ = @k1_pay1 Ideal _).trans k1_pay1_eq

end Calls

/-! ## The four calls against the specification -/

/-- The first call's payload computes, on block `t`, block `t` of the specification's cell. -/
theorem cell0 : CellBridge (Cert.KernelIdeal.Gen.k0_pay1 (F := Ideal)) :=
  fun inc h wT uT b1 b2 t x0 x1 hx0 hx1 p j => gru_block inc h wT uT b1 b2 t x0 x1 hx0 hx1 p j

/-- So do the other three, being the same function. -/
theorem cell1 : CellBridge (Cert.KernelIdeal.Gen.k1_pay1 (F := Ideal)) := by rw [k1_pay1_eq]; exact cell0
theorem cell2 : CellBridge (Cert.KernelIdeal.Gen.k2_pay1 (F := Ideal)) := by rw [k2_pay1_eq]; exact cell0
theorem cell3 : CellBridge (Cert.KernelIdeal.Gen.k3_pay1 (F := Ideal)) := by rw [k3_pay1_eq]; exact cell0

end Cert.Bridge

end
-- ==== Proof.BridgeMlp.lean ====
/-
  The readout, kernel against specification, as whole arrays.

  Both programs compute `max(log g, 0)` (a zero selected where the logarithm differs from itself), then three affine layers
  `x · Wᵀ + b` with the leaky rectifier `x ↦ x if x ≥ 0 else c · x` after the first two. The kernel spells a layer as a
  matrix product into a zero accumulator plus its one-row bias broadcast down the rows, compares with the ordered
  "differs" and splats its constants; the specification spells it with the host's product, the unordered "differs" and
  broadcast constants. On the extended reals a product into a zero accumulator is the product, the two broadcasts of a
  one-row matrix read the same entry, the ordered and the unordered comparison are one function, and a broadcast
  constant is the splat; the narrowing before each product is the identity. So the two terms are equal layer by layer.
-/
import proofs.«133389_j14199161880902_1_alg».proof.Proof.Spec
import proofs.«133389_j14199161880902_1_alg».proof.Proof.Gen.KernelIdeal.Skeleton
import proofs.«133389_j14199161880902_1_alg».proof.Proof.BridgeIdx
import proofs.«133389_j14199161880902_1_alg».proof.Proof.BridgeStmt

noncomputable section

namespace Cert.Bridge

open Idealize.ShloMosaic Idealize.ShloMosaic.ValueIdx

/-! ## One layer -/

/-- A one-row matrix laid along every row: the kernel's broadcast and the host's read the same entry. -/
theorem broadcastTo_oneRow_eq_broadcastInDim {α : Type} {m n : Nat} (y : (⟨2, ![1, n]⟩ : Shape).Idx → α)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ y hb = broadcastInDim ⟨2, ![m, n]⟩ ![0, 1] hd y := by
  funext i
  obtain ⟨r, t, rfl⟩ : ∃ (r : Fin m) (t : Fin n), i = ix2 r t := ⟨i 0, i 1, eq_ix2 i⟩
  rw [broadcastTo_1b_ab_apply, broadcastInDim_oneRow_apply]

/-- The kernel's affine layer, in its own operations: both operands narrowed, the product taken into a zero
    accumulator, the one-row bias broadcast down the rows. -/
def kdense {M K N : Nat} (D : DotDims ⟨2, ![M, K]⟩ ⟨2, ![K, N]⟩ ⟨2, ![M, N]⟩) (x : FVec Ideal ⟨2, ![M, K]⟩ .f32)
    (w : FVec Ideal ⟨2, ![K, N]⟩ .f32) (b : FVec Ideal ⟨2, ![1, N]⟩ .f32) (hlt : FTy.bits .bf16 < FTy.bits .f32)
    (h1 : (⟨2, ![K, N]⟩ : Shape).ShapeCasts ⟨2, ![K, N]⟩) (h2 : (⟨2, ![1, N]⟩ : Shape).ShapeCasts ⟨2, ![1, N]⟩)
    (hb : (⟨2, ![1, N]⟩ : Shape).Broadcasts ⟨2, ![M, N]⟩) : FVec Ideal ⟨2, ![M, N]⟩ .f32 :=
  addf
    (matmul D none (truncf .bf16 x hlt) (truncf .bf16 (shapeCast ⟨2, ![K, N]⟩ w h1) hlt) (constant ⟨2, ![M, N]⟩ .f32 0x00000000#32))
    (broadcastTo ⟨2, ![M, N]⟩ (shapeCast ⟨2, ![1, N]⟩ b h2) hb)

/-- It is the host's layer at the same dimension numbers. -/
theorem kdense_eq {M K N : Nat} (Dk Dr : DotDims ⟨2, ![M, K]⟩ ⟨2, ![K, N]⟩ ⟨2, ![M, N]⟩) (hD : Dk = Dr)
    (x : FVec Ideal ⟨2, ![M, K]⟩ .f32) (w : FVec Ideal ⟨2, ![K, N]⟩ .f32) (b : FVec Ideal ⟨2, ![1, N]⟩ .f32)
    (hlt : FTy.bits .bf16 < FTy.bits .f32) (h1 : (⟨2, ![K, N]⟩ : Shape).ShapeCasts ⟨2, ![K, N]⟩)
    (h2 : (⟨2, ![1, N]⟩ : Shape).ShapeCasts ⟨2, ![1, N]⟩) (hb : (⟨2, ![1, N]⟩ : Shape).Broadcasts ⟨2, ![M, N]⟩)
    (hd : (⟨2, ![1, N]⟩ : Shape).BroadcastsInDim ⟨2, ![M, N]⟩ ![0, 1]) :
    kdense Dk x w b hlt h1 h2 hb
      = addf (Host.dotGeneral (F := Ideal) Dr none x w) (broadcastInDim ⟨2, ![M, N]⟩ ![0, 1] hd b) := by
  subst hD
  unfold kdense
  rw [shapeCast_self, shapeCast_self, matmul_zero_eq_dotGeneral, broadcastTo_oneRow_eq_broadcastInDim b hb hd]
  rfl

/-! ## The two activations, in the kernel's operations -/

/-- The kernel's leaky rectifier. -/
def klrelu {s : Shape} (x : FVec Ideal s .f32) : FVec Ideal s .f32 :=
  select (cmpf .oge x (broadcast s (Scalar.ofBits .f32 0x00000000#32))) x
    (mulf (broadcast s (Scalar.ofBits .f32 0x3C23D70A#32)) x)

/-- The kernel's `max(log g, 0)`. -/
def klogrelu {s : Shape} (g : FVec Ideal s .f32) : FVec Ideal s .f32 :=
  maximumf (select (cmpf .one (log g) (log g)) (broadcast s (Scalar.ofBits .f32 0x00000000#32)) (log g))
    (broadcast s (Scalar.ofBits .f32 0x00000000#32))

/-! ## The readout -/

section Readout
open Cert.KernelIdeal Cert.KernelIdeal.Gen

/-- The kernel's three payloads compose to three layers and the activations between them: the same operations in the same order. -/
theorem k4_eq (g : Vec Ideal S64x150 .f32) (w1T : Vec Ideal S150x80 .f32) (b1 : Vec Ideal S1x80 .f32) (w2T : Vec Ideal S80x80 .f32)
    (b2 : Vec Ideal S1x80 .f32) (w3T : Vec Ideal S80x10 .f32) (b3 : Vec Ideal S1x10 .f32) :
    k4_pay1 (F := Ideal) (k4_pay2 g w1T b1 w2T b2) (k4_pay3 w3T) b3
      = kdense dot_S64x80_S80x10_S64x10_1_0_0_1_n_n
          (klrelu (kdense dot_S64x80_S80x80_S64x80_1_0_0_1_n_n
            (klrelu (kdense dot_S64x150_S150x80_S64x80_1_0_0_1_n_n (klogrelu (shapeCast S64x150 g shapeCasts_S64x150_S64x150)) w1T b1
              bitsLt_bf16_f32 shapeCasts_S150x80_S150x80 shapeCasts_S1x80_S1x80 broadcasts_S1x80_S64x80))
            w2T b2 bitsLt_bf16_f32 shapeCasts_S80x80_S80x80 shapeCasts_S1x80_S1x80 broadcasts_S1x80_S64x80))
          w3T b3 bitsLt_bf16_f32 shapeCasts_S80x10_S80x10 shapeCasts_S1x10_S1x10 broadcasts_S1x10_S64x10 := rfl

end Readout

open Cert.GnnSpec in
/-- The kernel's readout is the specification's, as functions on the [64, 10] index. -/
theorem mlp_whole (g : Arr Ideal Cert.ReferenceIdeal.S64x150 .f32) (w1T : Arr Ideal Cert.ReferenceIdeal.S150x80 .f32)
    (b1 : Arr Ideal Cert.ReferenceIdeal.S1x80 .f32) (w2T : Arr Ideal Cert.ReferenceIdeal.S80x80 .f32)
    (b2 : Arr Ideal Cert.ReferenceIdeal.S1x80 .f32) (w3T : Arr Ideal Cert.ReferenceIdeal.S80x10 .f32)
    (b3 : Arr Ideal Cert.ReferenceIdeal.S1x10 .f32) :
    Cert.KernelIdeal.Gen.k4_pay1 (F := Ideal) (Cert.KernelIdeal.Gen.k4_pay2 g w1T b1 w2T b2) (Cert.KernelIdeal.Gen.k4_pay3 w3T) b3
      = mlpT g w1T b1 w2T b2 w3T b3 := by
  rw [k4_eq, shapeCast_self,
    kdense_eq Cert.KernelIdeal.dot_S64x150_S150x80_S64x80_1_0_0_1_n_n Cert.ReferenceIdeal.dot_S64x150_S150x80_S64x80_1_0_0_1_n_n rfl
      _ _ _ _ _ _ _ Cert.ReferenceIdeal.Gen.bcast_S1x80_S64x80_0_1,
    kdense_eq Cert.KernelIdeal.dot_S64x80_S80x80_S64x80_1_0_0_1_n_n Cert.ReferenceIdeal.dot_S64x80_S80x80_S64x80_1_0_0_1_n_n rfl
      _ _ _ _ _ _ _ Cert.ReferenceIdeal.Gen.bcast_S1x80_S64x80_0_1,
    kdense_eq Cert.KernelIdeal.dot_S64x80_S80x10_S64x10_1_0_0_1_n_n Cert.ReferenceIdeal.dot_S64x80_S80x10_S64x10_1_0_0_1_n_n rfl
      _ _ _ _ _ _ _ Cert.ReferenceIdeal.Gen.bcast_S1x10_S64x10_0_1]
  rfl

/-- The readout kernel's payload, as a function of the seven arrays it reads, computes the specification's readout. -/
theorem mlp : MlpBridge (fun x0 x1 x2 x3 x4 x5 x6 =>
    Cert.KernelIdeal.Gen.k4_pay1 (F := Ideal) (Cert.KernelIdeal.Gen.k4_pay2 x0 x1 x2 x3 x4) (Cert.KernelIdeal.Gen.k4_pay3 x5) x6) :=
  fun g w1T b1 w2T b2 w3T b3 => mlp_whole g w1T b1 w2T b2 w3T b3

end Cert.Bridge

end
-- ==== Proof.lean ====
/-
  The certificate: a graph network's kernel program against its reference program, equal on the extended reals.

  Both programs pass messages four times over a graph of 100000 nodes — every node sums the states of the nodes that point
  at it, and a gated recurrent cell updates its state from that sum — and then read out each of 64 graphs: the sum of its
  nodes' states, `max(log ·, 0)`, three affine layers with a leaky rectifier. The kernel program runs the recurrent
  cell and the readout as kernel regions (matrix operands narrowed to 16 bits into 32-bit accumulators — the identity on the
  extended reals — and the logistic function as one operation, which there is `1 / (1 + e⁻ˣ)`) and keeps the aggregation among
  the host operations; the reference is host operations throughout. Proof/Spec.lean writes the common function once, over whole arrays.

  • The frames of the two kernel programs are the generated frame certificates; the reference's is its run with the
    result dropped.
  • The ideal pass rewrote nothing, so `preserves` is trivial.
  • `algebraic`: the idealized kernel program's run ends with its result buffer at the last boundary's contents
    (Proof/KernelRun.lean), which walked back through the regions and the host stretches is the specification of the
    arguments (Proof/Walk.lean, over Proof/Region0 … Region4 and Proof/HostWalk.lean, given that each kernel body's arithmetic is
    the specification's: Proof/BridgeGru.lean, Proof/BridgeMlp.lean); the reference's run ends with its result at the same
    specification of its arguments (Proof/RefRun.lean); the arguments agree.
  No step uses the inputs' finiteness: every operation is paired with the same operation on the same extended reals.
-/
import proofs.«133389_j14199161880902_1_alg».proof.Defs
import proofs.«133389_j14199161880902_1_alg».proof.Proof.Gen.Kernel
import proofs.«133389_j14199161880902_1_alg».proof.Proof.Gen.Kernel.Frame
import proofs.«133389_j14199161880902_1_alg».proof.Proof.Gen.KernelIdeal
import proofs.«133389_j14199161880902_1_alg».proof.Proof.Gen.KernelIdeal.Frame
import proofs.«133389_j14199161880902_1_alg».proof.Proof.Gen.ReferenceIdeal
import proofs.«133389_j14199161880902_1_alg».proof.Proof.Gen.Pre_finite_inputs
import proofs.«133389_j14199161880902_1_alg».proof.Proof.KernelRun
import proofs.«133389_j14199161880902_1_alg».proof.Proof.Walk
import proofs.«133389_j14199161880902_1_alg».proof.Proof.RefRun
import proofs.«133389_j14199161880902_1_alg».proof.Proof.BridgeGru
import proofs.«133389_j14199161880902_1_alg».proof.Proof.BridgeMlp

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.RefRun.run m ρ)

theorem preserves : Cert.preserves_Kernel_KernelIdeal := trivial

/-- Both idealized programs end with the specification of their (agreeing) arguments in their result buffers. -/
theorem algebraic : Cert.algebraic_KernelIdeal_ReferenceIdeal := by
  intro m ρ m' ρ' _ hagree
  refine ⟨fun c => Cert.GnnSpec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.Walk.result m ρ c Cert.Bridge.cell0 Cert.Bridge.cell1 Cert.Bridge.cell2 Cert.Bridge.cell3 Cert.Bridge.mlp), (h c).2⟩)
      (Cert.KernelRun.run_fold m ρ)
  · refine (θ_run Cert.ReferenceIdeal.defs _ _).mono (fun r h c => ⟨(h c).1.trans ?_, (h c).2⟩) (Cert.RefRun.run m' ρ')
    obtain ⟨e0, e1, e2, e3, e4, e5, e6, e7, e8, e9, e10, e11, e12, e13⟩ := hagree c
    rw [e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
